-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x256 : Shape := ⟨2, ![4096, 256]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_

variable [Facts]

def fn {F : FTy → Type} [FloatOps F] (main_arg0 : FVec F S4096x1024 .f32) (main_arg1 : FVec F S4096x1024 .f32) (main_arg2 : FVec F S4096x256 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  main_v13
-- ==== Kernel.lean ====
abbrev S4096x1024 : Shape := ⟨2, ![4096, 1024]⟩
abbrev S4096x256 : Shape := ⟨2, ![4096, 256]⟩
abbrev S4096x1 : Shape := ⟨2, ![4096, 1]⟩
abbrev S256x1024 : Shape := ⟨2, ![256, 1024]⟩
abbrev S256x256 : Shape := ⟨2, ![256, 256]⟩
abbrev S256x1 : Shape := ⟨2, ![256, 1]⟩
abbrev S256 : Shape := ⟨1, ![256]⟩
abbrev S1024x256 : Shape := ⟨2, ![1024, 256]⟩
abbrev S1x256 : Shape := ⟨2, ![1, 256]⟩
abbrev S4096 : Shape := ⟨1, ![4096]⟩
abbrev S_ : Shape := ⟨0, ![]⟩

abbrev nBuf : Space → Nat
  | .hbm => 17
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x256, .f32⟩
  | .hbm, ⟨3, _⟩ => ⟨S4096x1, .f32⟩
  | .hbm, ⟨4, _⟩ => ⟨S4096x1, .f32⟩
  | .hbm, ⟨5, _⟩ => ⟨S4096, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x1, .f32⟩
  | .local _ .vmem, ⟨11, _⟩ => ⟨S256x1, .f32⟩
  | .local _ .vmem, ⟨12, _⟩ => ⟨S256x1, .f32⟩
  | .local _ .vmem, ⟨13, _⟩ => ⟨S256x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg0 : BitVec 32 := BitVec.ofNat 32 (i 0).val
  let arg1 : BitVec 32 := BitVec.ofNat 32 (i 1).val
  let v0 : BitVec 1 := Scalar.cmpi .eq arg0 arg1
  let v92 : BitVec 32 := Scalar.extui v0
  let c0_i32_31 : BitVec 32 := 0#32
  let v93 : BitVec 1 := Scalar.cmpi .ne v92 c0_i32_31
  v93

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  inb_S256x1024_S256x1024_0_0 : ∀ a, (![0, 0] : Fin 2 → Nat) a + S256x1024.size a ≤ S256x1024.size a
  h_S256x1024 : 0 < S256x1024.numel
  inb_S256x256_S256x256_0_0 : ∀ a, (![0, 0] : Fin 2 → Nat) a + S256x256.size a ≤ S256x256.size a
  h_S256x256 : 0 < S256x256.numel
  reduces_S256x1024_S256 : S256x1024.Reduces [1] S256
  shapeCasts_S256_S256x1 : S256.ShapeCasts S256x1
  reduces_S256x256_S256 : S256x256.Reduces [1] S256
  bitsLt_bf16_f32 : FTy.bits .bf16 < FTy.bits .f32
  transposes_S256x1024_p1_0_S1024x256 : S256x1024.Transposes [1, 0] S1024x256
  transposes_S256x256_p1_0_S256x256 : S256x256.Transposes [1, 0] S256x256
  transposes_S256x1_p1_0_S1x256 : S256x1.Transposes [1, 0] S1x256
  broadcasts_S256x1_S256x256 : S256x1.Broadcasts S256x256
  broadcasts_S1x256_S256x256 : S1x256.Broadcasts S256x256
  iota_S256x256_d0_w32 : S256x256.Iotas .tc 32 [0]
  iota_S256x256_d1_w32 : S256x256.Iotas .tc 32 [1]
  natLt_1_32 : 1 < 32
  inb_S256x1_S256x1_0_0 : ∀ a, (![0, 0] : Fin 2 → Nat) a + S256x1.size a ≤ S256x1.size a
  h_S256x1 : 0 < S256x1.numel
  shapeCasts_S256x1_S256x1 : S256x1.ShapeCasts S256x1
  shapeCasts_S4096x1_S4096 : S4096x1.ShapeCasts S4096
  bcast_S_S4096 : S_.BroadcastsInDim S4096 (![] : Fin 0 → Fin S4096.rank)
  reducesTo_S4096_S_d0 : S4096.ReducesTo [0] S_
  h_S_ : 0 < S_.numel
  dot_S256x1024_S1024x256_S256x256_1_0_0_1_n_n_wf : DotDims.WF S256x1024 S1024x256 S256x256 [1] [0] [0] [1] [] []
  dot_S256x256_S256x256_S256x256_1_0_0_1_n_n_wf : DotDims.WF S256x256 S256x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S4096x256.size a
  hwx0_3 : ∀ i : grid0.Coords, EltTy.bits .f32 = 32 ∨ (Rect.block (s := S4096x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S4096x256.size a
  hwx0_4 : ∀ i : grid0.Coords, EltTy.bits .f32 = 32 ∨ (Rect.block (s := S4096x256) S256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S4096x1.size a
  hwx0_5 : ∀ i : grid0.Coords, EltTy.bits .f32 = 32 ∨ (Rect.block (s := S4096x1) S256x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S4096x1.size a
  hwx0_6 : ∀ i : grid0.Coords, EltTy.bits .f32 = 32 ∨ (Rect.block (s := S4096x1) S256x1.size (cc0_transform_6 i) (hinb0_6 i)).WholeWords (EltTy.packing .f32)

variable [Facts₀]

def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S256x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S256x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S256x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096x256 : Shape := ⟨2, ![4096, 256]⟩
abbrev S8192x1024 : Shape := ⟨2, ![8192, 1024]⟩
abbrev S1024x8192 : Shape := ⟨2, ![1024, 8192]⟩
abbrev S4096x8192 : Shape := ⟨2, ![4096, 8192]⟩
abbrev S_ : Shape := ⟨0, ![]⟩
abbrev S4096 : Shape := ⟨1, ![4096]⟩
abbrev S8192 : Shape := ⟨1, ![8192]⟩
abbrev S4096x1 : Shape := ⟨2, ![4096, 1]⟩
abbrev S1x8192 : Shape := ⟨2, ![1, 8192]⟩
abbrev S8192x256 : Shape := ⟨2, ![8192, 256]⟩
abbrev S256x8192 : Shape := ⟨2, ![256, 8192]⟩
abbrev S4096x2 : Shape := ⟨2, ![4096, 2]⟩

abbrev nBuf : Space → Nat
  | .hbm => 128
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x256, .f32⟩
  | .hbm, ⟨3, _⟩ => ⟨S8192x1024, .f32⟩
  | .hbm, ⟨4, _⟩ => ⟨S1024x8192, .f32⟩
  | .hbm, ⟨5, _⟩ => ⟨S4096x8192, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S4096x1, .f32⟩
  | .hbm, ⟨15, _⟩ => ⟨S1x8192, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S4096x8192, .f32⟩
  | .hbm, ⟨24, _⟩ => ⟨S8192x256, .f32⟩
  | .hbm, ⟨25, _⟩ => ⟨S256x8192, .f32⟩
  | .hbm, ⟨26, _⟩ => ⟨S4096x8192, .f32⟩
  | .hbm, ⟨27, _⟩ => ⟨S4096x256, .f32⟩
  | .hbm, ⟨28, _⟩ => ⟨S_, .f32⟩
  | .hbm, ⟨29, _⟩ => ⟨S4096, .f32⟩
  | .hbm, ⟨30, _⟩ => ⟨S4096, .f32⟩
  | .hbm, ⟨31, _⟩ => ⟨S8192x256, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S4096x1, .f32⟩
  | .hbm, ⟨36, _⟩ => ⟨S1x8192, .f32⟩
  | .hbm, ⟨37, _⟩ => ⟨S4096x8192, .f32⟩
  | .hbm, ⟨38, _⟩ => ⟨S4096x8192, .f32⟩
  | .hbm, ⟨39, _⟩ => ⟨S4096x8192, .f32⟩
  | .hbm, ⟨40, _⟩ => ⟨S_, .f32⟩
  | .hbm, ⟨41, _⟩ => ⟨S4096x8192, .f32⟩
  | .hbm, ⟨42, _⟩ => ⟨S4096x8192, .f32⟩
  | .hbm, ⟨43, _⟩ => ⟨S4096x8192, .f32⟩
  | .hbm, ⟨44, _⟩ => ⟨S_, .f32⟩
  | .hbm, ⟨45, _⟩ => ⟨S4096x8192, .f32⟩
  | .hbm, ⟨46, _⟩ => ⟨S4096x8192, .f32⟩
  | .hbm, ⟨47, _⟩ => ⟨S_, .f32⟩
  | .hbm, ⟨48, _⟩ => ⟨S4096x8192, .f32⟩
  | .hbm, ⟨49, _⟩ => ⟨S4096x8192, .f32⟩
  | .hbm, ⟨50, _⟩ => ⟨S4096, .i32⟩
  | .hbm, ⟨51, _⟩ => ⟨S_, .f32⟩
  | .hbm, ⟨52, _⟩ => ⟨S4096x8192, .f32⟩
  | .hbm, ⟨53, _⟩ => ⟨S_, .i32⟩
  | .hbm, ⟨54, _⟩ => ⟨S4096, .i32⟩
  | .hbm, ⟨55, _⟩ => ⟨S4096, .i1⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S4096, .i32⟩
  | .hbm, ⟨60, _⟩ => ⟨S_, .i32⟩
  | .hbm, ⟨61, _⟩ => ⟨S4096, .i32⟩
  | .hbm, ⟨62, _⟩ => ⟨S4096, .i1⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .i32⟩
  | .hbm, ⟨67, _⟩ => ⟨S4096x1, .i32⟩
  | .hbm, ⟨68, _⟩ => ⟨S4096x1, .i32⟩
  | .hbm, ⟨69, _⟩ => ⟨S4096x2, .i32⟩
  | .hbm, ⟨70, _⟩ => ⟨S_, .f32⟩
  | .hbm, ⟨71, _⟩ => ⟨S4096, .f32⟩
  | .hbm, ⟨72, _⟩ => ⟨S4096x8192, .f32⟩
  | .hbm, ⟨73, _⟩ => ⟨S_, .i32⟩
  | .hbm, ⟨74, _⟩ => ⟨S4096, .i32⟩
  | .hbm, ⟨75, _⟩ => ⟨S4096, .i32⟩
  | .hbm, ⟨76, _⟩ => ⟨S_, .i32⟩
  | .hbm, ⟨77, _⟩ => ⟨S4096, .i32⟩
  | .hbm, ⟨78, _⟩ => ⟨S4096, .i1⟩
  | .hbm, ⟨79, _⟩ => ⟨S_, .i32⟩
  | .hbm, ⟨80, _⟩ => ⟨S4096, .i32⟩
  | .hbm, ⟨81, _⟩ => ⟨S4096, .i32⟩
  | .hbm, ⟨82, _⟩ => ⟨S4096, .i32⟩
  | .hbm, ⟨83, _⟩ => ⟨S_, .i32⟩
  | .hbm, ⟨84, _⟩ => ⟨S4096, .i32⟩
  | .hbm, ⟨85, _⟩ => ⟨S4096, .i1⟩
  | .hbm, ⟨86, _⟩ => ⟨S_, .i32⟩
  | .hbm, ⟨87, _⟩ => ⟨S4096, .i32⟩
  | .hbm, ⟨88, _⟩ => ⟨S4096, .i32⟩
  | .hbm, ⟨89, _⟩ => ⟨S4096, .i32⟩
  | .hbm, ⟨90, _⟩ => ⟨S4096x1, .i32⟩
  | .hbm, ⟨91, _⟩ => ⟨S4096x1, .i32⟩
  | .hbm, ⟨92, _⟩ => ⟨S4096x2, .i32⟩
  | .hbm, ⟨93, _⟩ => ⟨S_, .f32⟩
  | .hbm, ⟨94, _⟩ => ⟨S4096, .f32⟩
  | .hbm, ⟨95, _⟩ => ⟨S4096x8192, .f32⟩
  | .hbm, ⟨96, _⟩ => ⟨S_, .i32⟩
  | .hbm, ⟨97, _⟩ => ⟨S4096, .i32⟩
  | .hbm, ⟨98, _⟩ => ⟨S4096, .i1⟩
  | .hbm, ⟨99, _⟩ => ⟨S_, .i32⟩
  | .hbm, ⟨100, _⟩ => ⟨S4096, .i32⟩
  | .hbm, ⟨101, _⟩ => ⟨S4096, .i32⟩
  | .hbm, ⟨102, _⟩ => ⟨S4096, .i32⟩
  | .hbm, ⟨103, _⟩ => ⟨S_, .i32⟩
  | .hbm, ⟨104, _⟩ => ⟨S4096, .i32⟩
  | .hbm, ⟨105, _⟩ => ⟨S4096, .i1⟩
  | .hbm, ⟨106, _⟩ => ⟨S_, .i32⟩
  | .hbm, ⟨107, _⟩ => ⟨S4096, .i32⟩
  | .hbm, ⟨108, _⟩ => ⟨S4096, .i32⟩
  | .hbm, ⟨109, _⟩ => ⟨S4096, .i32⟩
  | .hbm, ⟨110, _⟩ => ⟨S4096x1, .i32⟩
  | .hbm, ⟨111, _⟩ => ⟨S4096x1, .i32⟩
  | .hbm, ⟨112, _⟩ => ⟨S4096x2, .i32⟩
  | .hbm, ⟨113, _⟩ => ⟨S4096, .f32⟩
  | .hbm, ⟨114, _⟩ => ⟨S4096x8192, .f32⟩
  | .hbm, ⟨115, _⟩ => ⟨S4096x8192, .f32⟩
  | .hbm, ⟨116, _⟩ => ⟨S_, .f32⟩
  | .hbm, ⟨117, _⟩ => ⟨S4096, .f32⟩
  | .hbm, ⟨118, _⟩ => ⟨S_, .f32⟩
  | .hbm, ⟨119, _⟩ => ⟨S4096, .f32⟩
  | .hbm, ⟨120, _⟩ => ⟨S4096, .f32⟩
  | .hbm, ⟨121, _⟩ => ⟨S4096, .f32⟩
  | .hbm, ⟨122, _⟩ => ⟨S4096, .f32⟩
  | .hbm, ⟨123, _⟩ => ⟨S4096, .f32⟩
  | .hbm, ⟨124, _⟩ => ⟨S_, .f32⟩
  | .hbm, ⟨125, _⟩ => ⟨S_, .f32⟩
  | .hbm, ⟨126, _⟩ => ⟨S_, .f32⟩
  | .hbm, ⟨127, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_cst_6 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_7 : Ref sig .tc := ⟨.hbm, 51, rfl⟩
abbrev main_v40 : Ref sig .tc := ⟨.hbm, 52, rfl⟩
abbrev main_c : Ref sig .tc := ⟨.hbm, 53, rfl⟩
abbrev main_v41 : Ref sig .tc := ⟨.hbm, 54, rfl⟩
abbrev main_v42 : Ref sig .tc := ⟨.hbm, 55, rfl⟩
abbrev main_c_8 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_9 : Ref sig .tc := ⟨.hbm, 60, rfl⟩
abbrev main_v46 : Ref sig .tc := ⟨.hbm, 61, rfl⟩
abbrev main_v47 : Ref sig .tc := ⟨.hbm, 62, rfl⟩
abbrev main_c_10 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_c_12 : Ref sig .tc := ⟨.hbm, 73, rfl⟩
abbrev main_v56 : Ref sig .tc := ⟨.hbm, 74, rfl⟩
abbrev main_v57 : Ref sig .tc := ⟨.hbm, 75, rfl⟩
abbrev main_c_13 : Ref sig .tc := ⟨.hbm, 76, rfl⟩
abbrev main_v58 : Ref sig .tc := ⟨.hbm, 77, rfl⟩
abbrev main_v59 : Ref sig .tc := ⟨.hbm, 78, rfl⟩
abbrev main_c_14 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c_15 : Ref sig .tc := ⟨.hbm, 83, rfl⟩
abbrev main_v63 : Ref sig .tc := ⟨.hbm, 84, rfl⟩
abbrev main_v64 : Ref sig .tc := ⟨.hbm, 85, rfl⟩
abbrev main_c_16 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_17 : Ref sig .tc := ⟨.hbm, 93, rfl⟩
abbrev main_v71 : Ref sig .tc := ⟨.hbm, 94, rfl⟩
abbrev main_v72 : Ref sig .tc := ⟨.hbm, 95, rfl⟩
abbrev main_c_18 : Ref sig .tc := ⟨.hbm, 96, rfl⟩
abbrev main_v73 : Ref sig .tc := ⟨.hbm, 97, rfl⟩
abbrev main_v74 : Ref sig .tc := ⟨.hbm, 98, rfl⟩
abbrev main_c_19 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_c_20 : Ref sig .tc := ⟨.hbm, 103, rfl⟩
abbrev main_v78 : Ref sig .tc := ⟨.hbm, 104, rfl⟩
abbrev main_v79 : Ref sig .tc := ⟨.hbm, 105, rfl⟩
abbrev main_c_21 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_22 : Ref sig .tc := ⟨.hbm, 116, rfl⟩
abbrev main_v89 : Ref sig .tc := ⟨.hbm, 117, rfl⟩
abbrev main_cst_23 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_24 : Ref sig .tc := ⟨.hbm, 124, rfl⟩
abbrev main_v95 : Ref sig .tc := ⟨.hbm, 125, rfl⟩
abbrev main_cst_25 : Ref sig .tc := ⟨.hbm, 126, rfl⟩
abbrev main_v96 : Ref sig .tc := ⟨.hbm, 127, rfl⟩

abbrev nD : Nat := 1
abbrev τ : Topo := Topo.v7x

variable {F : FTy → Type} [FloatOps F]

class Facts₀ : Prop where
  concatenates_S4096x1024_S4096x1024_S8192x1024_d0 : Shape.Concatenates [S4096x1024, S4096x1024] S8192x1024 0
  transposes_S8192x1024_S1024x8192_1_0 : S8192x1024.Transposes [1, 0] S1024x8192
  reducesTo_S4096x1024_S4096_d1 : S4096x1024.ReducesTo [1] S4096
  h_S_ : 0 < S_.numel
  reducesTo_S8192x1024_S8192_d1 : S8192x1024.ReducesTo [1] S8192
  bcast_S4096_S4096x1_0 : S4096.BroadcastsInDim S4096x1 (![0] : Fin 1 → Fin S4096x1.rank)
  bcast_S8192_S1x8192_1 : S8192.BroadcastsInDim S1x8192 (![1] : Fin 1 → Fin S1x8192.rank)
  bcast_S4096x1_S4096x8192_0_1 : S4096x1.BroadcastsInDim S4096x8192 (![0, 1] : Fin 2 → Fin S4096x8192.rank)
  bcast_S1x8192_S4096x8192_0_1 : S1x8192.BroadcastsInDim S4096x8192 (![0, 1] : Fin 2 → Fin S4096x8192.rank)
  bcast_S_S4096x8192 : S_.BroadcastsInDim S4096x8192 (![] : Fin 0 → Fin S4096x8192.rank)
  concatenates_S4096x256_S4096x256_S8192x256_d0 : Shape.Concatenates [S4096x256, S4096x256] S8192x256 0
  transposes_S8192x256_S256x8192_1_0 : S8192x256.Transposes [1, 0] S256x8192
  reducesTo_S4096x256_S4096_d1 : S4096x256.ReducesTo [1] S4096
  reducesTo_S8192x256_S8192_d1 : S8192x256.ReducesTo [1] S8192
  bcast_S_S4096 : S_.BroadcastsInDim S4096 (![] : Fin 0 → Fin S4096.rank)
  concatenates_S4096x1_S4096x1_S4096x2_d1 : Shape.Concatenates [S4096x1, S4096x1] S4096x2 1
  reducesTo_S4096x8192_S4096_d1 : S4096x8192.ReducesTo [1] S4096
  reducesTo_S4096_S_d0 : S4096.ReducesTo [0] S_
  dot_S4096x1024_S1024x8192_S4096x8192_1_0_0_1_n_n_wf : DotDims.WF S4096x1024 S1024x8192 S4096x8192 [1] [0] [0] [1] [] []
  dot_S4096x256_S256x8192_S4096x8192_1_0_0_1_n_n_wf : DotDims.WF S4096x256 S256x8192 S4096x8192 [1] [0] [0] [1] [] []
  scatter_S4096x8192_S4096x2_S4096_n_01_01_1_wf : ScatterDims.WF S4096x8192 S4096x2 S4096 [] [0, 1] [0, 1] 1
  gather_S4096x8192_S4096x2_S4096_n_01_n_n_01_1_11_wf : GatherDims.WF S4096x8192 S4096x2 S4096 [] [0, 1] [] [0, 1] [] 1 ![1, 1]

variable [Facts₀]

def dot_S4096x1024_S1024x8192_S4096x8192_1_0_0_1_n_n : DotDims S4096x1024 S1024x8192 S4096x8192 where
  lhsContracting := [1]
  rhsContracting := [0]
  lhsNonContracting := [0]
  rhsNonContracting := [1]
  lhsBatch := []
  rhsBatch := []
  wf := dot_S4096x1024_S1024x8192_S4096x8192_1_0_0_1_n_n_wf
def dot_S4096x256_S256x8192_S4096x8192_1_0_0_1_n_n : DotDims S4096x256 S256x8192 S4096x8192 where
  lhsContracting := [1]
  rhsContracting := [0]
  lhsNonContracting := [0]
  rhsNonContracting := [1]
  lhsBatch := []
  rhsBatch := []
  wf := dot_S4096x256_S256x8192_S4096x8192_1_0_0_1_n_n_wf
def scatter_S4096x8192_S4096x2_S4096_n_01_01_1 : ScatterDims S4096x8192 S4096x2 S4096 where
  updateWindowDims := []
  insertedWindowDims := [0, 1]
  scatterDimsToOperandDims := [0, 1]
  indexVectorDim := 1
  wf := scatter_S4096x8192_S4096x2_S4096_n_01_01_1_wf
def gather_S4096x8192_S4096x2_S4096_n_01_n_n_01_1_11 : GatherDims S4096x8192 S4096x2 S4096 where
  offsetDims := []
  collapsedSliceDims := [0, 1]
  operandBatchingDims := []
  startIndicesBatchingDims := []
  startIndexMap := [0, 1]
  indexVectorDim := 1
  sliceSizes := ![1, 1]
  wf := gather_S4096x8192_S4096x2_S4096_n_01_n_n_01_1_11_wf

class Facts : Prop extends Facts₀ where

variable [Facts]
-- ==== Proof.TileBase.lean ====
/-
  The tile body of the contrastive kernel, shared definitions: the arrays as the region finds them, a window's block at a
  grid point, and the two conditions of the body in closed form over the 16 x 16 grid of (row tile, column tile):
  the row accumulator is reset exactly in column tile 0, and the positive pair is stored exactly on the diagonal tile.
-/
import proofs.«101681_j87290915323999_1_alg».proof.Proof.Gen.KernelIdeal.Launch
import proofs.«101681_j87290915323999_1_alg».proof.Proof.Gen.KernelIdeal.Skeleton
import proofs.«101681_j87290915323999_1_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: as launched (the region is the first operation). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- "column tile = 0": the reset of the row accumulator. -/
abbrev cond1 (i : grid0.Coords) : Prop := (Scalar.cmpi .ne (Scalar.extui (Scalar.cmpi .eq (BitVec.ofNat 32 (i 1).val) 0#32)) 0#32) = 1#1
theorem hcond1 : ∀ t : Fin cfg0.N, cond1 (grid0.coords t) ↔ t.val % 16 = 0 :=
  (by decide +kernel : ∀ t : Fin grid0.N, cond1 (grid0.coords t) ↔ t.val % 16 = 0)
/-- "row tile = column tile": the store of the positive pair. -/
abbrev cond2 (i : grid0.Coords) : Prop := k0_cond2 i = 1#1
theorem hcond2 : ∀ t : Fin cfg0.N, cond2 (grid0.coords t) ↔ t.val / 16 = t.val % 16 :=
  (by decide +kernel : ∀ t : Fin grid0.N, cond2 (grid0.coords t) ↔ t.val / 16 = t.val % 16)

/-- One staging buffer of each output window, through which its contents are stated (the choice does not matter). -/
abbrev VO5 : View sig .tc .vmem S256x1 .f32 := (Memref.whole cc0_stg5_0 : Memref sig .tc .vmem S256x1 .f32).view
abbrev VO6 : View sig .tc .vmem S256x1 .f32 := (Memref.whole cc0_stg6_0 : Memref sig .tc .vmem S256x1 .f32).view

/-- Each window's current staging memref at point `t`, and its wholeness. -/
abbrev ms0 (t : Fin cfg0.N) : Memref sig .tc .vmem S256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x1 .f32 := win0_6.stage (cfg0.slots t 6)
abbrev hs6 (t : Fin cfg0.N) : (ms6 t).IsWhole := hstage0_6 ((cfg0.slots t 6).cast nbuf0_6)

end Cert.KernelIdeal.Tile

end
-- ==== Proof.TileRunKN.lean ====
/-
  The tile body run once, in the case: row accumulator carried (column tile > 0), positive pair not stored (off-diagonal tile).
  On whole staging buffers holding the five input tiles and any contents of the two output buffers, the body runs to the end,
  leaves the inputs as they were, and leaves in the accumulator's buffer the pieces its stores wrote; the positive pair's buffer is handed back untouched.
-/
import proofs.«101681_j87290915323999_1_alg».proof.Proof.TileBase

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runKN (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S256x256 .f32) (h5 : a5.IsWhole) (a6 : Memref sig .tc .vmem S256x256 .f32) (h6 : a6.IsWhole) (a7 : Memref sig .tc .vmem S256x1 .f32) (h7 : a7.IsWhole) (a8 : Memref sig .tc .vmem S256x1 .f32) (h8 : a8.IsWhole) (hc1 : ¬cond1 i) (hc2 : ¬cond2 i)
    (x0 x1 x2 : Vec F S256x1024 .f32) (x3 x4 : Vec F S256x256 .f32) (xo5 xo6 : Vec F S256x1 .f32) :
    { L5 : List (View.Piece (Elt F) S256x1 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
            ∗ owns (c : Thread nD τ) a7 fullShare xo5 ∗ owns (c : Thread nD τ) a8 fullShare xo6
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare x4
                ∗ (∃ f, a7.view.loc (c : Thread nD τ) ↦[a7.view.set]{fullShare} a7.view.writes (Elt F) f L5)
                ∗ owns (c : Thread nD τ) a8 fullShare xo6) -∗ K ⟨⟩))
          ⊢ wp frame (wpE (defs₀ (F := F)) Variants.none c none) E (cc0__contrastive_kernel i a2 h2 a3 h3 a4 h4 a5 h5 a6 h6 a7 h7 a8 h8) K } := by
  refine ⟨?_, fun E K => ?run⟩
  case run =>
    simp only [cc0__contrastive_kernel_eq_skeleton]; unfold cc0__contrastive_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5; obtain rfl := h8.eq_unread hf6
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; iexact H5
    iexists _; isplitr; · ipureintro; exact h8.read_unread _
    iexact H6

end Cert.KernelIdeal.Tile

end
-- ==== Proof.TileRunKP.lean ====
/-
  The tile body run once, in the case: row accumulator carried (column tile > 0), positive pair stored (diagonal tile).
  On whole staging buffers holding the five input tiles and any contents of the two output buffers, the body runs to the end,
  leaves the inputs as they were, and leaves in the accumulator's buffer the pieces its stores wrote, likewise in the positive pair's buffer.
-/
import proofs.«101681_j87290915323999_1_alg».proof.Proof.TileRunKN

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runKP (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S256x256 .f32) (h5 : a5.IsWhole) (a6 : Memref sig .tc .vmem S256x256 .f32) (h6 : a6.IsWhole) (a7 : Memref sig .tc .vmem S256x1 .f32) (h7 : a7.IsWhole) (a8 : Memref sig .tc .vmem S256x1 .f32) (h8 : a8.IsWhole) (hc1 : ¬cond1 i) (hc2 : cond2 i)
    (x0 x1 x2 : Vec F S256x1024 .f32) (x3 x4 : Vec F S256x256 .f32) (xo5 xo6 : Vec F S256x1 .f32) :
    Σ' (L5 : List (View.Piece (Elt F) S256x1 .f32)), { L6 : List (View.Piece (Elt F) S256x1 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
            ∗ owns (c : Thread nD τ) a7 fullShare xo5 ∗ owns (c : Thread nD τ) a8 fullShare xo6
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare x4
                ∗ (∃ f, a7.view.loc (c : Thread nD τ) ↦[a7.view.set]{fullShare} a7.view.writes (Elt F) f L5)
                ∗ (∃ f, a8.view.loc (c : Thread nD τ) ↦[a8.view.set]{fullShare} a8.view.writes (Elt F) f L6)) -∗ K ⟨⟩))
          ⊢ wp frame (wpE (defs₀ (F := F)) Variants.none c none) E (cc0__contrastive_kernel i a2 h2 a3 h3 a4 h4 a5 h5 a6 h6 a7 h7 a8 h8) K } := by
  refine ⟨?_, ?_, fun E K => ?run⟩
  case run =>
    simp only [cc0__contrastive_kernel_eq_skeleton]; unfold cc0__contrastive_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5; obtain rfl := h8.eq_unread hf6
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; iexact H5
    iexists _; iexact H6

end Cert.KernelIdeal.Tile

end
-- ==== Proof.TileRunRN.lean ====
/-
  The tile body run once, in the case: row accumulator reset (column tile 0), positive pair not stored (off-diagonal tile).
  On whole staging buffers holding the five input tiles and any contents of the two output buffers, the body runs to the end,
  leaves the inputs as they were, and leaves in the accumulator's buffer the pieces its stores wrote; the positive pair's buffer is handed back untouched.
-/
import proofs.«101681_j87290915323999_1_alg».proof.Proof.TileRunKP

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runRN (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S256x256 .f32) (h5 : a5.IsWhole) (a6 : Memref sig .tc .vmem S256x256 .f32) (h6 : a6.IsWhole) (a7 : Memref sig .tc .vmem S256x1 .f32) (h7 : a7.IsWhole) (a8 : Memref sig .tc .vmem S256x1 .f32) (h8 : a8.IsWhole) (hc1 : cond1 i) (hc2 : ¬cond2 i)
    (x0 x1 x2 : Vec F S256x1024 .f32) (x3 x4 : Vec F S256x256 .f32) (xo5 xo6 : Vec F S256x1 .f32) :
    { L5 : List (View.Piece (Elt F) S256x1 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
            ∗ owns (c : Thread nD τ) a7 fullShare xo5 ∗ owns (c : Thread nD τ) a8 fullShare xo6
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare x4
                ∗ (∃ f, a7.view.loc (c : Thread nD τ) ↦[a7.view.set]{fullShare} a7.view.writes (Elt F) f L5)
                ∗ owns (c : Thread nD τ) a8 fullShare xo6) -∗ K ⟨⟩))
          ⊢ wp frame (wpE (defs₀ (F := F)) Variants.none c none) E (cc0__contrastive_kernel i a2 h2 a3 h3 a4 h4 a5 h5 a6 h6 a7 h7 a8 h8) K } := by
  refine ⟨?_, fun E K => ?run⟩
  case run =>
    simp only [cc0__contrastive_kernel_eq_skeleton]; unfold cc0__contrastive_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5; obtain rfl := h8.eq_unread hf6
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; iexact H5
    iexists _; isplitr; · ipureintro; exact h8.read_unread _
    iexact H6

end Cert.KernelIdeal.Tile

end
-- ==== Proof.TileRunRP.lean ====
/-
  The tile body run once, in the case: row accumulator reset (column tile 0), positive pair stored (diagonal tile).
  On whole staging buffers holding the five input tiles and any contents of the two output buffers, the body runs to the end,
  leaves the inputs as they were, and leaves in the accumulator's buffer the pieces its stores wrote, likewise in the positive pair's buffer.
-/
import proofs.«101681_j87290915323999_1_alg».proof.Proof.TileRunRN

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runRP (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S256x256 .f32) (h5 : a5.IsWhole) (a6 : Memref sig .tc .vmem S256x256 .f32) (h6 : a6.IsWhole) (a7 : Memref sig .tc .vmem S256x1 .f32) (h7 : a7.IsWhole) (a8 : Memref sig .tc .vmem S256x1 .f32) (h8 : a8.IsWhole) (hc1 : cond1 i) (hc2 : cond2 i)
    (x0 x1 x2 : Vec F S256x1024 .f32) (x3 x4 : Vec F S256x256 .f32) (xo5 xo6 : Vec F S256x1 .f32) :
    Σ' (L5 : List (View.Piece (Elt F) S256x1 .f32)), { L6 : List (View.Piece (Elt F) S256x1 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
            ∗ owns (c : Thread nD τ) a7 fullShare xo5 ∗ owns (c : Thread nD τ) a8 fullShare xo6
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare x4
                ∗ (∃ f, a7.view.loc (c : Thread nD τ) ↦[a7.view.set]{fullShare} a7.view.writes (Elt F) f L5)
                ∗ (∃ f, a8.view.loc (c : Thread nD τ) ↦[a8.view.set]{fullShare} a8.view.writes (Elt F) f L6)) -∗ K ⟨⟩))
          ⊢ wp frame (wpE (defs₀ (F := F)) Variants.none c none) E (cc0__contrastive_kernel i a2 h2 a3 h3 a4 h4 a5 h5 a6 h6 a7 h7 a8 h8) K } := by
  refine ⟨?_, ?_, fun E K => ?run⟩
  case run =>
    simp only [cc0__contrastive_kernel_eq_skeleton]; unfold cc0__contrastive_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5; obtain rfl := h8.eq_unread hf6
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; iexact H5
    iexists _; iexact H6

end Cert.KernelIdeal.Tile

end
-- ==== Proof.TileVal.lean ====
/-
  What the tile body leaves in the two output buffers, read as values: in every case the accumulator's buffer ends at the
  tile's negative block sum added to what it held (the zero block, after a reset), and on the diagonal tile the positive
  pair's buffer ends at the tile's positive pairs. Each is the one covering store's payload, its loads reading whole buffers.
-/
import proofs.«101681_j87290915323999_1_alg».proof.Proof.TileRunRP

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- The row tile's negative block sum at a grid point, from the five input tiles: the sum over the tile's columns of the noise
    half's and the feature half's weighted, masked exponentials. -/
def negTile (i : grid0.Coords) (x0 x1 x2 : Vec F S256x1024 .f32) (x3 x4 : Vec F S256x256 .f32) : FVec F S256x1 .f32 :=
  k0_pay15 (Scalar.cmpi .eq (BitVec.ofNat 32 (i 0).val) (BitVec.ofNat 32 (i 1).val)) (k0_pay3 x0) (k0_pay4 x1) (k0_pay5 x3) (k0_pay6 x4) (k0_pay8 x0 x2) (k0_pay9 x0 x1) (k0_pay10 x3 x4) (k0_pay11 x0) (k0_pay12 x2)

/-- The row tile's positive pairs, from the feature row tile and the noise column tile: the diagonal of the exponentials. -/
def posTile (x0 x2 : Vec F S256x1024 .f32) : FVec F S256x1 .f32 :=
  k0_pay2 (k0_pay13 (k0_pay8 x0 x2) (k0_pay11 x0) (k0_pay12 x2)) (k0_pay14 (F := F))

/-- Case KN: the accumulator's buffer is covered by what the body stored, -/
theorem cover5_KN (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S256x256 .f32) (h5 : a5.IsWhole) (a6 : Memref sig .tc .vmem S256x256 .f32) (h6 : a6.IsWhole) (a7 : Memref sig .tc .vmem S256x1 .f32) (h7 : a7.IsWhole) (a8 : Memref sig .tc .vmem S256x1 .f32) (h8 : a8.IsWhole) (hc1 : ¬cond1 i) (hc2 : ¬cond2 i) (x0 x1 x2 : Vec F S256x1024 .f32) (x3 x4 : Vec F S256x256 .f32) (xo5 xo6 : Vec F S256x1 .f32) (y : S256x1.Idx) :
    ∃ pc ∈ (runKN (F := F) c i a2 h2 a3 h3 a4 h4 a5 h5 a6 h6 a7 h7 a8 h8 hc1 hc2 x0 x1 x2 x3 x4 xo5 xo6).1, y ∈ pc.1.set :=
  View.cover_of_tiledL (runKN (F := F) c i a2 h2 a3 h3 a4 h4 a5 h5 a6 h6 a7 h7 a8 h8 hc1 hc2 x0 x1 x2 x3 x4 xo5 xo6).1 S256x1.size (by sl_kernel_rfl) y

/-- and holds the tile's negative block sum added to what the buffer held. -/
theorem val5_KN (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S256x256 .f32) (h5 : a5.IsWhole) (a6 : Memref sig .tc .vmem S256x256 .f32) (h6 : a6.IsWhole) (a7 : Memref sig .tc .vmem S256x1 .f32) (h7 : a7.IsWhole) (a8 : Memref sig .tc .vmem S256x1 .f32) (h8 : a8.IsWhole) (hc1 : ¬cond1 i) (hc2 : ¬cond2 i) (x0 x1 x2 : Vec F S256x1024 .f32) (x3 x4 : Vec F S256x256 .f32) (xo5 xo6 : Vec F S256x1 .f32) (f : a7.view.ty.Contents (Elt F)) :
    a7.view.read (Elt F) (a7.view.writes (Elt F) f (runKN (F := F) c i a2 h2 a3 h3 a4 h4 a5 h5 a6 h6 a7 h7 a8 h8 hc1 hc2 x0 x1 x2 x3 x4 xo5 xo6).1) = k0_pay1 (negTile i x0 x1 x2 x3 x4) xo5 := by
  rw [View.read_writes_eq_canon _ _ _ (cover5_KN c i a2 h2 a3 h3 a4 h4 a5 h5 a6 h6 a7 h7 a8 h8 hc1 hc2 x0 x1 x2 x3 x4 xo5 xo6)]
  unfold runKN
  dsimp only
  sl_unfold_words
  rw [View.canon_unit_zero hz]
  unfold negTile
  simp only [View.readAt_eq_ld, h2.read_unread, h3.read_unread, h4.read_unread, h5.read_unread, h6.read_unread, h7.read_unread, View.ld_unit_zero (S := S256x1024) hz, View.ld_unit_zero (S := S256x256) hz, View.ld_unit_zero (S := S256x1) hz]

/-- Case KP: the accumulator's buffer is covered by what the body stored, -/
theorem cover5_KP (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S256x256 .f32) (h5 : a5.IsWhole) (a6 : Memref sig .tc .vmem S256x256 .f32) (h6 : a6.IsWhole) (a7 : Memref sig .tc .vmem S256x1 .f32) (h7 : a7.IsWhole) (a8 : Memref sig .tc .vmem S256x1 .f32) (h8 : a8.IsWhole) (hc1 : ¬cond1 i) (hc2 : cond2 i) (x0 x1 x2 : Vec F S256x1024 .f32) (x3 x4 : Vec F S256x256 .f32) (xo5 xo6 : Vec F S256x1 .f32) (y : S256x1.Idx) :
    ∃ pc ∈ (runKP (F := F) c i a2 h2 a3 h3 a4 h4 a5 h5 a6 h6 a7 h7 a8 h8 hc1 hc2 x0 x1 x2 x3 x4 xo5 xo6).1, y ∈ pc.1.set :=
  View.cover_of_tiledL (runKP (F := F) c i a2 h2 a3 h3 a4 h4 a5 h5 a6 h6 a7 h7 a8 h8 hc1 hc2 x0 x1 x2 x3 x4 xo5 xo6).1 S256x1.size (by sl_kernel_rfl) y

/-- and holds the tile's negative block sum added to what the buffer held. -/
theorem val5_KP (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S256x256 .f32) (h5 : a5.IsWhole) (a6 : Memref sig .tc .vmem S256x256 .f32) (h6 : a6.IsWhole) (a7 : Memref sig .tc .vmem S256x1 .f32) (h7 : a7.IsWhole) (a8 : Memref sig .tc .vmem S256x1 .f32) (h8 : a8.IsWhole) (hc1 : ¬cond1 i) (hc2 : cond2 i) (x0 x1 x2 : Vec F S256x1024 .f32) (x3 x4 : Vec F S256x256 .f32) (xo5 xo6 : Vec F S256x1 .f32) (f : a7.view.ty.Contents (Elt F)) :
    a7.view.read (Elt F) (a7.view.writes (Elt F) f (runKP (F := F) c i a2 h2 a3 h3 a4 h4 a5 h5 a6 h6 a7 h7 a8 h8 hc1 hc2 x0 x1 x2 x3 x4 xo5 xo6).1) = k0_pay1 (negTile i x0 x1 x2 x3 x4) xo5 := by
  rw [View.read_writes_eq_canon _ _ _ (cover5_KP c i a2 h2 a3 h3 a4 h4 a5 h5 a6 h6 a7 h7 a8 h8 hc1 hc2 x0 x1 x2 x3 x4 xo5 xo6)]
  unfold runKP
  dsimp only
  sl_unfold_words
  rw [View.canon_unit_zero hz]
  unfold negTile
  simp only [View.readAt_eq_ld, h2.read_unread, h3.read_unread, h4.read_unread, h5.read_unread, h6.read_unread, h7.read_unread, View.ld_unit_zero (S := S256x1024) hz, View.ld_unit_zero (S := S256x256) hz, View.ld_unit_zero (S := S256x1) hz]

/-- Case KP: the positive pair's buffer is covered by the body's store, -/
theorem cover6_KP (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S256x256 .f32) (h5 : a5.IsWhole) (a6 : Memref sig .tc .vmem S256x256 .f32) (h6 : a6.IsWhole) (a7 : Memref sig .tc .vmem S256x1 .f32) (h7 : a7.IsWhole) (a8 : Memref sig .tc .vmem S256x1 .f32) (h8 : a8.IsWhole) (hc1 : ¬cond1 i) (hc2 : cond2 i) (x0 x1 x2 : Vec F S256x1024 .f32) (x3 x4 : Vec F S256x256 .f32) (xo5 xo6 : Vec F S256x1 .f32) (y : S256x1.Idx) :
    ∃ pc ∈ (runKP (F := F) c i a2 h2 a3 h3 a4 h4 a5 h5 a6 h6 a7 h7 a8 h8 hc1 hc2 x0 x1 x2 x3 x4 xo5 xo6).2.1, y ∈ pc.1.set :=
  View.cover_of_tiledL (runKP (F := F) c i a2 h2 a3 h3 a4 h4 a5 h5 a6 h6 a7 h7 a8 h8 hc1 hc2 x0 x1 x2 x3 x4 xo5 xo6).2.1 S256x1.size (by sl_kernel_rfl) y

/-- and holds the tile's positive pairs. -/
theorem val6_KP (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S256x256 .f32) (h5 : a5.IsWhole) (a6 : Memref sig .tc .vmem S256x256 .f32) (h6 : a6.IsWhole) (a7 : Memref sig .tc .vmem S256x1 .f32) (h7 : a7.IsWhole) (a8 : Memref sig .tc .vmem S256x1 .f32) (h8 : a8.IsWhole) (hc1 : ¬cond1 i) (hc2 : cond2 i) (x0 x1 x2 : Vec F S256x1024 .f32) (x3 x4 : Vec F S256x256 .f32) (xo5 xo6 : Vec F S256x1 .f32) (f : a8.view.ty.Contents (Elt F)) :
    a8.view.read (Elt F) (a8.view.writes (Elt F) f (runKP (F := F) c i a2 h2 a3 h3 a4 h4 a5 h5 a6 h6 a7 h7 a8 h8 hc1 hc2 x0 x1 x2 x3 x4 xo5 xo6).2.1) = posTile x0 x2 := by
  rw [View.read_writes_eq_canon _ _ _ (cover6_KP c i a2 h2 a3 h3 a4 h4 a5 h5 a6 h6 a7 h7 a8 h8 hc1 hc2 x0 x1 x2 x3 x4 xo5 xo6)]
  unfold runKP
  dsimp only
  sl_unfold_words
  rw [View.canon_unit_zero hz]
  unfold posTile
  simp only [View.readAt_eq_ld, h2.read_unread, h3.read_unread, h4.read_unread, h5.read_unread, h6.read_unread, h7.read_unread, h8.read_unread, View.ld_unit_zero (S := S256x1024) hz, View.ld_unit_zero (S := S256x256) hz, View.ld_unit_zero (S := S256x1) hz]

/-- Case RN: the accumulator's buffer is covered by what the body stored, -/
theorem cover5_RN (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S256x256 .f32) (h5 : a5.IsWhole) (a6 : Memref sig .tc .vmem S256x256 .f32) (h6 : a6.IsWhole) (a7 : Memref sig .tc .vmem S256x1 .f32) (h7 : a7.IsWhole) (a8 : Memref sig .tc .vmem S256x1 .f32) (h8 : a8.IsWhole) (hc1 : cond1 i) (hc2 : ¬cond2 i) (x0 x1 x2 : Vec F S256x1024 .f32) (x3 x4 : Vec F S256x256 .f32) (xo5 xo6 : Vec F S256x1 .f32) (y : S256x1.Idx) :
    ∃ pc ∈ (runRN (F := F) c i a2 h2 a3 h3 a4 h4 a5 h5 a6 h6 a7 h7 a8 h8 hc1 hc2 x0 x1 x2 x3 x4 xo5 xo6).1, y ∈ pc.1.set :=
  View.cover_of_tiledL (runRN (F := F) c i a2 h2 a3 h3 a4 h4 a5 h5 a6 h6 a7 h7 a8 h8 hc1 hc2 x0 x1 x2 x3 x4 xo5 xo6).1 S256x1.size (by sl_kernel_rfl) y

/-- and holds the tile's negative block sum added to the zero block. -/
theorem val5_RN (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S256x256 .f32) (h5 : a5.IsWhole) (a6 : Memref sig .tc .vmem S256x256 .f32) (h6 : a6.IsWhole) (a7 : Memref sig .tc .vmem S256x1 .f32) (h7 : a7.IsWhole) (a8 : Memref sig .tc .vmem S256x1 .f32) (h8 : a8.IsWhole) (hc1 : cond1 i) (hc2 : ¬cond2 i) (x0 x1 x2 : Vec F S256x1024 .f32) (x3 x4 : Vec F S256x256 .f32) (xo5 xo6 : Vec F S256x1 .f32) (f : a7.view.ty.Contents (Elt F)) :
    a7.view.read (Elt F) (a7.view.writes (Elt F) f (runRN (F := F) c i a2 h2 a3 h3 a4 h4 a5 h5 a6 h6 a7 h7 a8 h8 hc1 hc2 x0 x1 x2 x3 x4 xo5 xo6).1) = k0_pay1 (negTile i x0 x1 x2 x3 x4) (k0_pay16 (F := F)) := by
  rw [View.read_writes_eq_canon _ _ _ (cover5_RN c i a2 h2 a3 h3 a4 h4 a5 h5 a6 h6 a7 h7 a8 h8 hc1 hc2 x0 x1 x2 x3 x4 xo5 xo6)]
  unfold runRN
  dsimp only
  sl_unfold_words
  rw [View.canon_cons_unit_zero (S := S256x1) hz, View.readCov_unit_zero (S := S256x1) _ hz]
  unfold negTile
  simp only [View.readAt_eq_ld, h2.read_unread, h3.read_unread, h4.read_unread, h5.read_unread, h6.read_unread, h7.read_unread, View.ld_unit_zero (S := S256x1024) hz, View.ld_unit_zero (S := S256x256) hz, View.ld_unit_zero (S := S256x1) hz]

/-- Case RP: the accumulator's buffer is covered by what the body stored, -/
theorem cover5_RP (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S256x256 .f32) (h5 : a5.IsWhole) (a6 : Memref sig .tc .vmem S256x256 .f32) (h6 : a6.IsWhole) (a7 : Memref sig .tc .vmem S256x1 .f32) (h7 : a7.IsWhole) (a8 : Memref sig .tc .vmem S256x1 .f32) (h8 : a8.IsWhole) (hc1 : cond1 i) (hc2 : cond2 i) (x0 x1 x2 : Vec F S256x1024 .f32) (x3 x4 : Vec F S256x256 .f32) (xo5 xo6 : Vec F S256x1 .f32) (y : S256x1.Idx) :
    ∃ pc ∈ (runRP (F := F) c i a2 h2 a3 h3 a4 h4 a5 h5 a6 h6 a7 h7 a8 h8 hc1 hc2 x0 x1 x2 x3 x4 xo5 xo6).1, y ∈ pc.1.set :=
  View.cover_of_tiledL (runRP (F := F) c i a2 h2 a3 h3 a4 h4 a5 h5 a6 h6 a7 h7 a8 h8 hc1 hc2 x0 x1 x2 x3 x4 xo5 xo6).1 S256x1.size (by sl_kernel_rfl) y

/-- and holds the tile's negative block sum added to the zero block. -/
theorem val5_RP (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S256x256 .f32) (h5 : a5.IsWhole) (a6 : Memref sig .tc .vmem S256x256 .f32) (h6 : a6.IsWhole) (a7 : Memref sig .tc .vmem S256x1 .f32) (h7 : a7.IsWhole) (a8 : Memref sig .tc .vmem S256x1 .f32) (h8 : a8.IsWhole) (hc1 : cond1 i) (hc2 : cond2 i) (x0 x1 x2 : Vec F S256x1024 .f32) (x3 x4 : Vec F S256x256 .f32) (xo5 xo6 : Vec F S256x1 .f32) (f : a7.view.ty.Contents (Elt F)) :
    a7.view.read (Elt F) (a7.view.writes (Elt F) f (runRP (F := F) c i a2 h2 a3 h3 a4 h4 a5 h5 a6 h6 a7 h7 a8 h8 hc1 hc2 x0 x1 x2 x3 x4 xo5 xo6).1) = k0_pay1 (negTile i x0 x1 x2 x3 x4) (k0_pay16 (F := F)) := by
  rw [View.read_writes_eq_canon _ _ _ (cover5_RP c i a2 h2 a3 h3 a4 h4 a5 h5 a6 h6 a7 h7 a8 h8 hc1 hc2 x0 x1 x2 x3 x4 xo5 xo6)]
  unfold runRP
  dsimp only
  sl_unfold_words
  rw [View.canon_cons_unit_zero (S := S256x1) hz, View.readCov_unit_zero (S := S256x1) _ hz]
  unfold negTile
  simp only [View.readAt_eq_ld, h2.read_unread, h3.read_unread, h4.read_unread, h5.read_unread, h6.read_unread, h7.read_unread, View.ld_unit_zero (S := S256x1024) hz, View.ld_unit_zero (S := S256x256) hz, View.ld_unit_zero (S := S256x1) hz]

/-- Case RP: the positive pair's buffer is covered by the body's store, -/
theorem cover6_RP (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S256x256 .f32) (h5 : a5.IsWhole) (a6 : Memref sig .tc .vmem S256x256 .f32) (h6 : a6.IsWhole) (a7 : Memref sig .tc .vmem S256x1 .f32) (h7 : a7.IsWhole) (a8 : Memref sig .tc .vmem S256x1 .f32) (h8 : a8.IsWhole) (hc1 : cond1 i) (hc2 : cond2 i) (x0 x1 x2 : Vec F S256x1024 .f32) (x3 x4 : Vec F S256x256 .f32) (xo5 xo6 : Vec F S256x1 .f32) (y : S256x1.Idx) :
    ∃ pc ∈ (runRP (F := F) c i a2 h2 a3 h3 a4 h4 a5 h5 a6 h6 a7 h7 a8 h8 hc1 hc2 x0 x1 x2 x3 x4 xo5 xo6).2.1, y ∈ pc.1.set :=
  View.cover_of_tiledL (runRP (F := F) c i a2 h2 a3 h3 a4 h4 a5 h5 a6 h6 a7 h7 a8 h8 hc1 hc2 x0 x1 x2 x3 x4 xo5 xo6).2.1 S256x1.size (by sl_kernel_rfl) y

/-- and holds the tile's positive pairs. -/
theorem val6_RP (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S256x256 .f32) (h5 : a5.IsWhole) (a6 : Memref sig .tc .vmem S256x256 .f32) (h6 : a6.IsWhole) (a7 : Memref sig .tc .vmem S256x1 .f32) (h7 : a7.IsWhole) (a8 : Memref sig .tc .vmem S256x1 .f32) (h8 : a8.IsWhole) (hc1 : cond1 i) (hc2 : cond2 i) (x0 x1 x2 : Vec F S256x1024 .f32) (x3 x4 : Vec F S256x256 .f32) (xo5 xo6 : Vec F S256x1 .f32) (f : a8.view.ty.Contents (Elt F)) :
    a8.view.read (Elt F) (a8.view.writes (Elt F) f (runRP (F := F) c i a2 h2 a3 h3 a4 h4 a5 h5 a6 h6 a7 h7 a8 h8 hc1 hc2 x0 x1 x2 x3 x4 xo5 xo6).2.1) = posTile x0 x2 := by
  rw [View.read_writes_eq_canon _ _ _ (cover6_RP c i a2 h2 a3 h3 a4 h4 a5 h5 a6 h6 a7 h7 a8 h8 hc1 hc2 x0 x1 x2 x3 x4 xo5 xo6)]
  unfold runRP
  dsimp only
  sl_unfold_words
  rw [View.canon_unit_zero hz]
  unfold posTile
  simp only [View.readAt_eq_ld, h2.read_unread, h3.read_unread, h4.read_unread, h5.read_unread, h6.read_unread, h7.read_unread, h8.read_unread, View.ld_unit_zero (S := S256x1024) hz, View.ld_unit_zero (S := S256x256) hz, View.ld_unit_zero (S := S256x1) hz]

end Cert.KernelIdeal.Tile

end
-- ==== Proof.TileDat.lean ====
/-
  The proof data of the contrastive kernel's region. After the body at grid point t = 16 * (row tile) + (column tile):
  each input window's buffer still holds its block; the accumulator's buffer holds the running sum over the column tiles
  0 .. (column tile) of the row tile's negative block sums, starting from the zero block in column tile 0; the positive
  pair's buffer holds, from the diagonal point of the row on, the row tile's positive pairs. The two windows onto the
  feature array, and the two onto the reference array, each hold one half of their array's share.
-/
import proofs.«101681_j87290915323999_1_alg».proof.Proof.TileVal

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The five input tiles at a point, in the order the body loads them. -/
abbrev negAt (c : Dev nD) (t : Fin cfg0.N) : FVec F S256x1 .f32 :=
  negTile (grid0.coords t) (iblk m c 0 t) (iblk m c 1 t) (iblk m c 2 t) (iblk m c 3 t) (iblk m c 4 t)

/-- THE ROW ACCUMULATOR after the body at position `n`: the point's negative block sum added to the zero block in column
    tile 0, to what the point before left otherwise. -/
def accAt (c : Dev nD) : (n : ℕ) → n < cfg0.N → Vec F S256x1 .f32
  | 0, hn => k0_pay1 (negAt m c ⟨0, hn⟩) (k0_pay16 (F := F))
  | n + 1, hn => k0_pay1 (negAt m c ⟨n + 1, hn⟩) (if (n + 1) % 16 = 0 then k0_pay16 (F := F) else accAt c n (Nat.lt_of_succ_lt hn))

theorem accAt_reset (c : Dev nD) (t : Fin cfg0.N) (h0 : t.val % 16 = 0) :
    accAt m c t.val t.isLt = k0_pay1 (negAt m c t) (k0_pay16 (F := F)) := by
  obtain ⟨n, hn⟩ := t
  cases n with
  | zero => rfl
  | succ n => exact (congrArg (k0_pay1 _) (if_pos h0))

theorem accAt_carry (c : Dev nD) (t : Fin cfg0.N) (h0 : ¬t.val % 16 = 0) :
    accAt m c t.val t.isLt = k0_pay1 (negAt m c t) (accAt m c (t.val - 1) (Nat.lt_of_le_of_lt (Nat.sub_le _ _) t.isLt)) := by
  obtain ⟨n, hn⟩ := t
  cases n with
  | zero => exact absurd (Nat.zero_mod _) h0
  | succ n => exact (congrArg (k0_pay1 _) (if_neg h0))

/-- The diagonal point of the row of `t`: (row tile, row tile). -/
def diagOf (t : Fin cfg0.N) : Fin cfg0.N := ⟨17 * (t.val / 16), by have h := t.isLt; have hN : cfg0.N = 256 := N_0; omega⟩

/-- The point before, in the same row, has the same diagonal point. -/
theorem diagOf_pred (t : Fin cfg0.N) (h : t.val % 16 ≠ 0) : diagOf ⟨t.val - 1, Nat.lt_of_le_of_lt (Nat.sub_le _ _) t.isLt⟩ = diagOf t :=
  Fin.ext (by unfold diagOf; dsimp only; omega)

/-- THE POSITIVE PAIRS of the row of `t`: what the body stores at the row's diagonal point. -/
def posAt (c : Dev nD) (t : Fin cfg0.N) : Vec F S256x1 .f32 :=
  posTile (iblk m c 0 (diagOf t)) (iblk m c 2 (diagOf t))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => accAt m c t.val t.isLt
    | ⟨6, _⟩ => posAt m c t
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare.left
    | ⟨4, _⟩ => fullShare.right
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = accAt m c t.val t.isLt := by dsimp only [dats]
theorem after6 (c : Dev nD) (t : Fin cfg0.N) : (dats m 0 c).after 6 t = posAt m c t := by dsimp only [dats]

/-- Each input's current staging buffer holds its block at every point, fetched there or not: unfetched, the block index has
    not moved. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-- In a later column tile the accumulator's buffer holds what the point before left: it is written back only after column tile 15. -/
theorem before5_carry (c : Dev nD) (t : Fin cfg0.N) (h0 : ¬t.val % 16 = 0) (d) :
    (dats m 0 c).before 5 t d = accAt m c (t.val - 1) (Nat.lt_of_le_of_lt (Nat.sub_le _ _) t.isLt) := by
  have hN : t.val < 256 := lt_of_lt_of_eq t.isLt (show cfg0.N = 256 from N_0)
  rw [Dat.before_out_kept _ 5 rfl t (by omega) (Bool.eq_false_iff.mpr fun h => by have := (flush0_5 _).mp h; dsimp only at this; omega)
    (fun _ => rfl) (fun _ _ => rfl)]
  dsimp only [dats]

/-- Where the positive pair's window is idle (off the diagonal) and where it is live (on it). -/
theorem idle6 (i : grid0.Coords) (h : ¬cond2 i) : cfg0.idle 6 i = true := by
  show (!(k0_cond2 i == 1#1)) = true
  simp only [Bool.not_eq_eq_eq_not, Bool.not_true, beq_eq_false_iff_ne, ne_eq]; exact h
theorem live6 (i : grid0.Coords) (h : cond2 i) : cfg0.idle 6 i = false := by
  show (!(k0_cond2 i == 1#1)) = false
  simp only [Bool.not_eq_eq_eq_not, Bool.not_false, beq_iff_eq]; exact h

/-- To the right of the diagonal the positive pair's buffer still holds the row's positive pairs: stored on the diagonal, the
    window idle since, the buffer written back only after column tile 15. -/
theorem before6_right (c : Dev nD) : ∀ (k : ℕ) (t : Fin cfg0.N), t.val % 16 = t.val / 16 + 1 + k → ∀ d, (dats m 0 c).before 6 t d = posAt m c t
  | 0, t, ht, d => by
    have hN : t.val < 256 := lt_of_lt_of_eq t.isLt (show cfg0.N = 256 from N_0)
    have hp : (⟨t.val - 1, Nat.lt_of_le_of_lt (Nat.sub_le _ _) t.isLt⟩ : Fin cfg0.N).val / 16 = (⟨t.val - 1, Nat.lt_of_le_of_lt (Nat.sub_le _ _) t.isLt⟩ : Fin cfg0.N).val % 16 := by dsimp only; omega
    rw [Dat.before_of_pos _ 6 t (by omega) ((cfg0.win 6).fetch_out rfl t), if_neg (by rw [Bool.not_eq_true]; exact Bool.eq_false_iff.mpr fun h => by have := (flush0_6 _).mp h; dsimp only at this; omega)]
    unfold Dat.left
    rw [live6 _ ((hcond2 _).mpr hp)]
    dsimp only
    unfold Dat.kept
    rw [show (cfg0.win 6).fill (cfg0.grid.coords _) d ((cfg0.win 6).cut (cfg0.grid.coords _) ((dats m 0 c).after 6 _)) = (dats m 0 c).after 6 _ from Window.fill_cut _ _ _]
    rw [after6]
    unfold posAt
    rw [diagOf_pred t (by omega)]
  | k + 1, t, ht, d => by
    have hN : t.val < 256 := lt_of_lt_of_eq t.isLt (show cfg0.N = 256 from N_0)
    have hp : ¬(⟨t.val - 1, Nat.lt_of_le_of_lt (Nat.sub_le _ _) t.isLt⟩ : Fin cfg0.N).val / 16 = (⟨t.val - 1, Nat.lt_of_le_of_lt (Nat.sub_le _ _) t.isLt⟩ : Fin cfg0.N).val % 16 := by dsimp only; omega
    rw [Dat.before_of_pos _ 6 t (by omega) ((cfg0.win 6).fetch_out rfl t), if_neg (by rw [Bool.not_eq_true]; exact Bool.eq_false_iff.mpr fun h => by have := (flush0_6 _).mp h; dsimp only at this; omega)]
    unfold Dat.left
    rw [idle6 _ (fun h => hp ((hcond2 _).mp h))]
    dsimp only
    rw [before6_right c k ⟨t.val - 1, Nat.lt_of_le_of_lt (Nat.sub_le _ _) t.isLt⟩ (by dsimp only; omega) d]
    unfold posAt
    rw [diagOf_pred t (by omega)]

end Cert.KernelIdeal.Tile

end
-- ==== Proof.TileBody.lean ====
/-
  The body obligation of the contrastive kernel's region: at every grid point the tile body, handed the buffers at what
  the proof data say they hold, runs and leaves them at what the proof data say it leaves. Four cases by the two
  conditions (accumulator reset or carried; positive pair stored or not); off the diagonal the positive pair's buffer is
  handed back as found, which in column tile 15 — where it is written back — is the row's positive pairs.
-/
import proofs.«101681_j87290915323999_1_alg».proof.Proof.TileDat

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem diagOf_self (t : Fin cfg0.N) (h : t.val / 16 = t.val % 16) : diagOf t = t :=
  Fin.ext (by unfold diagOf; dsimp only; omega)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from rfl, after0,
    show (dats m 0 c).leavesExact 1 t = owns (c : Thread nD τ) (ms1 t) fullShare ((dats m 0 c).after 1 t) from rfl, after1,
    show (dats m 0 c).leavesExact 2 t = owns (c : Thread nD τ) (ms2 t) fullShare ((dats m 0 c).after 2 t) from rfl, after2,
    show (dats m 0 c).leavesExact 3 t = owns (c : Thread nD τ) (ms3 t) fullShare ((dats m 0 c).after 3 t) from rfl, after3,
    show (dats m 0 c).leavesExact 4 t = owns (c : Thread nD τ) (ms4 t) fullShare ((dats m 0 c).after 4 t) from rfl, after4,
    show (dats m 0 c).leavesExact 5 t = owns (c : Thread nD τ) (ms5 t) fullShare ((dats m 0 c).after 5 t) from rfl, after5]
  have hN : t.val < 256 := lt_of_lt_of_eq t.isLt (show cfg0.N = 256 from N_0)
  by_cases h1 : t.val % 16 = 0
  · by_cases h2 : t.val / 16 = t.val % 16
    ·
      rw [show (dats m 0 c).leavesExact 6 t = owns (c : Thread nD τ) (ms6 t) fullShare ((dats m 0 c).after 6 t) from by
        unfold Dat.leavesExact; rw [live6 _ ((hcond2 t).mpr h2)], after6]
      rw [accAt_reset m c t h1]
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((runRP c (grid0.coords t) _ _ _ _ _ _ _ _ _ _ _ _ _ _ ((hcond1 t).mpr h1) ((hcond2 t).mpr h2) (iblk m c 0 t) (iblk m c 1 t) (iblk m c 2 t) (iblk m c 3 t) (iblk m c 4 t) _ _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, ⟨%e5, H5⟩, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact val5_RP c _ _ _ _ _ _ _ _ _ _ _ _ _ _ _ _ _ _ _ _ _ _ _ _ _
      unfold owns; iexists _; isplitr
      swap; · iexact H6
      ipureintro
      rw [val6_RP c _ _ _ _ _ _ _ _ _ _ _ _ _ _ _ _ _ _ _ _ _ _ _ _ _]
      unfold posAt; rw [diagOf_self t h2]

    · have hf : ¬t.val % 16 = 15 := by omega
      rw [Dat.leavesExact_idle (dats m 0 c) 6 t (idle6 _ (fun h => h2 ((hcond2 t).mp h))) (Bool.eq_false_iff.mpr fun h => hf ((flush0_6 t).mp h))]
      rw [accAt_reset m c t h1]
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((runRN c (grid0.coords t) _ _ _ _ _ _ _ _ _ _ _ _ _ _ ((hcond1 t).mpr h1) (fun h => h2 ((hcond2 t).mp h)) (iblk m c 0 t) (iblk m c 1 t) (iblk m c 2 t) (iblk m c 3 t) (iblk m c 4 t) _ _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, ⟨%e5, H5⟩, H6⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact val5_RN c _ _ _ _ _ _ _ _ _ _ _ _ _ _ _ _ _ _ _ _ _ _ _ _ _
      iexists _; iexact H6

  · by_cases h2 : t.val / 16 = t.val % 16
    ·
      rw [show (dats m 0 c).leavesExact 6 t = owns (c : Thread nD τ) (ms6 t) fullShare ((dats m 0 c).after 6 t) from by
        unfold Dat.leavesExact; rw [live6 _ ((hcond2 t).mpr h2)], after6]
      rw [accAt_carry m c t h1]
      simp only [before5_carry m c t h1]
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((runKP c (grid0.coords t) _ _ _ _ _ _ _ _ _ _ _ _ _ _ (fun h => h1 ((hcond1 t).mp h)) ((hcond2 t).mpr h2) (iblk m c 0 t) (iblk m c 1 t) (iblk m c 2 t) (iblk m c 3 t) (iblk m c 4 t) _ _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, ⟨%e5, H5⟩, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact val5_KP c _ _ _ _ _ _ _ _ _ _ _ _ _ _ _ _ _ _ _ _ _ _ _ _ _
      unfold owns; iexists _; isplitr
      swap; · iexact H6
      ipureintro
      rw [val6_KP c _ _ _ _ _ _ _ _ _ _ _ _ _ _ _ _ _ _ _ _ _ _ _ _ _]
      unfold posAt; rw [diagOf_self t h2]

    · by_cases hf : t.val % 16 = 15
      ·
        rw [show (dats m 0 c).leavesExact 6 t = owns (c : Thread nD τ) (ms6 t) fullShare ((dats m 0 c).after 6 t) from by
          unfold Dat.leavesExact; rw [idle6 _ (fun h => h2 ((hcond2 t).mp h)), (flush0_6 t).mpr hf], after6]
        simp only [before6_right m c (14 - t.val / 16) t (by omega)]
        rw [accAt_carry m c t h1]
        simp only [before5_carry m c t h1]
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((runKN c (grid0.coords t) _ _ _ _ _ _ _ _ _ _ _ _ _ _ (fun h => h1 ((hcond1 t).mp h)) (fun h => h2 ((hcond2 t).mp h)) (iblk m c 0 t) (iblk m c 1 t) (iblk m c 2 t) (iblk m c 3 t) (iblk m c 4 t) _ _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        iintro ⟨H0, H1, H2, H3, H4, ⟨%e5, H5⟩, H6⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact val5_KN c _ _ _ _ _ _ _ _ _ _ _ _ _ _ _ _ _ _ _ _ _ _ _ _ _
        iexact H6

      ·
        rw [Dat.leavesExact_idle (dats m 0 c) 6 t (idle6 _ (fun h => h2 ((hcond2 t).mp h))) (Bool.eq_false_iff.mpr fun h => hf ((flush0_6 t).mp h))]
        rw [accAt_carry m c t h1]
        simp only [before5_carry m c t h1]
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((runKN c (grid0.coords t) _ _ _ _ _ _ _ _ _ _ _ _ _ _ (fun h => h1 ((hcond1 t).mp h)) (fun h => h2 ((hcond2 t).mp h)) (iblk m c 0 t) (iblk m c 1 t) (iblk m c 2 t) (iblk m c 3 t) (iblk m c 4 t) _ _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        iintro ⟨H0, H1, H2, H3, H4, ⟨%e5, H5⟩, H6⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact val5_KN c _ _ _ _ _ _ _ _ _ _ _ _ _ _ _ _ _ _ _ _ _ _ _ _ _
        iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Tile

end
-- ==== Proof.Spec.lean ====
/-
  The weighted contrastive loss both programs compute, written once on the extended reals.

  For row vectors f_i, n_j (length 1024) and r_i (length 256):
    cos x y i j   = <x_i, y_j> / max (|x_i| * |y_j|) eps            (cosine similarity, clamped denominator)
    weight i j    = (1 - cos r r i j) * 1/2
    negative i    = sum_j exp (cos f n i j) * weight i j * [i ≠ j]  +  sum_j exp (cos f f i j) * weight i j * [i ≠ j]
    positive i    = exp (cos f n i i)
  and the loss is the mean over i of  -log (positive i / (negative i + eps)).
  Everything is stated for matrices of any extents, so that the same definitions describe a whole array and a tile of it.
-/
import Idealize.ShloMosaic.PureOps.Ideal
import Idealize.ShloMosaic.PureOps.Ideal.Laws
import Idealize.ShloMosaic.Lib.ValueIdx

noncomputable section

namespace Cert.Contrast

open Idealize.ShloMosaic Idealize.ShloMosaic.ValueIdx

/-- A matrix of extended reals with `r` rows and `c` columns, indexed as the programs index a rank-2 array. -/
abbrev Mat (r c : Nat) := (⟨2, ![r, c]⟩ : Shape).Idx → EReal

/-- The clamp of the cosine's denominator, `f32 1e-6` (the same word in both programs: never evaluated). -/
abbrev eps : EReal := Ideal.ofBits .f32 0x358637BD#32
/-- `1.0` and `0.5` as the programs spell them. -/
abbrev one : EReal := Ideal.ofBits .f32 0x3F800000#32
abbrev half : EReal := Ideal.ofBits .f32 0x3F000000#32

/-- The inner product of row `i` of `x` with row `j` of `y`. -/
def dot {r r' c : Nat} (x : Mat r c) (y : Mat r' c) (i : Fin r) (j : Fin r') : EReal :=
  ∑ k : Fin c, x (ix2 i k) * y (ix2 j k)

/-- The Euclidean norm of row `i` of `x`. -/
def norm {r c : Nat} (x : Mat r c) (i : Fin r) : EReal :=
  Ideal.sqrt (∑ k : Fin c, x (ix2 i k) * x (ix2 i k))

/-- Cosine similarity of row `i` of `x` and row `j` of `y`, the product of the norms clamped below by `eps`. -/
def cos {r r' c : Nat} (x : Mat r c) (y : Mat r' c) (i : Fin r) (j : Fin r') : EReal :=
  Ideal.div (dot x y i j) (max (norm x i * norm y j) eps)

/-- The weight of the pair (i, j): half of one minus the cosine of the two reference rows. -/
def weight {r r' d : Nat} (u : Mat r d) (v : Mat r' d) (i : Fin r) (j : Fin r') : EReal :=
  (one - cos u v i j) * half

/-- One summand of a row's negative sum: `exp (cos x y i j)`, weighted, times a mask value `μ`. -/
def term {r r' c d : Nat} (x : Mat r c) (y : Mat r' c) (u : Mat r d) (v : Mat r' d) (μ : EReal) (i : Fin r) (j : Fin r') : EReal :=
  Ideal.exp (cos x y i j) * weight u v i j * μ

/-- The mask of the whole problem: the pair (i, i) is left out. -/
def offDiag {n : Nat} (i j : Fin n) : EReal := if i = j then 0 else 1

/-- Row `i`'s negative sum over the whole arrays: the noise half and the feature half. -/
def negative (f nz : Mat 4096 1024) (rf : Mat 4096 256) (i : Fin 4096) : EReal :=
  (∑ j : Fin 4096, term f nz rf rf (offDiag i j) i j) + ∑ j : Fin 4096, term f f rf rf (offDiag i j) i j

/-- Row `i`'s positive pair. -/
def positive (f nz : Mat 4096 1024) (i : Fin 4096) : EReal := Ideal.exp (cos f nz i i)

/-- The four quantities depend on the rows they name only: matrices that agree on those rows give the same value. -/
theorem dot_congr {r r' s s' c : Nat} {x : Mat r c} {y : Mat r' c} {x' : Mat s c} {y' : Mat s' c} {i : Fin r} {j : Fin r'} {i' : Fin s} {j' : Fin s'}
    (hx : ∀ k, x (ix2 i k) = x' (ix2 i' k)) (hy : ∀ k, y (ix2 j k) = y' (ix2 j' k)) : dot x y i j = dot x' y' i' j' := by
  unfold dot; exact Finset.sum_congr rfl fun k _ => by rw [hx k, hy k]

theorem norm_congr {r s c : Nat} {x : Mat r c} {x' : Mat s c} {i : Fin r} {i' : Fin s}
    (hx : ∀ k, x (ix2 i k) = x' (ix2 i' k)) : norm x i = norm x' i' := by
  unfold norm; exact congrArg _ (Finset.sum_congr rfl fun k _ => by rw [hx k])

theorem cos_congr {r r' s s' c : Nat} {x : Mat r c} {y : Mat r' c} {x' : Mat s c} {y' : Mat s' c} {i : Fin r} {j : Fin r'} {i' : Fin s} {j' : Fin s'}
    (hx : ∀ k, x (ix2 i k) = x' (ix2 i' k)) (hy : ∀ k, y (ix2 j k) = y' (ix2 j' k)) : cos x y i j = cos x' y' i' j' := by
  unfold cos; rw [dot_congr hx hy, norm_congr hx, norm_congr hy]

theorem term_congr {r r' s s' c d : Nat} {x : Mat r c} {y : Mat r' c} {u : Mat r d} {v : Mat r' d} {x' : Mat s c} {y' : Mat s' c} {u' : Mat s d} {v' : Mat s' d}
    {μ μ' : EReal} {i : Fin r} {j : Fin r'} {i' : Fin s} {j' : Fin s'}
    (hx : ∀ k, x (ix2 i k) = x' (ix2 i' k)) (hy : ∀ k, y (ix2 j k) = y' (ix2 j' k))
    (hu : ∀ k, u (ix2 i k) = u' (ix2 i' k)) (hv : ∀ k, v (ix2 j k) = v' (ix2 j' k)) (hμ : μ = μ') :
    term x y u v μ i j = term x' y' u' v' μ' i' j' := by
  unfold term weight; rw [cos_congr hx hy, cos_congr hu hv, hμ]

end Cert.Contrast

end
-- ==== Proof.Loss.lean ====
/-
  The loss from the per-row quantities: the mean over the 4096 rows of  -log (positive i / (negative i + eps)),
  as both programs compute it after their row sums: a sum from zero, divided by 4096 (both float words kept as spelt).
-/
import proofs.«101681_j87290915323999_1_alg».proof.Proof.Spec

noncomputable section

namespace Cert.Contrast

open Idealize.ShloMosaic Idealize.ShloMosaic.ValueIdx

/-- The mean over the rows of minus the logarithm of the positive pair over the negative sum plus `eps`. -/
def loss (neg pos : Fin 4096 → EReal) : EReal :=
  Ideal.div (Ideal.ofBits .f32 0x00000000#32 + ∑ i : Fin 4096, -(Ideal.log (Ideal.div (pos i) (neg i + eps))))
    (Ideal.ofBits .f32 0x45800000#32)

end Cert.Contrast

end
-- ==== Proof.KerTail.lean ====
/-
  The operations after the tiled region: the two columns the region leaves (each row's negative sum and positive
  pair) are read as vectors, the clamp is added to the negative sums, the positive pairs are divided by them, and the
  mean of minus the logarithm of the quotients is taken as a sum from zero divided by the number of rows. Read at
  the one entry of the scalar result this is the specification's loss of the two columns; the arguments and the two
  columns themselves are left as they were.
-/
import proofs.«101681_j87290915323999_1_alg».proof.Proof.Gen.KernelIdeal.Launch
import proofs.«101681_j87290915323999_1_alg».proof.Proof.Loss
import Idealize.ShloMosaic.Lib.StableHlo.Run
import Idealize.ShloMosaic.Lib.ValueIdx
import Idealize.ShloMosaic.Lib.Pipeline.Value
import Idealize.ShloMosaic.PureOps.Ideal.Laws

noncomputable section

namespace Cert.KerTail

open Idealize.ShloMosaic Idealize.ShloMosaic.ValueIdx Idealize.ShloMosaic.StableHlo Cert.KernelIdeal Cert.KernelIdeal.Gen Cert.Contrast

/-- A column of 4096 entries read as a vector: entry `i` of the vector is entry `(i, 0)` of the column. -/
theorem vector_of_column_apply {α : Type} (x : S4096x1.Idx → α) (i : Fin 4096) :
    shapeCast S4096 x shapeCasts_S4096x1_S4096 (ix1 i) = x (ix2 i (0 : Fin 1)) :=
  shapeCast_apply x shapeCasts_S4096x1_S4096 _ _ (by
    rw [Shape.rowMajor_val_two, Shape.rowMajor_val_one]
    show i.val * 1 + 0 = i.val
    rw [Nat.mul_one, Nat.add_zero])

/-- The indices of a vector of 4096 entries are its 4096 coordinates. -/
def vecEquiv : S4096.Idx ≃ Fin 4096 where
  toFun i := i 0
  invFun := ix1
  left_inv i := (eq_ix1 i).symm
  right_inv _ := rfl

/-- A sum over the indices of a vector of 4096 entries is the sum over its coordinates. -/
theorem sum_vec (X : S4096.Idx → EReal) : ∑ i : S4096.Idx, X i = ∑ i : Fin 4096, X (ix1 i) :=
  (Equiv.sum_comp vecEquiv.symm X).symm

/-- The scalar the tail leaves is the loss of the region's two columns. -/
theorem tail_result (W : Valuation τ sig (Elt Ideal)) :
    StableHlo.after (hostOps1 (F := Ideal)) W (Proc.devRef .tc main_v9)
      = fun _ => loss (fun i => W (Proc.devRef .tc main_v0_0) (ix2 i 0)) (fun i => W (Proc.devRef .tc main_v0_1) (ix2 i 0)) := by
  after_results
  funext j
  unfold loss
  show Ideal.div (Ideal.hostReduceAdd reducesTo_S4096_S_d0 _ (Ideal.ofBits .f32 0x00000000#32) j) (Ideal.ofBits .f32 0x45800000#32) = _
  rw [Ideal.hostReduceAdd_total reducesTo_S4096_S_d0 (fun b => b.elim0), sum_vec]
  refine congrArg (fun s => Ideal.div (Ideal.ofBits .f32 0x00000000#32 + s) (Ideal.ofBits .f32 0x45800000#32))
    (Finset.sum_congr rfl fun i _ => ?_)
  show -(Ideal.log (Ideal.div
      (shapeCast (s := S4096x1) (α := EReal) S4096 (W (Proc.devRef .tc main_v0_1)) shapeCasts_S4096x1_S4096 (ix1 i))
      (shapeCast (s := S4096x1) (α := EReal) S4096 (W (Proc.devRef .tc main_v0_0)) shapeCasts_S4096x1_S4096 (ix1 i) + eps))) = _
  rw [vector_of_column_apply, vector_of_column_apply]

variable {F : FTy → Type} [FloatOps F]

/-- The tail writes neither an argument nor one of the region's two columns. -/
theorem tail_keeps (W : Valuation τ sig (Elt F)) (b : Ref sig .tc)
    (hb : b = main_arg0 ∨ b = main_arg1 ∨ b = main_arg2 ∨ b = main_v0_0 ∨ b = main_v0_1) :
    StableHlo.after (hostOps1 (F := F)) W (Proc.devRef .tc b) = W (Proc.devRef .tc b) := by
  rcases hb with rfl | rfl | rfl | rfl | rfl <;> after_results

end Cert.KerTail

end
-- ==== Proof.TileLaunch.lean ====
/-
  The launch of the contrastive kernel's program: the region, then twelve host operations. The feature array is handed
  to the region through two windows, the reference array likewise: each of those arrays is split between its two windows
  by halves of the full share, and comes back whole only in contents (both halves read the launch contents). The host
  operations after the region touch the region's two result arrays and their own buffers only, so they run beside the
  argument arrays' shares. The run's post names every array the windows stage and the final result buffer.
-/
import proofs.«101681_j87290915323999_1_alg».proof.Proof.TileBody
import Idealize.ShloMosaic.Lib.Pipeline.FrameSuffix
import proofs.«101681_j87290915323999_1_alg».proof.Proof.KerTail

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrBufs unscopedRest unscopedRestP scopedRest)

/-- @main is the region and then the twelve host operations. -/
theorem hmain (𝒱₀ : Variants) : Pipeline.HMainK (Ix := Unit) (Name := ℕ) (U := UR sig nD τ) (Lvl := ℕ) cfgs 0 defs₀ 𝒱₀ m (main (F := F)) (V m)
    (fun _ => Pipeline.chain ([hostOps1 (F := F)].map StableHlo.seq)) :=
  Pipeline.hmain_around cfgs 0 defs₀ 𝒱₀ m main [] [hostOps1] trivial trivial fun c => (main_chain c).trans rfl

/-- The windows' arrays, window by window: the feature array's two halves, the noise array, the reference array's two
    halves, the two result arrays. -/
theorem arrays_chain (c : Dev nD) (G : (w : Fin cfg0.W) → Buf (Elt F) ((cfg0.win w).arr.view.loc (c.tc : Thread nD τ))) :
    ((dats m 0 c).arrays G : sProp 𝕄)
      = iprop((((c.tc : Thread nD τ).loc main_arg0) ↦{fullShare.left} G 0) ∗ (((c.tc : Thread nD τ).loc main_arg0) ↦{fullShare.right} G 1)
          ∗ (((c.tc : Thread nD τ).loc main_arg1) ↦{fullShare} G 2)
          ∗ (((c.tc : Thread nD τ).loc main_arg2) ↦{fullShare.left} G 3) ∗ (((c.tc : Thread nD τ).loc main_arg2) ↦{fullShare.right} G 4)
          ∗ (((c.tc : Thread nD τ).loc main_v0_0) ↦{fullShare} G 5) ∗ (((c.tc : Thread nD τ).loc main_v0_1) ↦{fullShare} G 6)) := by
  unfold Dat.arrays
  rw [bigSep_W0, (arr_whole0 0).set_eq_univ, (arr_whole0 2).set_eq_univ, (arr_whole0 3).set_eq_univ, (arr_whole0 5).set_eq_univ,
    (arr_whole0 6).set_eq_univ]
  rfl

/-- The buffers behind the windows' arrays, one by one. -/
theorem arrBufs_chain (c : Dev nD) (W : (b : Ref sig .tc) → Buf (Elt F) ((c.tc : Thread nD τ).loc b)) :
    (arrBufs (Ix := Unit) (Name := ℕ) (U := UR sig nD τ) (Lvl := ℕ) spec0 c W : sProp 𝕄)
      = iprop((((c.tc : Thread nD τ).loc main_arg0) ↦{fullShare} W main_arg0) ∗ (((c.tc : Thread nD τ).loc main_arg1) ↦{fullShare} W main_arg1)
          ∗ (((c.tc : Thread nD τ).loc main_arg2) ↦{fullShare} W main_arg2) ∗ (((c.tc : Thread nD τ).loc main_v0_0) ↦{fullShare} W main_v0_0)
          ∗ (((c.tc : Thread nD τ).loc main_v0_1) ↦{fullShare} W main_v0_1)) := by
  unfold arrBufs
  exact bigSep_eq_bigSepL_of_eq [main_arg0, main_arg1, main_arg2, main_v0_0, main_v0_1] (by decide) (by decide) _

/-- ENTRY: the feature and the reference arrays split in halves between their two windows. -/
theorem hsplit (c : Dev nD) : (arrBufs (Ix := Unit) (Name := ℕ) (U := UR sig nD τ) (Lvl := ℕ) spec0 c (V m c) : sProp 𝕄)
    ⊢ (dats m 0 c).arrays ((dats m 0 c).arrAt · 0) := by
  rw [arrays_chain, arrBufs_chain]
  iintro ⟨H0, H1, H2, H3, H4⟩
  ihave H0' := (pointsTo_share (q := fullShare) (q₁ := fullShare.left) (q₂ := fullShare.right) (PosShare.mem_left_op_right fullShare)).1 $$ H0
  icases H0' with ⟨H0a, H0b⟩
  ihave H2' := (pointsTo_share (q := fullShare) (q₁ := fullShare.left) (q₂ := fullShare.right) (PosShare.mem_left_op_right fullShare)).1 $$ H2
  icases H2' with ⟨H2a, H2b⟩
  isplitl [H0a]; · iexact H0a
  isplitl [H0b]; · iexact H0b
  isplitl [H1]; · iexact H1
  isplitl [H2a]; · iexact H2a
  isplitl [H2b]; · iexact H2b
  isplitl [H3]; · iexact H3
  iexact H4

/-! ## The host operations after the region -/

/-- The core's buffers when the region is left: the two result arrays at what the region wrote back, every other buffer as
    launched. -/
def exitVal (c : Dev nD) : Valuation τ sig (Elt F) :=
  Function.update (Function.update (fun b => m (c, b)) (Proc.devRef .tc main_v0_0) ((dats m 0 c).arrAt 5 cfg0.N))
    (Proc.devRef .tc main_v0_1) ((dats m 0 c).arrAt 6 cfg0.N)

theorem exitVal_neg (c : Dev nD) : exitVal m c (Proc.devRef .tc main_v0_0) = (dats m 0 c).arrAt 5 cfg0.N := by
  unfold exitVal
  rw [Function.update_of_ne (by decide), Function.update_self]

theorem exitVal_pos (c : Dev nD) : exitVal m c (Proc.devRef .tc main_v0_1) = (dats m 0 c).arrAt 6 cfg0.N := by
  unfold exitVal
  rw [Function.update_self]

theorem exitVal_other (c : Dev nD) (b : Ref sig .tc) (h0 : b ≠ main_v0_0) (h1 : b ≠ main_v0_1) :
    exitVal m c (Proc.devRef .tc b) = m ((c.tc : Thread nD τ).loc b) := by
  unfold exitVal
  rw [Function.update_of_ne (fun e => h1 (Proc.devRef_injective _ e)), Function.update_of_ne (fun e => h0 (Proc.devRef_injective _ e))]

/-- The buffers after the twelve host operations. -/
def finalVal (c : Dev nD) (b : Ref sig .tc) : Buf (Elt F) ((c.tc : Thread nD τ).loc b) :=
  StableHlo.after (hostOps1 (F := F)) (exitVal m c) (Proc.devRef .tc b)

/-- The buffers the host operations run within: the two result arrays and the twelve buffers of their own. -/
abbrev tailL : List (DevRef τ sig) :=
  [Proc.devRef .tc main_v0_0, Proc.devRef .tc main_v0_1, Proc.devRef .tc main_v1, Proc.devRef .tc main_v2, Proc.devRef .tc main_cst,
    Proc.devRef .tc main_v3, Proc.devRef .tc main_v4, Proc.devRef .tc main_v5, Proc.devRef .tc main_v6, Proc.devRef .tc main_v7,
    Proc.devRef .tc main_cst_0, Proc.devRef .tc main_v8, Proc.devRef .tc main_cst_1, Proc.devRef .tc main_v9]

theorem held_tail (c : Dev nD) (W : Valuation τ sig (Elt F)) :
    (StableHlo.held (c.tc : Thread nD τ) tailL.toFinset W : sProp 𝕄)
      = iprop((((c.tc : Thread nD τ).loc main_v0_0) ↦{fullShare} W (Proc.devRef .tc main_v0_0)) ∗ (((c.tc : Thread nD τ).loc main_v0_1) ↦{fullShare} W (Proc.devRef .tc main_v0_1))
          ∗ (((c.tc : Thread nD τ).loc main_v1) ↦{fullShare} W (Proc.devRef .tc main_v1)) ∗ (((c.tc : Thread nD τ).loc main_v2) ↦{fullShare} W (Proc.devRef .tc main_v2))
          ∗ (((c.tc : Thread nD τ).loc main_cst) ↦{fullShare} W (Proc.devRef .tc main_cst)) ∗ (((c.tc : Thread nD τ).loc main_v3) ↦{fullShare} W (Proc.devRef .tc main_v3))
          ∗ (((c.tc : Thread nD τ).loc main_v4) ↦{fullShare} W (Proc.devRef .tc main_v4)) ∗ (((c.tc : Thread nD τ).loc main_v5) ↦{fullShare} W (Proc.devRef .tc main_v5))
          ∗ (((c.tc : Thread nD τ).loc main_v6) ↦{fullShare} W (Proc.devRef .tc main_v6)) ∗ (((c.tc : Thread nD τ).loc main_v7) ↦{fullShare} W (Proc.devRef .tc main_v7))
          ∗ (((c.tc : Thread nD τ).loc main_cst_0) ↦{fullShare} W (Proc.devRef .tc main_cst_0)) ∗ (((c.tc : Thread nD τ).loc main_v8) ↦{fullShare} W (Proc.devRef .tc main_v8))
          ∗ (((c.tc : Thread nD τ).loc main_cst_1) ↦{fullShare} W (Proc.devRef .tc main_cst_1)) ∗ (((c.tc : Thread nD τ).loc main_v9) ↦{fullShare} W (Proc.devRef .tc main_v9))) := by
  unfold StableHlo.held
  exact bigSep_eq_bigSepL_of_eq tailL rfl (by decide) _

theorem tail_sub : ∀ op ∈ (hostOps1 : List (HloOp τ sig (Elt F))), op.bufs ⊆ tailL.toFinset := by
  intro op hop
  simp only [hostOps1, List.mem_cons, List.not_mem_nil, _root_.or_false] at hop
  rcases hop with rfl | rfl | rfl | rfl | rfl | rfl | rfl | rfl | rfl | rfl | rfl | rfl
  · exact (by decide : ({(Proc.devRef .tc main_v0_0 : DevRef τ sig), Proc.devRef .tc main_v1} : Finset (DevRef τ sig)) ⊆ tailL.toFinset)
  · exact (by decide : ({(Proc.devRef .tc main_v0_1 : DevRef τ sig), Proc.devRef .tc main_v2} : Finset (DevRef τ sig)) ⊆ tailL.toFinset)
  · exact (by decide : ({(Proc.devRef .tc main_cst : DevRef τ sig)} : Finset (DevRef τ sig)) ⊆ tailL.toFinset)
  · exact (by decide : ({(Proc.devRef .tc main_cst : DevRef τ sig), Proc.devRef .tc main_v3} : Finset (DevRef τ sig)) ⊆ tailL.toFinset)
  · exact (by decide : ({(Proc.devRef .tc main_v1 : DevRef τ sig), Proc.devRef .tc main_v3, Proc.devRef .tc main_v4} : Finset (DevRef τ sig)) ⊆ tailL.toFinset)
  · exact (by decide : ({(Proc.devRef .tc main_v2 : DevRef τ sig), Proc.devRef .tc main_v4, Proc.devRef .tc main_v5} : Finset (DevRef τ sig)) ⊆ tailL.toFinset)
  · exact (by decide : ({(Proc.devRef .tc main_v5 : DevRef τ sig), Proc.devRef .tc main_v6} : Finset (DevRef τ sig)) ⊆ tailL.toFinset)
  · exact (by decide : ({(Proc.devRef .tc main_v6 : DevRef τ sig), Proc.devRef .tc main_v7} : Finset (DevRef τ sig)) ⊆ tailL.toFinset)
  · exact (by decide : ({(Proc.devRef .tc main_cst_0 : DevRef τ sig)} : Finset (DevRef τ sig)) ⊆ tailL.toFinset)
  · exact (by decide : ({(Proc.devRef .tc main_v7 : DevRef τ sig), Proc.devRef .tc main_cst_0, Proc.devRef .tc main_v8} : Finset (DevRef τ sig)) ⊆ tailL.toFinset)
  · exact (by decide : ({(Proc.devRef .tc main_cst_1 : DevRef τ sig)} : Finset (DevRef τ sig)) ⊆ tailL.toFinset)
  · exact (by decide : ({(Proc.devRef .tc main_v8 : DevRef τ sig), Proc.devRef .tc main_cst_1, Proc.devRef .tc main_v9} : Finset (DevRef τ sig)) ⊆ tailL.toFinset)

theorem tail_fresh : ∀ op ∈ (hostOps1 : List (HloOp τ sig (Elt F))), op.fresh = ∅ := by
  intro op hop
  simp only [hostOps1, List.mem_cons, List.not_mem_nil, _root_.or_false] at hop
  rcases hop with rfl | rfl | rfl | rfl | rfl | rfl | rfl | rfl | rfl | rfl | rfl | rfl <;> rfl

/-- What the operations leave in the buffers they do not write: the contents at the region's exit. -/
theorem finalVal_neg (c : Dev nD) : finalVal m c main_v0_0 = (dats m 0 c).arrAt 5 cfg0.N := by
  unfold finalVal
  rw [Cert.KerTail.tail_keeps (exitVal m c) main_v0_0 (.inr (.inr (.inr (.inl rfl)))), exitVal_neg]

theorem finalVal_pos (c : Dev nD) : finalVal m c main_v0_1 = (dats m 0 c).arrAt 6 cfg0.N := by
  unfold finalVal
  rw [Cert.KerTail.tail_keeps (exitVal m c) main_v0_1 (.inr (.inr (.inr (.inr rfl)))), exitVal_pos]

set_option backward.isDefEq.respectTransparency.types false in
/-- THE HOST OPERATIONS AFTER THE REGION: from the region's exit — the arrays at their final contents, the operations' own
    buffers as launched — they run within the two result arrays and their own buffers, beside the argument arrays' shares,
    and hand back the arrays unchanged and their own buffers at the operations' values. -/
theorem htail (c : Dev nD) (Q' : PUnit → sProp 𝕄) :
    iprop((iprop((dats m 0 c).arrays ((dats m 0 c).arrAt · cfg0.N)
            ∗ unscopedRestP (Ix := Unit) (Name := ℕ) (U := UR sig nD τ) (Lvl := ℕ) Pipeline.Prefetch.none spec0 c (finalVal m c)) -∗ Q' ⟨⟩)
        ∗ boundary (c.tc : Thread nD τ) ∗ (dats m 0 c).arrays ((dats m 0 c).arrAt · cfg0.N)
        ∗ unscopedRestP (Ix := Unit) (Name := ℕ) (U := UR sig nD τ) (Lvl := ℕ) Pipeline.Prefetch.none spec0 c (V m c))
      ⊢ wp frame (wpE (defs (F := F)) (Variants.lift Variants.none) (c.tc : Thread nD τ) none) Set.univ
          (Pipeline.chain ([hostOps1 (F := F)].map StableHlo.seq)) Q' := by
  have h := StableHlo.wp_seq (defs := defs (F := F)) (Variants.lift Variants.none) none Set.univ c tailL.toFinset
    (fun _ => Pipeline.chain []) (K := Q') (hostOps1 (F := F)) (tail_sub) (tail_fresh) (exitVal m c)
  rw [held_tail, held_tail, exitVal_neg, exitVal_pos] at h
  simp only [exitVal_other m c main_v1 (by decide) (by decide),
    exitVal_other m c main_v2 (by decide) (by decide),
    exitVal_other m c main_cst (by decide) (by decide),
    exitVal_other m c main_v3 (by decide) (by decide),
    exitVal_other m c main_v4 (by decide) (by decide),
    exitVal_other m c main_v5 (by decide) (by decide),
    exitVal_other m c main_v6 (by decide) (by decide),
    exitVal_other m c main_v7 (by decide) (by decide),
    exitVal_other m c main_cst_0 (by decide) (by decide),
    exitVal_other m c main_v8 (by decide) (by decide),
    exitVal_other m c main_cst_1 (by decide) (by decide),
    exitVal_other m c main_v9 (by decide) (by decide)] at h
  rw [arrays_chain, Pipeline.unscopedRestP_none, Pipeline.unscopedRestP_none, unscopedRest0_eq, unscopedRest0_eq]
  simp only [List.map_cons, List.map_nil, Pipeline.chain_cons]
  iintro ⟨Hk, Hb, ⟨A0, A1, A2, A3, A4, A5, A6⟩, ⟨R0, R1, R2, R3, R4, R5, R6, R7, R8, R9, R10, R11⟩⟩
  iapply h $$ [Hb A5 A6 R0 R1 R2 R3 R4 R5 R6 R7 R8 R9 R10 R11]
  · isplitl [Hb]; · iexact Hb
    isplitl [A5]; · iexact A5
    isplitl [A6]; · iexact A6
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iexact R11
  iintro ⟨Hb, A5, A6, R0, R1, R2, R3, R4, R5, R6, R7, R8, R9, R10, R11⟩
  rw [Pipeline.chain_nil, wp_pure]; imodintro
  iapply Hk
  isplitl [A0 A1 A2 A3 A4 A5 A6]
  · isplitl [A0]; · iexact A0
    isplitl [A1]; · iexact A1
    isplitl [A2]; · iexact A2
    isplitl [A3]; · iexact A3
    isplitl [A4]; · iexact A4
    isplitl [A5]
    · rw [show StableHlo.after (hostOps1 (F := F)) (exitVal m c) (Proc.devRef .tc main_v0_0) = (dats m 0 c).arrAt 5 cfg0.N from finalVal_neg m c]
      iexact A5
    rw [show StableHlo.after (hostOps1 (F := F)) (exitVal m c) (Proc.devRef .tc main_v0_1) = (dats m 0 c).arrAt 6 cfg0.N from finalVal_pos m c]
    iexact A6
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  iexact R11

/-! ## The run -/

theorem hX_run (c : Dev nD) : unscopedRestP (Ix := Unit) (Name := ℕ) (U := UR sig nD τ) (Lvl := ℕ) Pipeline.Prefetch.none spec0 c (V m c)
    ⊢ (iprop(emp ∗ unscopedRestP (Ix := Unit) (Name := ℕ) (U := UR sig nD τ) (Lvl := ℕ) Pipeline.Prefetch.none spec0 c (V m c)) : sProp 𝕄) := by
  iintro H
  isplitr
  · iempintro
  iexact H

theorem hin_run (c : Dev nD) : (iprop(emp ∗ Pipeline.prefHeld (Ix := Unit) (Name := ℕ) (U := UR sig nD τ) (Lvl := ℕ) Pipeline.Prefetch.none c (fun _ => fullShare.right) (Pipeline.Prefetch.Contents.none (Val := Elt F))
      ∗ scopedRest (Ix := Unit) (Name := ℕ) (U := UR sig nD τ) (Lvl := ℕ) (Val := Elt F) spec0 c) : sProp 𝕄)
    ⊢ scopedRest (Ix := Unit) (Name := ℕ) (U := UR sig nD τ) (Lvl := ℕ) (Val := Elt F) spec0 c := by
  iintro ⟨-, -, H⟩
  iexact H

theorem hout_run (c : Dev nD) : (scopedRest (Ix := Unit) (Name := ℕ) (U := UR sig nD τ) (Lvl := ℕ) (Val := Elt F) spec0 c : sProp 𝕄)
    ⊢ iprop(emp ∗ scopedRest (Ix := Unit) (Name := ℕ) (U := UR sig nD τ) (Lvl := ℕ) (Val := Elt F) spec0 c) := by
  iintro H
  isplitr
  · iempintro
  iexact H

theorem hY_run (c : Dev nD) (s' : Phys nD τ sig (Elt F)) :
    (iprop(emp ∗ unscopedRestP (Ix := Unit) (Name := ℕ) (U := UR sig nD τ) (Lvl := ℕ) Pipeline.Prefetch.none spec0 c (finalVal m c) ∗ SI s') : sProp 𝕄)
      ⊢ |={Set.univ}=> iprop(⌜∀ b ∈ Pipeline.restRefs sig spec0, s'.mem.mem ((c.tc : Thread nD τ).loc b) = finalVal m c b⌝ ∗ SI s') := by
  rw [Pipeline.unscopedRestP_none]
  unfold unscopedRest
  iintro ⟨-, HU, HSI⟩
  imodintro
  iapply (pointsTo_read_all (Pipeline.restRefs sig spec0) (fun b => (c.tc : Thread nD τ).loc b) (finalVal m c) s')
  isplitl [HU] <;> iassumption

/-- What the run ends in: every array the windows stage at what the proof data compute, and every buffer of the host
    operations' own at their values. -/
def RunPost (r : PUnit × MemSt nD τ sig (Elt F)) : Prop :=
  ∀ c : Dev nD, (∀ w, r.2.mem (((cfgs 0).spec w).arr.view.loc (c.tc : Thread nD τ)) = (dats m 0 c).arrAt w cfg0.N)
    ∧ ∀ b ∈ Pipeline.restRefs sig spec0, r.2.mem ((c.tc : Thread nD τ).loc b) = finalVal m c b

-- the launch theorem's implicit arguments are found by unifying its conclusion with this one
set_option backward.isDefEq.respectTransparency.types false in
/-- At the compiled mesh, for any values, from any memory with zero counters: every weakly fair execution of @main on the
    TensorCores terminates, in a state satisfying `RunPost`. -/
theorem run_main : θ_run defs (onTc (τ := τ) (main (F := F))) ⟨m, fun _ => 0, ρ⟩ (RunPost m) := by
  classical
  exact Pipeline.θ_run_region_noSem_pf_tail (fun q => (cfgs q).toPCfg (Val := Elt F)) (fun q => (cfgs q).toPCfg_adm) (dats m) () cellOf_inj 0
    winFacts₀0 (Pipeline.PreFacts.none _) emb₁ defs₀ Variants.none m ρ main
    (fun _ => Pipeline.chain ([hostOps1 (F := F)].map StableHlo.seq))
    (fun c => (body_obligation m c).loose) block_pos0 arr_whole0 stage_whole0 (fun _ _ => rfl)
    (u₀ := Rounds.initOf (Pipeline.cells cfgs cellOf_inj) (Pipeline.launchToks cfgs cellOf_inj)) (hu₀ := .rfl)
    (V := V m) (hmain := hmain m Variants.none)
    (hsplit := hsplit m) (hpf := fun _ k => k.elim0)
    (X := fun _ => iprop(emp)) (Y := fun _ => iprop(emp))
    (Z := fun c => unscopedRestP (Ix := Unit) (Name := ℕ) (U := UR sig nD τ) (Lvl := ℕ) Pipeline.Prefetch.none spec0 c (V m c))
    (Z' := fun c => unscopedRestP (Ix := Unit) (Name := ℕ) (U := UR sig nD τ) (Lvl := ℕ) Pipeline.Prefetch.none spec0 c (finalVal m c))
    (hX := hX_run m)
    (hin := fun c => hin_run c)
    (hout := fun c => hout_run c)
    (htail := fun c Q' => htail m c Q')
    (QY := fun c s => ∀ b ∈ Pipeline.restRefs sig spec0, s.mem ((c.tc : Thread nD τ).loc b) = finalVal m c b)
    (hY := fun c s' => hY_run m c s')
    (hQ := fun s h c => ⟨(h c).1, (h c).2.2⟩)

end Cert.KernelIdeal.Tile

end
-- ==== Proof.TileFinal.lean ====
/-
  The two result arrays after the region. The accumulator's window is written back after column tile 15 of each row tile,
  the positive pair's window likewise; the 16 blocks written back tile the [4096, 1] arrays, so each array ends holding, at
  row 256 * q + r, entry r of what the body left in the window's buffer at the last point of row tile q.
-/
import proofs.«101681_j87290915323999_1_alg».proof.Proof.TileDat
import Idealize.ShloMosaic.Lib.ValueIdx

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last point of row tile `q`: column tile 15. -/
def rowEnd (q : ℕ) (hq : q < 16) : Fin cfg0.N := ⟨16 * q + 15, by rw [show cfg0.N = 256 from N_0]; omega⟩

theorem accAt_congr (c : Dev nD) {n n' : ℕ} (e : n = n') (h : n < cfg0.N) (h' : n' < cfg0.N) : accAt m c n h = accAt m c n' h' := by
  subst e; rfl

/-- The negative sums as the region leaves them: row `256 q + r` at entry `r` of the accumulator after the last point of row tile `q`. -/
def negArr (c : Dev nD) : Buf (Elt F) ((c.tc : Thread nD τ).loc main_v0_0) := fun (y : S4096x1.Idx) =>
  (dats m 0 c).after 5 (rowEnd ((y 0).val / 256) (by have h : (y 0).val < 4096 := (y 0).isLt; omega))
    (ValueIdx.ix2 (⟨(y 0).val % 256, Nat.mod_lt _ (by decide)⟩ : Fin 256) (⟨0, by decide⟩ : Fin 1))

/-- The positive pairs as the region leaves them. -/
def posArr (c : Dev nD) : Buf (Elt F) ((c.tc : Thread nD τ).loc main_v0_1) := fun (y : S4096x1.Idx) =>
  (dats m 0 c).after 6 (rowEnd ((y 0).val / 256) (by have h : (y 0).val < 4096 := (y 0).isLt; omega))
    (ValueIdx.ix2 (⟨(y 0).val % 256, Nat.mod_lt _ (by decide)⟩ : Fin 256) (⟨0, by decide⟩ : Fin 1))

/-- The printed index maps of the two result windows, decided over the grid: the block index is the row tile. -/
theorem idx5 : ∀ t : Fin cfg0.N, win0_5.index t (0 : Fin 2) = t.val / 16 ∧ win0_5.index t (1 : Fin 2) = 0 :=
  (by decide +kernel : ∀ t : Fin grid0.N, win0_5.index t (0 : Fin 2) = t.val / 16 ∧ win0_5.index t (1 : Fin 2) = 0)
theorem idx6 : ∀ t : Fin cfg0.N, win0_6.index t (0 : Fin 2) = t.val / 16 ∧ win0_6.index t (1 : Fin 2) = 0 :=
  (by decide +kernel : ∀ t : Fin grid0.N, win0_6.index t (0 : Fin 2) = t.val / 16 ∧ win0_6.index t (1 : Fin 2) = 0)

/-- WHAT A WRITING POINT WRITES BACK is its block of the array above. -/
theorem flushed5_eq (c : Dev nD) (t : Fin cfg0.N) (hf : (cfg0.win 5).flush t = true) :
    (dats m 0 c).flushed 5 t = ((cfg0.win 5).blk t).view.read (Elt F) (negArr m c) := by
  have hN : t.val < 256 := lt_of_lt_of_eq t.isLt (show cfg0.N = 256 from N_0)
  have h15 : t.val % 16 = 15 := (flush0_5 t).mp hf
  obtain ⟨e0, e1⟩ := idx5 t
  show (cfg0.win 5).cut (grid0.coords t) ((dats m 0 c).after 5 t) = _
  funext j
  show (dats m 0 c).after 5 t j = negArr m c (((cfg0.win 5).blk t).view.emb j)
  unfold negArr
  have hj0 : (j 0).val < 256 := (j 0).isLt
  have hj1 : (j 1).val < 1 := (j 1).isLt
  have hv0 : ((((cfg0.win 5).blk t).view.emb j) 0).val = win0_5.index t (0 : Fin 2) * 256 + 1 * (j 0).val := rfl
  have ht : rowEnd (((((cfg0.win 5).blk t).view.emb j) 0).val / 256) (by rw [hv0, e0]; omega) = t := Fin.ext (by
    show 16 * (((((cfg0.win 5).blk t).view.emb j) 0).val / 256) + 15 = t.val
    rw [hv0, e0]; omega)
  have hi : (ValueIdx.ix2 (⟨((((cfg0.win 5).blk t).view.emb j) 0).val % 256, Nat.mod_lt _ (by decide)⟩ : Fin 256) (⟨0, by decide⟩ : Fin 1) : S256x1.Idx) = j := by
    funext a; apply Fin.ext
    match a with
    | ⟨0, _⟩ => show ((((cfg0.win 5).blk t).view.emb j) 0).val % 256 = (j 0).val; rw [hv0, e0]; omega
    | ⟨1, _⟩ => show 0 = (j 1).val; omega
  rw [ht, hi]

theorem flushed6_eq (c : Dev nD) (t : Fin cfg0.N) (hf : (cfg0.win 6).flush t = true) :
    (dats m 0 c).flushed 6 t = ((cfg0.win 6).blk t).view.read (Elt F) (posArr m c) := by
  have hN : t.val < 256 := lt_of_lt_of_eq t.isLt (show cfg0.N = 256 from N_0)
  have h15 : t.val % 16 = 15 := (flush0_6 t).mp hf
  obtain ⟨e0, e1⟩ := idx6 t
  show (cfg0.win 6).cut (grid0.coords t) ((dats m 0 c).after 6 t) = _
  funext j
  show (dats m 0 c).after 6 t j = posArr m c (((cfg0.win 6).blk t).view.emb j)
  unfold posArr
  have hj0 : (j 0).val < 256 := (j 0).isLt
  have hj1 : (j 1).val < 1 := (j 1).isLt
  have hv0 : ((((cfg0.win 6).blk t).view.emb j) 0).val = win0_6.index t (0 : Fin 2) * 256 + 1 * (j 0).val := rfl
  have ht : rowEnd (((((cfg0.win 6).blk t).view.emb j) 0).val / 256) (by rw [hv0, e0]; omega) = t := Fin.ext (by
    show 16 * (((((cfg0.win 6).blk t).view.emb j) 0).val / 256) + 15 = t.val
    rw [hv0, e0]; omega)
  have hi : (ValueIdx.ix2 (⟨((((cfg0.win 6).blk t).view.emb j) 0).val % 256, Nat.mod_lt _ (by decide)⟩ : Fin 256) (⟨0, by decide⟩ : Fin 1) : S256x1.Idx) = j := by
    funext a; apply Fin.ext
    match a with
    | ⟨0, _⟩ => show ((((cfg0.win 6).blk t).view.emb j) 0).val % 256 = (j 0).val; rw [hv0, e0]; omega
    | ⟨1, _⟩ => show 0 = (j 1).val; omega
  rw [ht, hi]

/-- An index of a result array is in point `t`'s block iff each coordinate is in the block's range on its axis. -/
theorem mem_blk5 (t : Fin cfg0.N) (i : S4096x1.Idx) :
    i ∈ ((cfg0.win 5).blk t).view.set ↔ ∀ a : Fin 2, win0_5.index t a * S256x1.size a ≤ (i a).val ∧ (i a).val < win0_5.index t a * S256x1.size a + S256x1.size a := by
  show i ∈ ((View.whole main_v0_0).slice (win0_5.rect t)).set ↔ _
  rw [View.set_slice_whole, Rect.mem_set_unit]
  exact Iff.rfl
theorem mem_blk6 (t : Fin cfg0.N) (i : S4096x1.Idx) :
    i ∈ ((cfg0.win 6).blk t).view.set ↔ ∀ a : Fin 2, win0_6.index t a * S256x1.size a ≤ (i a).val ∧ (i a).val < win0_6.index t a * S256x1.size a + S256x1.size a := by
  show i ∈ ((View.whole main_v0_1).slice (win0_6.rect t)).set ↔ _
  rw [View.set_slice_whole, Rect.mem_set_unit]
  exact Iff.rfl

/-- Every row is in the block written back at the last point of its row tile. -/
theorem cover5 (i : S4096x1.Idx) : ∃ t : Fin cfg0.N, (cfg0.win 5).flush t = true ∧ i ∈ ((cfg0.win 5).blk t).view.set := by
  have hi0 : (i 0).val < 4096 := (i 0).isLt
  have hi1 : (i 1).val < 1 := (i 1).isLt
  refine ⟨rowEnd ((i 0).val / 256) (by omega), (flush0_5 _).mpr (by show (16 * ((i 0).val / 256) + 15) % 16 = 15; omega), ?_⟩
  obtain ⟨e0, e1⟩ := idx5 (rowEnd ((i 0).val / 256) (by omega))
  have ev : (rowEnd ((i 0).val / 256) (by omega)).val = 16 * ((i 0).val / 256) + 15 := rfl
  rw [mem_blk5]
  intro a
  match a with
  | ⟨0, _⟩ => show win0_5.index _ (0 : Fin 2) * 256 ≤ (i 0).val ∧ (i 0).val < win0_5.index _ (0 : Fin 2) * 256 + 256; rw [e0, ev]; omega
  | ⟨1, _⟩ => show win0_5.index _ (1 : Fin 2) * 1 ≤ (i 1).val ∧ (i 1).val < win0_5.index _ (1 : Fin 2) * 1 + 1; rw [e1]; omega
theorem cover6 (i : S4096x1.Idx) : ∃ t : Fin cfg0.N, (cfg0.win 6).flush t = true ∧ i ∈ ((cfg0.win 6).blk t).view.set := by
  have hi0 : (i 0).val < 4096 := (i 0).isLt
  have hi1 : (i 1).val < 1 := (i 1).isLt
  refine ⟨rowEnd ((i 0).val / 256) (by omega), (flush0_6 _).mpr (by show (16 * ((i 0).val / 256) + 15) % 16 = 15; omega), ?_⟩
  obtain ⟨e0, e1⟩ := idx6 (rowEnd ((i 0).val / 256) (by omega))
  have ev : (rowEnd ((i 0).val / 256) (by omega)).val = 16 * ((i 0).val / 256) + 15 := rfl
  rw [mem_blk6]
  intro a
  match a with
  | ⟨0, _⟩ => show win0_6.index _ (0 : Fin 2) * 256 ≤ (i 0).val ∧ (i 0).val < win0_6.index _ (0 : Fin 2) * 256 + 256; rw [e0, ev]; omega
  | ⟨1, _⟩ => show win0_6.index _ (1 : Fin 2) * 1 ≤ (i 1).val ∧ (i 1).val < win0_6.index _ (1 : Fin 2) * 1 + 1; rw [e1]; omega

/-- So the two result arrays end holding them. -/
theorem final5 (c : Dev nD) : (dats m 0 c).arrAt 5 cfg0.N = negArr m c :=
  (dats m 0 c).arrAt_eq_of_cover 5 (negArr m c) (flushed5_eq m c) cover5
theorem final6 (c : Dev nD) : (dats m 0 c).arrAt 6 cfg0.N = posArr m c :=
  (dats m 0 c).arrAt_eq_of_cover 6 (posArr m c) (flushed6_eq m c) cover6

end Cert.KernelIdeal.Tile

end
-- ==== Proof.KerTileOps.lean ====
/-
  The operations of the tile computation that are not pointwise, each read at one entry of its result:
  a sum along the lanes of a row, the column form of a row vector, the transposes, the two broadcasts
  of a column or a row over a square tile, and the product of a tile with a transposed tile.
-/
import proofs.«101681_j87290915323999_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KerTile

open Idealize.ShloMosaic Idealize.ShloMosaic.ValueIdx Cert.KernelIdeal Cert.KernelIdeal.Gen

/-- The sum along the 1024 lanes of row `r`. -/
theorem rowsum1024_apply (x : FVec Ideal S256x1024 .f32) (r : Fin 256) :
    multiReduction (F := Ideal) .add [1] S256 x 0x00000000#32 reduces_S256x1024_S256 (.inl rfl) rfl (ix1 r)
      = ∑ k : Fin 1024, x (ix2 r k) := by
  refine (Ideal.multiReduction_add_single x 0x00000000#32 reduces_S256x1024_S256 (.inl rfl) rfl (ix1 r)).trans ?_
  refine Finset.sum_congr rfl fun k _ => congrArg x (funext fun a => Fin.ext ?_)
  match a with
  | ⟨0, _⟩ => rfl
  | ⟨1, _⟩ => rfl

/-- The sum along the 256 lanes of row `r`. -/
theorem rowsum256_apply (x : FVec Ideal S256x256 .f32) (r : Fin 256) :
    multiReduction (F := Ideal) .add [1] S256 x 0x00000000#32 reduces_S256x256_S256 (.inl rfl) rfl (ix1 r)
      = ∑ k : Fin 256, x (ix2 r k) := by
  refine (Ideal.multiReduction_add_single x 0x00000000#32 reduces_S256x256_S256 (.inl rfl) rfl (ix1 r)).trans ?_
  refine Finset.sum_congr rfl fun k _ => congrArg x (funext fun a => Fin.ext ?_)
  match a with
  | ⟨0, _⟩ => rfl
  | ⟨1, _⟩ => rfl

/-- A vector of 256 entries written as a column: entry `(r, q)` of the column is entry `r` of the vector. -/
theorem column_apply {α : Type} (y : S256.Idx → α) (r : Fin 256) (q : Fin 1) :
    shapeCast S256x1 y shapeCasts_S256_S256x1 (ix2 r q) = y (ix1 r) :=
  shapeCast_apply y shapeCasts_S256_S256x1 _ _ (by
    have hq : q.val = 0 := by omega
    rw [Shape.rowMajor_val_two, Shape.rowMajor_val_one]
    show r.val = r.val * 1 + q.val
    rw [hq, Nat.mul_one, Nat.add_zero])

/-- A column transposed into a row: entry `(q, c)` of the row is entry `(c, q)` of the column. -/
theorem row_of_column_apply {α : Type} (y : S256x1.Idx → α) (q : Fin 1) (c : Fin 256) :
    transpose S1x256 [1, 0] y transposes_S256x1_p1_0_S1x256 (ix2 q c) = y (ix2 c q) :=
  transpose_ix2_apply y transposes_S256x1_p1_0_S1x256 q c

/-- A column spread over the 256 columns of a square tile: entry `(p, c)` is the column's entry `p`. -/
theorem spread_column_apply {α : Type} (y : S256x1.Idx → α) (p c : Fin 256) :
    broadcastTo S256x256 y broadcasts_S256x1_S256x256 (ix2 p c) = y (ix2 p (0 : Fin 1)) := by
  refine broadcastTo_apply y broadcasts_S256x1_S256x256 (ix2 p c) (ix2 p (0 : Fin 1)) fun ax => ?_
  match ax with
  | ⟨0, _⟩ =>
    show p.val = if (256 : Nat) = 1 then 0 else p.val
    rw [if_neg (by decide)]
  | ⟨1, _⟩ =>
    show 0 = if (1 : Nat) = 1 then 0 else c.val
    rw [if_pos rfl]

/-- A row spread over the 256 rows of a square tile: entry `(p, c)` is the row's entry `c`. -/
theorem spread_row_apply {α : Type} (y : S1x256.Idx → α) (p c : Fin 256) :
    broadcastTo S256x256 y broadcasts_S1x256_S256x256 (ix2 p c) = y (ix2 (0 : Fin 1) c) :=
  broadcastTo_1b_ab_apply y broadcasts_S1x256_S256x256 p c

/-- A tile of 1024 lanes transposed: entry `(k, c)` is entry `(c, k)` of the tile. -/
theorem transpose1024_apply {α : Type} (y : S256x1024.Idx → α) (k : Fin 1024) (c : Fin 256) :
    transpose S1024x256 [1, 0] y transposes_S256x1024_p1_0_S1024x256 (ix2 k c) = y (ix2 c k) :=
  transpose_ix2_apply y transposes_S256x1024_p1_0_S1024x256 k c

/-- A square tile transposed. -/
theorem transpose256_apply {α : Type} (y : S256x256.Idx → α) (k c : Fin 256) :
    transpose S256x256 [1, 0] y transposes_S256x256_p1_0_S256x256 (ix2 k c) = y (ix2 c k) :=
  transpose_ix2_apply y transposes_S256x256_p1_0_S256x256 k c

/-- The left factor of output entry `i` lies in row `i 0` … -/
theorem lhs1024_row (i : S256x256.Idx) (q : dot_S256x1024_S1024x256_S256x256_1_0_0_1_n_n.contr.Idx) :
    (dot_S256x1024_S1024x256_S256x256_1_0_0_1_n_n.lhsIdx i q 0).val = (i 0).val := by
  unfold DotDims.lhsIdx
  rw [dif_neg (show ¬(0 : Fin S256x1024.rank) ∈ dot_S256x1024_S1024x256_S256x256_1_0_0_1_n_n.lhsBatch by decide),
    dif_pos (show (0 : Fin S256x1024.rank) ∈ dot_S256x1024_S1024x256_S256x256_1_0_0_1_n_n.lhsNonContracting by decide)]
  rfl
/-- … and the right factor in column `i 1`. -/
theorem rhs1024_col (i : S256x256.Idx) (q : dot_S256x1024_S1024x256_S256x256_1_0_0_1_n_n.contr.Idx) :
    (dot_S256x1024_S1024x256_S256x256_1_0_0_1_n_n.rhsIdx i q 1).val = (i 1).val := by
  unfold DotDims.rhsIdx
  rw [dif_neg (show ¬(1 : Fin S1024x256.rank) ∈ dot_S256x1024_S1024x256_S256x256_1_0_0_1_n_n.rhsBatch by decide),
    dif_pos (show (1 : Fin S1024x256.rank) ∈ dot_S256x1024_S1024x256_S256x256_1_0_0_1_n_n.rhsNonContracting by decide)]
  rfl

/-- The product of a 256 × 1024 tile with a 1024 × 256 tile, started from zero: entry `(p, c)` is the sum over the
    1024 lanes of the products of row `p` with column `c`. -/
theorem matmul1024_apply {φ₁ φ₂ : FTy} (l : FVec Ideal S256x1024 φ₁) (rr : FVec Ideal S1024x256 φ₂) (p c : Fin 256) :
    matmul (F := Ideal) dot_S256x1024_S1024x256_S256x256_1_0_0_1_n_n none l rr (constant (F := Ideal) S256x256 .f32 0x00000000#32) (ix2 p c)
      = ∑ k : Fin 1024, l (ix2 p k) * rr (ix2 k c) := by
  simp only [matmul]
  rw [Ideal.matmul_constant_zero_apply,
    ← Equiv.sum_comp (contrEquiv1 dot_S256x1024_S1024x256_S256x256_1_0_0_1_n_n 1024 rfl rfl).symm]
  refine Finset.sum_congr rfl fun k _ => ?_
  have hk := contrEquiv1_symm_val dot_S256x1024_S1024x256_S256x256_1_0_0_1_n_n 1024 rfl rfl k
  have el : dot_S256x1024_S1024x256_S256x256_1_0_0_1_n_n.lhsIdx (ix2 p c)
      ((contrEquiv1 dot_S256x1024_S1024x256_S256x256_1_0_0_1_n_n 1024 rfl rfl).symm k) = ix2 p k :=
    funext fun a => Fin.ext (by
      match a with
      | ⟨0, _⟩ => exact lhs1024_row _ _
      | ⟨1, _⟩ => exact (dot_S256x1024_S1024x256_S256x256_1_0_0_1_n_n.lhsIdx_val_of_single rfl _ _).trans hk)
  have er : dot_S256x1024_S1024x256_S256x256_1_0_0_1_n_n.rhsIdx (ix2 p c)
      ((contrEquiv1 dot_S256x1024_S1024x256_S256x256_1_0_0_1_n_n 1024 rfl rfl).symm k) = ix2 k c :=
    funext fun a => Fin.ext (by
      match a with
      | ⟨0, _⟩ => exact (dot_S256x1024_S1024x256_S256x256_1_0_0_1_n_n.rhsIdx_val_of_single rfl _ _).trans hk
      | ⟨1, _⟩ => exact rhs1024_col _ _)
  rw [el, er]

/-- The left factor of output entry `i` lies in row `i 0` … -/
theorem lhs256_row (i : S256x256.Idx) (q : dot_S256x256_S256x256_S256x256_1_0_0_1_n_n.contr.Idx) :
    (dot_S256x256_S256x256_S256x256_1_0_0_1_n_n.lhsIdx i q 0).val = (i 0).val := by
  unfold DotDims.lhsIdx
  rw [dif_neg (show ¬(0 : Fin S256x256.rank) ∈ dot_S256x256_S256x256_S256x256_1_0_0_1_n_n.lhsBatch by decide),
    dif_pos (show (0 : Fin S256x256.rank) ∈ dot_S256x256_S256x256_S256x256_1_0_0_1_n_n.lhsNonContracting by decide)]
  rfl
/-- … and the right factor in column `i 1`. -/
theorem rhs256_col (i : S256x256.Idx) (q : dot_S256x256_S256x256_S256x256_1_0_0_1_n_n.contr.Idx) :
    (dot_S256x256_S256x256_S256x256_1_0_0_1_n_n.rhsIdx i q 1).val = (i 1).val := by
  unfold DotDims.rhsIdx
  rw [dif_neg (show ¬(1 : Fin S256x256.rank) ∈ dot_S256x256_S256x256_S256x256_1_0_0_1_n_n.rhsBatch by decide),
    dif_pos (show (1 : Fin S256x256.rank) ∈ dot_S256x256_S256x256_S256x256_1_0_0_1_n_n.rhsNonContracting by decide)]
  rfl

/-- The same for two square tiles of 256 lanes. -/
theorem matmul256_apply {φ₁ φ₂ : FTy} (l : FVec Ideal S256x256 φ₁) (rr : FVec Ideal S256x256 φ₂) (p c : Fin 256) :
    matmul (F := Ideal) dot_S256x256_S256x256_S256x256_1_0_0_1_n_n none l rr (constant (F := Ideal) S256x256 .f32 0x00000000#32) (ix2 p c)
      = ∑ k : Fin 256, l (ix2 p k) * rr (ix2 k c) := by
  simp only [matmul]
  rw [Ideal.matmul_constant_zero_apply,
    ← Equiv.sum_comp (contrEquiv1 dot_S256x256_S256x256_S256x256_1_0_0_1_n_n 256 rfl rfl).symm]
  refine Finset.sum_congr rfl fun k _ => ?_
  have hk := contrEquiv1_symm_val dot_S256x256_S256x256_S256x256_1_0_0_1_n_n 256 rfl rfl k
  have el : dot_S256x256_S256x256_S256x256_1_0_0_1_n_n.lhsIdx (ix2 p c)
      ((contrEquiv1 dot_S256x256_S256x256_S256x256_1_0_0_1_n_n 256 rfl rfl).symm k) = ix2 p k :=
    funext fun a => Fin.ext (by
      match a with
      | ⟨0, _⟩ => exact lhs256_row _ _
      | ⟨1, _⟩ => exact (dot_S256x256_S256x256_S256x256_1_0_0_1_n_n.lhsIdx_val_of_single rfl _ _).trans hk)
  have er : dot_S256x256_S256x256_S256x256_1_0_0_1_n_n.rhsIdx (ix2 p c)
      ((contrEquiv1 dot_S256x256_S256x256_S256x256_1_0_0_1_n_n 256 rfl rfl).symm k) = ix2 k c :=
    funext fun a => Fin.ext (by
      match a with
      | ⟨0, _⟩ => exact (dot_S256x256_S256x256_S256x256_1_0_0_1_n_n.rhsIdx_val_of_single rfl _ _).trans hk
      | ⟨1, _⟩ => exact rhs256_col _ _)
  rw [el, er]

end Cert.KerTile

end
-- ==== Proof.KerTileCos.lean ====
/-
  The quantities of one tile as the specification names them: the norm of a row, the inner product of two rows,
  and the exponential of the cosine of two rows, each read off the tile computation at one entry.
-/
import proofs.«101681_j87290915323999_1_alg».proof.Proof.KerTileOps
import proofs.«101681_j87290915323999_1_alg».proof.Proof.Spec

noncomputable section

namespace Cert.KerTile

open Idealize.ShloMosaic Idealize.ShloMosaic.ValueIdx Cert.KernelIdeal Cert.KernelIdeal.Gen Cert.Contrast

/-- The square root of the lane sum of squares of row `r`, kept as a column, is the norm of row `r`. -/
theorem norm1024_apply (x : Vec Ideal S256x1024 .f32) (r : Fin 256) (q : Fin 1) :
    sqrt (F := Ideal) (shapeCast S256x1 (multiReduction (F := Ideal) .add [1] S256 (mulf (F := Ideal) x x) 0x00000000#32
        reduces_S256x1024_S256 (.inl rfl) rfl) shapeCasts_S256_S256x1) (ix2 r q)
      = norm (r := 256) (c := 1024) x r := by
  show Ideal.sqrt (shapeCast S256x1 _ shapeCasts_S256_S256x1 (ix2 r q)) = _
  rw [column_apply, rowsum1024_apply]
  rfl

/-- The same for a tile of 256 lanes. -/
theorem norm256_apply (x : Vec Ideal S256x256 .f32) (r : Fin 256) (q : Fin 1) :
    sqrt (F := Ideal) (shapeCast S256x1 (multiReduction (F := Ideal) .add [1] S256 (mulf (F := Ideal) x x) 0x00000000#32
        reduces_S256x256_S256 (.inl rfl) rfl) shapeCasts_S256_S256x1) (ix2 r q)
      = norm (r := 256) (c := 256) x r := by
  show Ideal.sqrt (shapeCast S256x1 _ shapeCasts_S256_S256x1 (ix2 r q)) = _
  rw [column_apply, rowsum256_apply]
  rfl

/-- The column of row norms of the feature row tile … -/
theorem pay3_apply (v1 : Vec Ideal S256x1024 .f32) (r : Fin 256) (q : Fin 1) :
    k0_pay3 (F := Ideal) v1 (ix2 r q) = norm (r := 256) (c := 1024) v1 r := norm1024_apply v1 r q
/-- … of the feature column tile … -/
theorem pay4_apply (v2 : Vec Ideal S256x1024 .f32) (r : Fin 256) (q : Fin 1) :
    k0_pay4 (F := Ideal) v2 (ix2 r q) = norm (r := 256) (c := 1024) v2 r := norm1024_apply v2 r q
/-- … of the reference row tile … -/
theorem pay5_apply (v4 : Vec Ideal S256x256 .f32) (r : Fin 256) (q : Fin 1) :
    k0_pay5 (F := Ideal) v4 (ix2 r q) = norm (r := 256) (c := 256) v4 r := norm256_apply v4 r q
/-- … and of the reference column tile. -/
theorem pay6_apply (v5 : Vec Ideal S256x256 .f32) (r : Fin 256) (q : Fin 1) :
    k0_pay6 (F := Ideal) v5 (ix2 r q) = norm (r := 256) (c := 256) v5 r := norm256_apply v5 r q

/-- The row norms of the feature row tile spread over the columns: entry `(p, c)` is the norm of row `p`. -/
theorem pay11_apply (v1 : Vec Ideal S256x1024 .f32) (p c : Fin 256) :
    k0_pay11 (F := Ideal) v1 (ix2 p c) = norm (r := 256) (c := 1024) v1 p :=
  (spread_column_apply _ p c).trans (pay3_apply v1 p 0)

/-- The row norms of the noise tile, transposed and spread over the rows: entry `(p, c)` is the norm of row `c`. -/
theorem pay12_apply (v3 : Vec Ideal S256x1024 .f32) (p c : Fin 256) :
    k0_pay12 (F := Ideal) v3 (ix2 p c) = norm (r := 256) (c := 1024) v3 c :=
  (spread_row_apply _ p c).trans ((row_of_column_apply _ 0 c).trans (norm1024_apply v3 c 0))

/-- The product of a tile of 1024 lanes with the transpose of another: the inner products of their rows. -/
theorem dot1024_apply (x y : Vec Ideal S256x1024 .f32) (p c : Fin 256) :
    matmul (F := Ideal) dot_S256x1024_S1024x256_S256x256_1_0_0_1_n_n none (k0_pay7 (F := Ideal) x)
        (transpose S1024x256 [1, 0] (truncf (F := Ideal) .bf16 y bitsLt_bf16_f32) transposes_S256x1024_p1_0_S1024x256)
        (constant (F := Ideal) S256x256 .f32 0x00000000#32) (ix2 p c)
      = dot (r := 256) (r' := 256) (c := 1024) x y p c := by
  refine (matmul1024_apply _ _ p c).trans ?_
  unfold dot
  refine Finset.sum_congr rfl fun k _ => ?_
  rw [transpose1024_apply]
  rfl

/-- The inner products of the feature rows with the noise rows … -/
theorem pay8_apply (v1 v3 : Vec Ideal S256x1024 .f32) (p c : Fin 256) :
    k0_pay8 (F := Ideal) v1 v3 (ix2 p c) = dot (r := 256) (r' := 256) (c := 1024) v1 v3 p c := dot1024_apply v1 v3 p c
/-- … and with the feature rows of the column tile. -/
theorem pay9_apply (v1 v2 : Vec Ideal S256x1024 .f32) (p c : Fin 256) :
    k0_pay9 (F := Ideal) v1 v2 (ix2 p c) = dot (r := 256) (r' := 256) (c := 1024) v1 v2 p c := dot1024_apply v1 v2 p c

/-- The inner products of the reference rows of the two tiles. -/
theorem pay10_apply (v4 v5 : Vec Ideal S256x256 .f32) (p c : Fin 256) :
    k0_pay10 (F := Ideal) v4 v5 (ix2 p c) = dot (r := 256) (r' := 256) (c := 256) v4 v5 p c := by
  refine (matmul256_apply _ _ p c).trans ?_
  unfold dot
  refine Finset.sum_congr rfl fun k _ => ?_
  rw [transpose256_apply]
  rfl

/-- The exponential of a quotient by a clamped product, entry by entry. -/
theorem pay13_apply (a b d : FVec Ideal S256x256 .f32) (j : S256x256.Idx) :
    k0_pay13 (F := Ideal) a b d j = Ideal.exp (Ideal.div (a j) (max (b j * d j) eps)) := rfl

/-- The exponential of the cosine of feature row `p` and noise row `c`. -/
theorem expcos_apply (v1 v3 : Vec Ideal S256x1024 .f32) (p c : Fin 256) :
    k0_pay13 (F := Ideal) (k0_pay8 v1 v3) (k0_pay11 v1) (k0_pay12 v3) (ix2 p c)
      = Ideal.exp (cos (r := 256) (r' := 256) (c := 1024) v1 v3 p c) := by
  rw [pay13_apply, pay8_apply, pay11_apply, pay12_apply]
  rfl

end Cert.KerTile

end
-- ==== Proof.KerTileMask.lean ====
/-
  The mask of one tile. On a diagonal tile (row tile index = column tile index) the pair (r, r) is left out of a row's
  negative sum; on every other tile nothing is. The tile computation builds the indicator of the diagonal from two
  coordinate arrays, subtracts it from one, and selects by the tile's diagonal bit.
-/
import proofs.«101681_j87290915323999_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KerTile

open Idealize.ShloMosaic Idealize.ShloMosaic.ValueIdx Cert.KernelIdeal Cert.KernelIdeal.Gen

/-- The mask of entry `(r, c)` of a tile whose diagonal bit is `v0`: zero on the diagonal of a diagonal tile, one elsewhere. -/
def tileMask (v0 : BitVec 1) (r c : Fin 256) : EReal := if v0 = 1#1 then (if r = c then 0 else 1) else 1

/-- The word of `1.0` is the extended real one. -/
theorem one_word : Ideal.ofBits .f32 0x3F800000#32 = 1 := IdealRules.sign_bit.ideal_onePat .f32

/-- Two coordinates below 256 are equal as 32-bit words exactly when they are equal. -/
theorem coord_word_eq_iff (p c : Fin 256) : BitVec.ofNat 32 p.val = BitVec.ofNat 32 c.val ↔ p = c := by
  constructor
  · intro e
    have h := congrArg BitVec.toNat e
    simp only [BitVec.toNat_ofNat] at h
    have hp := p.isLt
    have hc := c.isLt
    exact Fin.ext (by omega)
  · intro e; rw [e]

/-- The indicator of the diagonal, entry by entry. -/
theorem pay14_apply (p c : Fin 256) :
    k0_pay14 (F := Ideal) (ix2 p c) = if p = c then 1 else 0 := by
  unfold k0_pay14
  show Scalar.sitofp (F := Ideal) .f32 ((IntOp.cmpi .eq (iota .tc S256x256 32 [0] iota_S256x256_d0_w32 (ix2 p c))
      (iota .tc S256x256 32 [1] iota_S256x256_d1_w32 (ix2 p c))).setWidth 32) = _
  rw [iota_single_apply, iota_single_apply, Ideal.scalar_sitofp_def]
  show ((((BitVec.ofBool (BitVec.ofNat 32 p.val == BitVec.ofNat 32 c.val)).setWidth 32).toInt : ℝ) : EReal) = _
  have h1 : ((BitVec.ofBool true).setWidth 32).toInt = 1 := by decide
  have h0 : ((BitVec.ofBool false).setWidth 32).toInt = 0 := by decide
  by_cases h : p = c
  · rw [if_pos h, h, beq_self_eq_true, h1, Int.cast_one, EReal.coe_one]
  · rw [if_neg h, beq_eq_false_iff_ne.mpr (fun e => h ((coord_word_eq_iff p c).mp e)), h0, Int.cast_zero, EReal.coe_zero]

/-- A select between two whole arrays on one bit, read at an entry. -/
theorem select_bit_apply {α : Type} {s : Shape} (b : BitVec 1) (x y : s.Idx → α) (j : s.Idx) :
    Scalar.select b x y j = Scalar.select b (x j) (y j) := by
  unfold Scalar.select
  split <;> rfl

/-- One minus the indicator of the diagonal, selected by the tile's diagonal bit, is the tile's mask. -/
theorem mask_apply (v0 : BitVec 1) (p c : Fin 256) :
    Scalar.select v0 (subf (F := Ideal) (broadcast S256x256 (Scalar.ofBits (F := Ideal) .f32 0x3F800000#32)) (k0_pay14 (F := Ideal)))
        (broadcast S256x256 (Scalar.ofBits (F := Ideal) .f32 0x3F800000#32)) (ix2 p c)
      = tileMask v0 p c := by
  rw [select_bit_apply]
  show Scalar.select v0 (Ideal.ofBits .f32 0x3F800000#32 - k0_pay14 (F := Ideal) (ix2 p c)) (Ideal.ofBits .f32 0x3F800000#32) = _
  rw [pay14_apply, one_word]
  unfold tileMask
  rcases BitVec.eq_zero_or_eq_one v0 with hv | hv
  · subst hv
    rw [select_zero, if_neg (by decide)]
  · subst hv
    rw [select_one, if_pos rfl]
    by_cases h : p = c
    · rw [if_pos h, if_pos h, ← EReal.coe_one, ← EReal.coe_sub, sub_self, EReal.coe_zero]
    · rw [if_neg h, if_neg h, sub_zero]

end Cert.KerTile

end
-- ==== Proof.KerTile.lean ====
/-
  One tile of the loss. For the feature row tile `v1`, the feature column tile `v2`, the noise column tile `v3` and
  the reference row and column tiles `v4`, `v5`, the tile computation adds to row `r`'s negative sum the weighted
  exponentials of the cosines of row `r` with every row of the column tiles, the pair (r, r) left out on a diagonal
  tile; and on a diagonal tile it records the row's positive pair, the exponential of the cosine of feature row `r` and
  noise row `r`, picked out of the tile by the indicator of the diagonal.
-/
import proofs.«101681_j87290915323999_1_alg».proof.Proof.KerTileCos
import proofs.«101681_j87290915323999_1_alg».proof.Proof.KerTileMask

noncomputable section

namespace Cert.KerTile

open Idealize.ShloMosaic Idealize.ShloMosaic.ValueIdx Cert.KernelIdeal Cert.KernelIdeal.Gen Cert.Contrast

/-- The exponential of an array, entry by entry. -/
theorem exp_apply {s : Shape} {φ : FTy} (x : FVec Ideal s φ) (i : s.Idx) : exp (F := Ideal) x i = Ideal.exp (x i) := rfl

/-- The negative sum of one tile over arrays of any contents: at row `r`, the sum over the tile's columns of the
    first exponential times the weight times the mask, plus the same sum with the second exponential; the weight is
    half of one minus the quotient of `d36` by the clamped product of the norms `n21`, `n25`, and the second
    exponential's argument the quotient of `d34` by the clamped product of the norms `n9`, `n13`. -/
theorem pay15_apply (v0 : BitVec 1) (n9 n13 n21 n25 : FVec Ideal S256x1 .f32) (d32 d34 d36 b38 b39 : FVec Ideal S256x256 .f32)
    (r : Fin 256) (q : Fin 1) :
    k0_pay15 (F := Ideal) v0 n9 n13 n21 n25 d32 d34 d36 b38 b39 (ix2 r q)
      = (∑ c : Fin 256, k0_pay13 (F := Ideal) d32 b38 b39 (ix2 r c)
            * ((one - Ideal.div (d36 (ix2 r c)) (max (n21 (ix2 r (0 : Fin 1)) * n25 (ix2 c (0 : Fin 1))) eps)) * half)
            * tileMask v0 r c)
        + ∑ c : Fin 256, Ideal.exp (Ideal.div (d34 (ix2 r c)) (max (n9 (ix2 r (0 : Fin 1)) * n13 (ix2 c (0 : Fin 1))) eps))
            * ((one - Ideal.div (d36 (ix2 r c)) (max (n21 (ix2 r (0 : Fin 1)) * n25 (ix2 c (0 : Fin 1))) eps)) * half)
            * tileMask v0 r c := by
  unfold k0_pay15
  dsimp only
  rw [addf_apply, column_apply, column_apply, rowsum256_apply, rowsum256_apply]
  refine congrArg₂ (· + ·) (Finset.sum_congr rfl fun c _ => ?_) (Finset.sum_congr rfl fun c _ => ?_)
  · simp only [mulf_apply, subf_apply, divf_apply, maximumf_apply, broadcast_apply]
    rw [mask_apply, spread_column_apply, spread_row_apply, row_of_column_apply]
    rfl
  · simp only [mulf_apply, subf_apply, divf_apply, maximumf_apply, broadcast_apply, exp_apply]
    rw [mask_apply, spread_column_apply, spread_row_apply, row_of_column_apply, spread_column_apply, spread_row_apply,
      row_of_column_apply]
    rfl

variable (v1 v2 v3 : Vec Ideal S256x1024 .f32) (v4 v5 : Vec Ideal S256x256 .f32) (v0 : BitVec 1) (r : Fin 256)

/-- Row `r`'s share of the negative sum from one tile: the noise half and the feature half, each summed over the
    256 rows of the column tiles with the tile's mask. -/
theorem block_negative :
    k0_pay15 (F := Ideal) v0 (k0_pay3 v1) (k0_pay4 v2) (k0_pay5 v4) (k0_pay6 v5) (k0_pay8 v1 v3) (k0_pay9 v1 v2)
        (k0_pay10 v4 v5) (k0_pay11 v1) (k0_pay12 v3) (ix2 r 0)
      = (∑ c : Fin 256, term (r := 256) (r' := 256) (c := 1024) (d := 256) v1 v3 v4 v5 (tileMask v0 r c) r c)
        + ∑ c : Fin 256, term (r := 256) (r' := 256) (c := 1024) (d := 256) v1 v2 v4 v5 (tileMask v0 r c) r c := by
  rw [pay15_apply]
  refine congrArg₂ (· + ·) (Finset.sum_congr rfl fun c _ => ?_) (Finset.sum_congr rfl fun c _ => ?_)
  · rw [expcos_apply, pay10_apply, pay5_apply, pay6_apply]
    rfl
  · rw [pay9_apply, pay3_apply, pay4_apply, pay10_apply, pay5_apply, pay6_apply]
    rfl

/-- On a diagonal tile the sum over the columns of the indicator of the diagonal times the exponentials of the cosines
    is the one entry on the diagonal: row `r`'s positive pair. -/
theorem block_positive :
    k0_pay2 (F := Ideal) (k0_pay13 (k0_pay8 v1 v3) (k0_pay11 v1) (k0_pay12 v3)) k0_pay14 (ix2 r 0)
      = Ideal.exp (cos (r := 256) (r' := 256) (c := 1024) v1 v3 r r) := by
  unfold k0_pay2
  dsimp only
  rw [column_apply, rowsum256_apply]
  have h : ∀ k : Fin 256, mulf (F := Ideal) (k0_pay14 (F := Ideal)) (k0_pay13 (F := Ideal) (k0_pay8 v1 v3) (k0_pay11 v1) (k0_pay12 v3)) (ix2 r k)
      = if r = k then Ideal.exp (cos (r := 256) (r' := 256) (c := 1024) v1 v3 r k) else 0 := by
    intro k
    rw [mulf_apply, pay14_apply, expcos_apply]
    by_cases e : r = k
    · rw [if_pos e, if_pos e, one_mul]
    · rw [if_neg e, if_neg e, zero_mul]
  rw [Finset.sum_congr rfl fun k _ => h k, Finset.sum_ite_eq, if_pos (Finset.mem_univ r)]

/-- The accumulation into the running negative sum: the stored column plus the tile's share. -/
theorem acc_apply (a : FVec Ideal S256x1 .f32) (b : Vec Ideal S256x1 .f32) :
    k0_pay1 (F := Ideal) a b (ix2 r 0) = b (ix2 r 0) + a (ix2 r 0) := by
  unfold k0_pay1
  rw [shapeCast_self]
  rfl

/-- The running sum starts from zero. -/
theorem zero_apply : k0_pay16 (F := Ideal) (ix2 r 0) = 0 := by
  show Ideal.ofBits .f32 0x00000000#32 = 0
  exact Ideal.ofBits_zero_f32

end Cert.KerTile

end
-- ==== Proof.TileSum.lean ====
/-
  From the tiles to the whole arrays. The 4096 rows are cut into 16 tiles of 256 rows; array row `256 q + r` is row `r`
  of tile `q`. A row's negative sum over all 4096 columns is the sum over the 16 column tiles of the tile sums over
  256 columns, because every column index is `256 k + c` for exactly one pair (k, c); the pair left out of the whole sum,
  (i, i), lies in the diagonal tile `k = q` at `c = r`, which is what the tile mask leaves out. The running sum kept
  from tile to tile, started at zero, is the sum over the tiles.
-/
import proofs.«101681_j87290915323999_1_alg».proof.Proof.Spec
import proofs.«101681_j87290915323999_1_alg».proof.Proof.KerTileMask

noncomputable section

namespace Cert.TileSum

open Idealize.ShloMosaic Idealize.ShloMosaic.ValueIdx Cert.Contrast
open Cert.KerTile (tileMask)

/-- The array row of row `r` of row tile `q`. -/
def rowOf (q : Fin 16) (r : Fin 256) : Fin 4096 := ⟨256 * q.val + r.val, by have := q.isLt; have := r.isLt; omega⟩

/-- Rows `256 q` … `256 q + 255` of a matrix of 4096 rows, as a tile of 256 rows. -/
def tileOf {C : Nat} (x : Mat 4096 C) (q : Fin 16) : Mat 256 C :=
  fun y => x (ix2 (rowOf q ⟨(y 0).val, idx2_lt0 y⟩) (⟨(y 1).val, idx2_lt1 y⟩ : Fin C))

/-- Row `r` of tile `q` is array row `256 q + r`. -/
theorem tileOf_apply {C : Nat} (x : Mat 4096 C) (q : Fin 16) (r : Fin 256) (k : Fin C) :
    tileOf x q (ix2 r k) = x (ix2 (rowOf q r) k) := rfl

/-- One column tile's share of row `(q, r)`'s negative sum: column tile `k`, with `v0` the bit "row tile = column tile". -/
def blockNeg (f nz : Mat 4096 1024) (rf : Mat 4096 256) (q k : Fin 16) (v0 : BitVec 1) (r : Fin 256) : EReal :=
  (∑ c : Fin 256, term (tileOf f q) (tileOf nz k) (tileOf rf q) (tileOf rf k) (tileMask v0 r c) r c)
    + ∑ c : Fin 256, term (tileOf f q) (tileOf f k) (tileOf rf q) (tileOf rf k) (tileMask v0 r c) r c

/-- The running sum kept from tile to tile: zero plus the first share, then plus each next share, in tile order. -/
def accNeg (B : Fin 16 → EReal) : (n : ℕ) → n < 16 → EReal
  | 0, h => 0 + B ⟨0, h⟩
  | n + 1, h => accNeg B n (by omega) + B ⟨n + 1, h⟩

/-- After tile `n` the running sum is the sum of the shares of tiles `0 … n`. -/
theorem accNeg_eq_range (B : Fin 16 → EReal) : ∀ (n : ℕ) (h : n < 16),
    accNeg B n h = ∑ k ∈ Finset.range (n + 1), (if hk : k < 16 then B ⟨k, hk⟩ else 0)
  | 0, h => by
    rw [accNeg, Finset.sum_range_one, dif_pos h, zero_add]
  | n + 1, h => by
    rw [accNeg, accNeg_eq_range B n (by omega), Finset.sum_range_succ _ (n + 1), dif_pos h]

/-- After the last tile the running sum is the sum over all 16 tiles. -/
theorem accNeg_eq_sum (B : Fin 16 → EReal) : accNeg B 15 (by omega) = ∑ k : Fin 16, B k := by
  rw [accNeg_eq_range B 15 (by omega),
    ← Fin.sum_univ_eq_sum_range (fun k => if hk : k < 16 then B ⟨k, hk⟩ else 0) 16]
  refine Finset.sum_congr rfl fun k _ => ?_
  show (if hk : k.val < 16 then B ⟨k.val, hk⟩ else 0) = B k
  rw [dif_pos k.isLt]

/-- Two array rows are equal exactly when their tiles and their rows in the tile are. -/
theorem rowOf_eq_iff (q k : Fin 16) (r c : Fin 256) : rowOf q r = rowOf k c ↔ q = k ∧ r = c := by
  have := q.isLt; have := k.isLt; have := r.isLt; have := c.isLt
  constructor
  · intro e
    have h : 256 * q.val + r.val = 256 * k.val + c.val := congrArg Fin.val e
    exact ⟨Fin.ext (by omega), Fin.ext (by omega)⟩
  · rintro ⟨rfl, rfl⟩; rfl

/-- Every array row is row `c` of tile `k` for exactly one pair `(k, c)`. -/
def rowEquiv : Fin 16 × Fin 256 ≃ Fin 4096 where
  toFun p := rowOf p.1 p.2
  invFun j := (⟨j.val / 256, by have := j.isLt; omega⟩, ⟨j.val % 256, by omega⟩)
  left_inv p := by
    rcases p with ⟨k, c⟩
    have hk := k.isLt; have hc := c.isLt
    refine Prod.ext (Fin.ext ?_) (Fin.ext ?_)
    · show (256 * k.val + c.val) / 256 = k.val
      omega
    · show (256 * k.val + c.val) % 256 = c.val
      omega
  right_inv j := Fin.ext (by
    show 256 * (j.val / 256) + j.val % 256 = j.val
    omega)

/-- A sum over the 4096 rows is the sum over the 16 tiles of the sums over each tile's 256 rows. -/
theorem sum_tiles (G : Fin 4096 → EReal) : ∑ k : Fin 16, ∑ c : Fin 256, G (rowOf k c) = ∑ j : Fin 4096, G j := by
  rw [← Equiv.sum_comp rowEquiv G, Fintype.sum_prod_type]
  rfl

/-- The tile mask is the whole problem's mask: the pair left out is the diagonal entry of the diagonal tile. -/
theorem tileMask_eq_offDiag (q : Fin 16) (v0 : Fin 16 → BitVec 1) (hv : ∀ k, v0 k = 1#1 ↔ q = k) (k : Fin 16) (r c : Fin 256) :
    tileMask (v0 k) r c = offDiag (rowOf q r) (rowOf k c) := by
  unfold tileMask offDiag
  by_cases hqk : q = k
  · rw [if_pos ((hv k).mpr hqk)]
    by_cases hrc : r = c
    · rw [if_pos hrc, if_pos ((rowOf_eq_iff q k r c).mpr ⟨hqk, hrc⟩)]
    · rw [if_neg hrc, if_neg (fun e => hrc ((rowOf_eq_iff q k r c).mp e).2)]
  · rw [if_neg (fun e => hqk ((hv k).mp e)), if_neg (fun e => hqk ((rowOf_eq_iff q k r c).mp e).1)]

/-- The shares of the 16 column tiles add up to row `256 q + r`'s negative sum over the whole arrays. -/
theorem negative_tiles (f nz : Mat 4096 1024) (rf : Mat 4096 256) (q : Fin 16) (r : Fin 256) (v0 : Fin 16 → BitVec 1)
    (hv : ∀ k, v0 k = 1#1 ↔ q = k) :
    (∑ k : Fin 16, blockNeg f nz rf q k (v0 k) r) = negative f nz rf (rowOf q r) := by
  unfold blockNeg negative
  refine Finset.sum_add_distrib.trans (congrArg₂ (· + ·) ?_ ?_)
  · refine Eq.trans (Finset.sum_congr rfl fun k _ => Finset.sum_congr rfl fun c _ => ?_)
      (sum_tiles fun j => term f nz rf rf (offDiag (rowOf q r) j) (rowOf q r) j)
    exact term_congr (fun _ => rfl) (fun _ => rfl) (fun _ => rfl) (fun _ => rfl) (tileMask_eq_offDiag q v0 hv k r c)
  · refine Eq.trans (Finset.sum_congr rfl fun k _ => Finset.sum_congr rfl fun c _ => ?_)
      (sum_tiles fun j => term f f rf rf (offDiag (rowOf q r) j) (rowOf q r) j)
    exact term_congr (fun _ => rfl) (fun _ => rfl) (fun _ => rfl) (fun _ => rfl) (tileMask_eq_offDiag q v0 hv k r c)

/-- The diagonal entry of a diagonal tile is the row's positive pair. -/
theorem positive_tile (f nz : Mat 4096 1024) (q : Fin 16) (r : Fin 256) :
    Ideal.exp (cos (tileOf f q) (tileOf nz q) r r) = positive f nz (rowOf q r) := by
  unfold positive
  exact congrArg Ideal.exp (cos_congr (fun _ => rfl) (fun _ => rfl))

/-- Two tile indices below 16 compare equal as 32-bit words exactly when they are equal. -/
theorem cmpi_diag (q k : Fin 16) :
    Scalar.cmpi .eq (BitVec.ofNat 32 q.val) (BitVec.ofNat 32 k.val) = 1#1 ↔ q = k := by
  show BitVec.ofBool (BitVec.ofNat 32 q.val == BitVec.ofNat 32 k.val) = 1#1 ↔ q = k
  by_cases h : q = k
  · rw [h, beq_self_eq_true]
    exact ⟨fun _ => rfl, fun _ => rfl⟩
  · have hne : BitVec.ofNat 32 q.val ≠ BitVec.ofNat 32 k.val := fun e => h (by
      have e' := congrArg BitVec.toNat e
      simp only [BitVec.toNat_ofNat] at e'
      have := q.isLt; have := k.isLt
      exact Fin.ext (by omega))
    rw [beq_eq_false_iff_ne.mpr hne]
    exact ⟨fun e => absurd e (by decide), fun e => absurd e h⟩

end Cert.TileSum

end
-- ==== Proof.TileIdeal.lean ====
/-
  The kernel's two result arrays, as values on the extended reals.

  The grid has 16 x 16 points; point t = 16 q + k works on row tile q and column tile k (tiles of 256 rows). At that
  point the five input blocks are tile q of the feature rows, tile k of the feature rows, tile k of the noise rows,
  and tiles q and k of the reference rows. The tile's negative block sum at row r is then column tile k's share of
  the negative sum of array row 256 q + r; the row accumulator, reset in column tile 0 and carried along the row of
  tiles, holds after column tile n the running sum of the shares of tiles 0 … n, so after column tile 15 the whole
  negative sum. The positive pair is stored at the diagonal point (q, q): the diagonal entry of the tile of
  exponentials of cosines of feature tile q against noise tile q, which is the positive pair of array row 256 q + r.
-/
import proofs.«101681_j87290915323999_1_alg».proof.Proof.TileFinal
import proofs.«101681_j87290915323999_1_alg».proof.Proof.KerTile
import proofs.«101681_j87290915323999_1_alg».proof.Proof.TileSum
import proofs.«101681_j87290915323999_1_alg».proof.Proof.Spec

set_option maxRecDepth 16384

noncomputable section

namespace Cert.KernelIdeal.TileIdeal

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Contrast Cert.TileSum

variable (m : (ℓ : Loc nD τ sig) → Buf (Elt Ideal) ℓ)

/-- The three argument arrays of core `c`, as matrices of extended reals. -/
abbrev fOf (c : Dev nD) : Mat 4096 1024 := m ((c.tc : Thread nD τ).loc main_arg0)
abbrev nzOf (c : Dev nD) : Mat 4096 1024 := m ((c.tc : Thread nD τ).loc main_arg1)
abbrev rfOf (c : Dev nD) : Mat 4096 256 := m ((c.tc : Thread nD τ).loc main_arg2)

/-- The printed index maps of the five input windows and the grid's coordinates, decided over the 256 grid points:
    point t is (row tile t / 16, column tile t % 16); windows 0 and 3 follow the row tile, 1, 2 and 4 the column tile. -/
theorem idxIn : ∀ t : Fin cfg0.N,
    (win0_0.index t (0 : Fin 2) = t.val / 16 ∧ win0_0.index t (1 : Fin 2) = 0) ∧
    (win0_1.index t (0 : Fin 2) = t.val % 16 ∧ win0_1.index t (1 : Fin 2) = 0) ∧
    (win0_2.index t (0 : Fin 2) = t.val % 16 ∧ win0_2.index t (1 : Fin 2) = 0) ∧
    (win0_3.index t (0 : Fin 2) = t.val / 16 ∧ win0_3.index t (1 : Fin 2) = 0) ∧
    (win0_4.index t (0 : Fin 2) = t.val % 16 ∧ win0_4.index t (1 : Fin 2) = 0) ∧
    ((grid0.coords t 0).val = t.val / 16 ∧ (grid0.coords t 1).val = t.val % 16) :=
  (by decide +kernel : ∀ t : Fin grid0.N,
    (win0_0.index t (0 : Fin 2) = t.val / 16 ∧ win0_0.index t (1 : Fin 2) = 0) ∧
    (win0_1.index t (0 : Fin 2) = t.val % 16 ∧ win0_1.index t (1 : Fin 2) = 0) ∧
    (win0_2.index t (0 : Fin 2) = t.val % 16 ∧ win0_2.index t (1 : Fin 2) = 0) ∧
    (win0_3.index t (0 : Fin 2) = t.val / 16 ∧ win0_3.index t (1 : Fin 2) = 0) ∧
    (win0_4.index t (0 : Fin 2) = t.val % 16 ∧ win0_4.index t (1 : Fin 2) = 0) ∧
    ((grid0.coords t 0).val = t.val / 16 ∧ (grid0.coords t 1).val = t.val % 16))

/-- Window 0's block at a point of row tile q is tile q of the feature rows. -/
theorem iblk0_eq (c : Dev nD) (t : Fin cfg0.N) (q : Fin 16) (hq : q.val = t.val / 16) :
    Tile.iblk m c 0 t = tileOf (fOf m c) q := by
  obtain ⟨⟨e0, e1⟩, -⟩ := idxIn t
  funext j
  show Tile.V m c main_arg0 (((cfg0.win 0).blk t).view.emb j) = fOf m c (ix2 (rowOf q ⟨(j 0).val, idx2_lt0 j⟩) (⟨(j 1).val, idx2_lt1 j⟩ : Fin 1024))
  refine congrArg (m _) (funext fun a => Fin.ext ?_)
  match a with
  | ⟨0, _⟩ =>
    show win0_0.index t (0 : Fin 2) * 256 + 1 * (j 0).val = 256 * q.val + (j 0).val
    rw [e0, hq]; omega
  | ⟨1, _⟩ =>
    show win0_0.index t (1 : Fin 2) * 1024 + 1 * (j 1).val = (j 1).val
    rw [e1]; omega

/-- Window 1's block at a point of column tile k is tile k of the feature rows. -/
theorem iblk1_eq (c : Dev nD) (t : Fin cfg0.N) (k : Fin 16) (hk : k.val = t.val % 16) :
    Tile.iblk m c 1 t = tileOf (fOf m c) k := by
  obtain ⟨-, ⟨e0, e1⟩, -⟩ := idxIn t
  funext j
  show Tile.V m c main_arg0 (((cfg0.win 1).blk t).view.emb j) = fOf m c (ix2 (rowOf k ⟨(j 0).val, idx2_lt0 j⟩) (⟨(j 1).val, idx2_lt1 j⟩ : Fin 1024))
  refine congrArg (m _) (funext fun a => Fin.ext ?_)
  match a with
  | ⟨0, _⟩ =>
    show win0_1.index t (0 : Fin 2) * 256 + 1 * (j 0).val = 256 * k.val + (j 0).val
    rw [e0, hk]; omega
  | ⟨1, _⟩ =>
    show win0_1.index t (1 : Fin 2) * 1024 + 1 * (j 1).val = (j 1).val
    rw [e1]; omega

/-- Window 2's block at a point of column tile k is tile k of the noise rows. -/
theorem iblk2_eq (c : Dev nD) (t : Fin cfg0.N) (k : Fin 16) (hk : k.val = t.val % 16) :
    Tile.iblk m c 2 t = tileOf (nzOf m c) k := by
  obtain ⟨-, -, ⟨e0, e1⟩, -⟩ := idxIn t
  funext j
  show Tile.V m c main_arg1 (((cfg0.win 2).blk t).view.emb j) = nzOf m c (ix2 (rowOf k ⟨(j 0).val, idx2_lt0 j⟩) (⟨(j 1).val, idx2_lt1 j⟩ : Fin 1024))
  refine congrArg (m _) (funext fun a => Fin.ext ?_)
  match a with
  | ⟨0, _⟩ =>
    show win0_2.index t (0 : Fin 2) * 256 + 1 * (j 0).val = 256 * k.val + (j 0).val
    rw [e0, hk]; omega
  | ⟨1, _⟩ =>
    show win0_2.index t (1 : Fin 2) * 1024 + 1 * (j 1).val = (j 1).val
    rw [e1]; omega

/-- Window 3's block at a point of row tile q is tile q of the reference rows. -/
theorem iblk3_eq (c : Dev nD) (t : Fin cfg0.N) (q : Fin 16) (hq : q.val = t.val / 16) :
    Tile.iblk m c 3 t = tileOf (rfOf m c) q := by
  obtain ⟨-, -, -, ⟨e0, e1⟩, -⟩ := idxIn t
  funext j
  show Tile.V m c main_arg2 (((cfg0.win 3).blk t).view.emb j) = rfOf m c (ix2 (rowOf q ⟨(j 0).val, idx2_lt0 j⟩) (⟨(j 1).val, idx2_lt1 j⟩ : Fin 256))
  refine congrArg (m _) (funext fun a => Fin.ext ?_)
  match a with
  | ⟨0, _⟩ =>
    show win0_3.index t (0 : Fin 2) * 256 + 1 * (j 0).val = 256 * q.val + (j 0).val
    rw [e0, hq]; omega
  | ⟨1, _⟩ =>
    show win0_3.index t (1 : Fin 2) * 256 + 1 * (j 1).val = (j 1).val
    rw [e1]; omega

/-- Window 4's block at a point of column tile k is tile k of the reference rows. -/
theorem iblk4_eq (c : Dev nD) (t : Fin cfg0.N) (k : Fin 16) (hk : k.val = t.val % 16) :
    Tile.iblk m c 4 t = tileOf (rfOf m c) k := by
  obtain ⟨-, -, -, -, ⟨e0, e1⟩, -⟩ := idxIn t
  funext j
  show Tile.V m c main_arg2 (((cfg0.win 4).blk t).view.emb j) = rfOf m c (ix2 (rowOf k ⟨(j 0).val, idx2_lt0 j⟩) (⟨(j 1).val, idx2_lt1 j⟩ : Fin 256))
  refine congrArg (m _) (funext fun a => Fin.ext ?_)
  match a with
  | ⟨0, _⟩ =>
    show win0_4.index t (0 : Fin 2) * 256 + 1 * (j 0).val = 256 * k.val + (j 0).val
    rw [e0, hk]; omega
  | ⟨1, _⟩ =>
    show win0_4.index t (1 : Fin 2) * 256 + 1 * (j 1).val = (j 1).val
    rw [e1]; omega

/-- The share of column tile k in the negative sums of row tile q, at row r of the tile. -/
abbrev share (c : Dev nD) (q : Fin 16) (r : Fin 256) (k : Fin 16) : EReal :=
  blockNeg (fOf m c) (nzOf m c) (rfOf m c) q k (Scalar.cmpi .eq (BitVec.ofNat 32 q.val) (BitVec.ofNat 32 k.val)) r

/-- THE TILE'S NEGATIVE BLOCK SUM at the point (q, k), row r: column tile k's share. -/
theorem negAt_apply (c : Dev nD) (t : Fin cfg0.N) (q k : Fin 16) (hq : q.val = t.val / 16) (hk : k.val = t.val % 16) (r : Fin 256) :
    Tile.negAt (F := Ideal) m c t (ix2 r (0 : Fin 1)) = share m c q r k := by
  obtain ⟨-, -, -, -, -, g0, g1⟩ := idxIn t
  show Tile.negTile (F := Ideal) (grid0.coords t) (Tile.iblk m c 0 t) (Tile.iblk m c 1 t) (Tile.iblk m c 2 t) (Tile.iblk m c 3 t) (Tile.iblk m c 4 t) (ix2 r (0 : Fin 1)) = _
  unfold Tile.negTile
  rw [iblk0_eq m c t q hq, iblk1_eq m c t k hk, iblk2_eq m c t k hk, iblk3_eq m c t q hq, iblk4_eq m c t k hk, g0, g1, ← hq, ← hk]
  exact Cert.KerTile.block_negative _ _ _ _ _ _ r

theorem accAt_congr' (c : Dev nD) {n n' : ℕ} (e : n = n') (h : n < cfg0.N) (h' : n' < cfg0.N) :
    Tile.accAt (F := Ideal) m c n h = Tile.accAt (F := Ideal) m c n' h' := by
  subst e; rfl

/-- THE ROW ACCUMULATOR after column tile n of row tile q, at row r: the running sum of the shares of tiles 0 … n. -/
theorem accAt_apply (c : Dev nD) (q : Fin 16) (r : Fin 256) : ∀ (n : ℕ) (hn : n < 16) (h : 16 * q.val + n < cfg0.N),
    Tile.accAt (F := Ideal) m c (16 * q.val + n) h (ix2 r (0 : Fin 1)) = accNeg (share m c q r) n hn
  | 0, hn, h => by
    have hq := q.isLt
    have e := Tile.accAt_reset (F := Ideal) m c ⟨16 * q.val + 0, h⟩ (by show (16 * q.val + 0) % 16 = 0; omega)
    rw [show Tile.accAt (F := Ideal) m c (16 * q.val + 0) h = _ from e, Cert.KerTile.acc_apply, Cert.KerTile.zero_apply,
      negAt_apply m c ⟨16 * q.val + 0, h⟩ q ⟨0, hn⟩ (by show q.val = (16 * q.val + 0) / 16; omega)
        (by show 0 = (16 * q.val + 0) % 16; omega) r]
    rfl
  | n + 1, hn, h => by
    have hq := q.isLt
    have e := Tile.accAt_carry (F := Ideal) m c ⟨16 * q.val + (n + 1), h⟩ (by show ¬(16 * q.val + (n + 1)) % 16 = 0; omega)
    rw [show Tile.accAt (F := Ideal) m c (16 * q.val + (n + 1)) h = _ from e, Cert.KerTile.acc_apply,
      negAt_apply m c ⟨16 * q.val + (n + 1), h⟩ q ⟨n + 1, hn⟩ (by show q.val = (16 * q.val + (n + 1)) / 16; omega)
        (by show n + 1 = (16 * q.val + (n + 1)) % 16; omega) r,
      accAt_congr' m c (show 16 * q.val + (n + 1) - 1 = 16 * q.val + n by omega) _ (by omega),
      accAt_apply c q r n (by omega) (by omega)]
    rfl

/-- After the last column tile of row tile q the accumulator holds, at row r, the negative sum of array row 256 q + r. -/
theorem after5_apply (c : Dev nD) (q : Fin 16) (r : Fin 256) (t : Fin cfg0.N) (ht : t.val = 16 * q.val + 15) :
    (Tile.dats (F := Ideal) m 0 c).after 5 t (ix2 r (0 : Fin 1)) = negative (fOf m c) (nzOf m c) (rfOf m c) (rowOf q r) := by
  have hq := q.isLt
  rw [Tile.after5, accAt_congr' m c ht t.isLt (by rw [show cfg0.N = 256 from N_0]; omega),
    accAt_apply m c q r 15 (by omega) (by rw [show cfg0.N = 256 from N_0]; omega), accNeg_eq_sum]
  exact negative_tiles (fOf m c) (nzOf m c) (rfOf m c) q r
    (fun k => Scalar.cmpi .eq (BitVec.ofNat 32 q.val) (BitVec.ofNat 32 k.val)) (fun k => cmpi_diag q k)

/-- From the diagonal point of row tile q on, the positive pair's buffer holds, at row r, the positive pair of array
    row 256 q + r. -/
theorem after6_apply (c : Dev nD) (q : Fin 16) (r : Fin 256) (t : Fin cfg0.N) (ht : t.val = 16 * q.val + 15) :
    (Tile.dats (F := Ideal) m 0 c).after 6 t (ix2 r (0 : Fin 1)) = positive (fOf m c) (nzOf m c) (rowOf q r) := by
  have hq := q.isLt
  have hd0 : q.val = (Tile.diagOf t).val / 16 := by
    show q.val = (17 * (t.val / 16)) / 16
    rw [ht]; omega
  have hd1 : q.val = (Tile.diagOf t).val % 16 := by
    show q.val = (17 * (t.val / 16)) % 16
    rw [ht]; omega
  rw [Tile.after6]
  unfold Tile.posAt Tile.posTile
  rw [iblk0_eq m c (Tile.diagOf t) q hd0, iblk2_eq m c (Tile.diagOf t) q hd1]
  exact (Cert.KerTile.block_positive _ _ r).trans (positive_tile _ _ q r)

/-- THE NEGATIVE SUMS: the first result array holds at row i the specification's negative sum of row i. -/
theorem neg_value (c : Dev nD) (i : Fin 4096) :
    Tile.negArr (F := Ideal) m c (ix2 i (0 : Fin 1)) = negative (fOf m c) (nzOf m c) (rfOf m c) i := by
  have hi := i.isLt
  unfold Tile.negArr
  refine (after5_apply m c ⟨i.val / 256, by omega⟩ ⟨i.val % 256, by omega⟩ _ rfl).trans ?_
  exact congrArg (negative (fOf m c) (nzOf m c) (rfOf m c)) (Fin.ext (by
    show 256 * (i.val / 256) + i.val % 256 = i.val
    omega))

/-- THE POSITIVE PAIRS: the second result array holds at row i the specification's positive pair of row i. -/
theorem pos_value (c : Dev nD) (i : Fin 4096) :
    Tile.posArr (F := Ideal) m c (ix2 i (0 : Fin 1)) = positive (fOf m c) (nzOf m c) i := by
  have hi := i.isLt
  unfold Tile.posArr
  refine (after6_apply m c ⟨i.val / 256, by omega⟩ ⟨i.val % 256, by omega⟩ _ rfl).trans ?_
  exact congrArg (positive (fOf m c) (nzOf m c)) (Fin.ext (by
    show 256 * (i.val / 256) + i.val % 256 = i.val
    omega))

end Cert.KernelIdeal.TileIdeal

end
-- ==== Proof.WordTileBase.lean ====
/-
  The tile body of the contrastive kernel, shared definitions: the arrays as the region finds them, a window's block at a
  grid point, and the two conditions of the body in closed form over the 16 x 16 grid of (row tile, column tile):
  the row accumulator is reset exactly in column tile 0, and the positive pair is stored exactly on the diagonal tile.
-/
import proofs.«101681_j87290915323999_1_alg».proof.Proof.Gen.Kernel.Launch
import proofs.«101681_j87290915323999_1_alg».proof.Proof.Gen.Kernel.Skeleton
import proofs.«101681_j87290915323999_1_alg».proof.Proof.Gen.Kernel.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: as launched (the region is the first operation). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- "column tile = 0": the reset of the row accumulator. -/
abbrev cond1 (i : grid0.Coords) : Prop := (Scalar.cmpi .ne (Scalar.extui (Scalar.cmpi .eq (BitVec.ofNat 32 (i 1).val) 0#32)) 0#32) = 1#1
theorem hcond1 : ∀ t : Fin cfg0.N, cond1 (grid0.coords t) ↔ t.val % 16 = 0 :=
  (by decide +kernel : ∀ t : Fin grid0.N, cond1 (grid0.coords t) ↔ t.val % 16 = 0)
/-- "row tile = column tile": the store of the positive pair. -/
abbrev cond2 (i : grid0.Coords) : Prop := k0_cond2 i = 1#1
theorem hcond2 : ∀ t : Fin cfg0.N, cond2 (grid0.coords t) ↔ t.val / 16 = t.val % 16 :=
  (by decide +kernel : ∀ t : Fin grid0.N, cond2 (grid0.coords t) ↔ t.val / 16 = t.val % 16)

/-- One staging buffer of each output window, through which its contents are stated (the choice does not matter). -/
abbrev VO5 : View sig .tc .vmem S256x1 .f32 := (Memref.whole cc0_stg5_0 : Memref sig .tc .vmem S256x1 .f32).view
abbrev VO6 : View sig .tc .vmem S256x1 .f32 := (Memref.whole cc0_stg6_0 : Memref sig .tc .vmem S256x1 .f32).view

/-- Each window's current staging memref at point `t`, and its wholeness. -/
abbrev ms0 (t : Fin cfg0.N) : Memref sig .tc .vmem S256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x1 .f32 := win0_6.stage (cfg0.slots t 6)
abbrev hs6 (t : Fin cfg0.N) : (ms6 t).IsWhole := hstage0_6 ((cfg0.slots t 6).cast nbuf0_6)

end Cert.Kernel.Tile

end
-- ==== Proof.WordTileRunKN.lean ====
/-
  The tile body run once, in the case: row accumulator carried (column tile > 0), positive pair not stored (off-diagonal tile).
  On whole staging buffers holding the five input tiles and any contents of the two output buffers, the body runs to the end,
  leaves the inputs as they were, and leaves in the accumulator's buffer the pieces its stores wrote; the positive pair's buffer is handed back untouched.
-/
import proofs.«101681_j87290915323999_1_alg».proof.Proof.WordTileBase

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runKN (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S256x256 .f32) (h5 : a5.IsWhole) (a6 : Memref sig .tc .vmem S256x256 .f32) (h6 : a6.IsWhole) (a7 : Memref sig .tc .vmem S256x1 .f32) (h7 : a7.IsWhole) (a8 : Memref sig .tc .vmem S256x1 .f32) (h8 : a8.IsWhole) (hc1 : ¬cond1 i) (hc2 : ¬cond2 i)
    (x0 x1 x2 : Vec F S256x1024 .f32) (x3 x4 : Vec F S256x256 .f32) (xo5 xo6 : Vec F S256x1 .f32) :
    { L5 : List (View.Piece (Elt F) S256x1 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
            ∗ owns (c : Thread nD τ) a7 fullShare xo5 ∗ owns (c : Thread nD τ) a8 fullShare xo6
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare x4
                ∗ (∃ f, a7.view.loc (c : Thread nD τ) ↦[a7.view.set]{fullShare} a7.view.writes (Elt F) f L5)
                ∗ owns (c : Thread nD τ) a8 fullShare xo6) -∗ K ⟨⟩))
          ⊢ wp frame (wpE (defs₀ (F := F)) Variants.none c none) E (cc0__contrastive_kernel i a2 h2 a3 h3 a4 h4 a5 h5 a6 h6 a7 h7 a8 h8) K } := by
  refine ⟨?_, fun E K => ?run⟩
  case run =>
    simp only [cc0__contrastive_kernel_eq_skeleton]; unfold cc0__contrastive_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5; obtain rfl := h8.eq_unread hf6
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; iexact H5
    iexists _; isplitr; · ipureintro; exact h8.read_unread _
    iexact H6

end Cert.Kernel.Tile

end
-- ==== Proof.WordTileRunKP.lean ====
/-
  The tile body run once, in the case: row accumulator carried (column tile > 0), positive pair stored (diagonal tile).
  On whole staging buffers holding the five input tiles and any contents of the two output buffers, the body runs to the end,
  leaves the inputs as they were, and leaves in the accumulator's buffer the pieces its stores wrote, likewise in the positive pair's buffer.
-/
import proofs.«101681_j87290915323999_1_alg».proof.Proof.WordTileRunKN

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runKP (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S256x256 .f32) (h5 : a5.IsWhole) (a6 : Memref sig .tc .vmem S256x256 .f32) (h6 : a6.IsWhole) (a7 : Memref sig .tc .vmem S256x1 .f32) (h7 : a7.IsWhole) (a8 : Memref sig .tc .vmem S256x1 .f32) (h8 : a8.IsWhole) (hc1 : ¬cond1 i) (hc2 : cond2 i)
    (x0 x1 x2 : Vec F S256x1024 .f32) (x3 x4 : Vec F S256x256 .f32) (xo5 xo6 : Vec F S256x1 .f32) :
    Σ' (L5 : List (View.Piece (Elt F) S256x1 .f32)), { L6 : List (View.Piece (Elt F) S256x1 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
            ∗ owns (c : Thread nD τ) a7 fullShare xo5 ∗ owns (c : Thread nD τ) a8 fullShare xo6
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare x4
                ∗ (∃ f, a7.view.loc (c : Thread nD τ) ↦[a7.view.set]{fullShare} a7.view.writes (Elt F) f L5)
                ∗ (∃ f, a8.view.loc (c : Thread nD τ) ↦[a8.view.set]{fullShare} a8.view.writes (Elt F) f L6)) -∗ K ⟨⟩))
          ⊢ wp frame (wpE (defs₀ (F := F)) Variants.none c none) E (cc0__contrastive_kernel i a2 h2 a3 h3 a4 h4 a5 h5 a6 h6 a7 h7 a8 h8) K } := by
  refine ⟨?_, ?_, fun E K => ?run⟩
  case run =>
    simp only [cc0__contrastive_kernel_eq_skeleton]; unfold cc0__contrastive_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5; obtain rfl := h8.eq_unread hf6
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; iexact H5
    iexists _; iexact H6

end Cert.Kernel.Tile

end
-- ==== Proof.WordTileRunRN.lean ====
/-
  The tile body run once, in the case: row accumulator reset (column tile 0), positive pair not stored (off-diagonal tile).
  On whole staging buffers holding the five input tiles and any contents of the two output buffers, the body runs to the end,
  leaves the inputs as they were, and leaves in the accumulator's buffer the pieces its stores wrote; the positive pair's buffer is handed back untouched.
-/
import proofs.«101681_j87290915323999_1_alg».proof.Proof.WordTileRunKP

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runRN (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S256x256 .f32) (h5 : a5.IsWhole) (a6 : Memref sig .tc .vmem S256x256 .f32) (h6 : a6.IsWhole) (a7 : Memref sig .tc .vmem S256x1 .f32) (h7 : a7.IsWhole) (a8 : Memref sig .tc .vmem S256x1 .f32) (h8 : a8.IsWhole) (hc1 : cond1 i) (hc2 : ¬cond2 i)
    (x0 x1 x2 : Vec F S256x1024 .f32) (x3 x4 : Vec F S256x256 .f32) (xo5 xo6 : Vec F S256x1 .f32) :
    { L5 : List (View.Piece (Elt F) S256x1 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
            ∗ owns (c : Thread nD τ) a7 fullShare xo5 ∗ owns (c : Thread nD τ) a8 fullShare xo6
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare x4
                ∗ (∃ f, a7.view.loc (c : Thread nD τ) ↦[a7.view.set]{fullShare} a7.view.writes (Elt F) f L5)
                ∗ owns (c : Thread nD τ) a8 fullShare xo6) -∗ K ⟨⟩))
          ⊢ wp frame (wpE (defs₀ (F := F)) Variants.none c none) E (cc0__contrastive_kernel i a2 h2 a3 h3 a4 h4 a5 h5 a6 h6 a7 h7 a8 h8) K } := by
  refine ⟨?_, fun E K => ?run⟩
  case run =>
    simp only [cc0__contrastive_kernel_eq_skeleton]; unfold cc0__contrastive_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5; obtain rfl := h8.eq_unread hf6
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; iexact H5
    iexists _; isplitr; · ipureintro; exact h8.read_unread _
    iexact H6

end Cert.Kernel.Tile

end
-- ==== Proof.WordTileRunRP.lean ====
/-
  The tile body run once, in the case: row accumulator reset (column tile 0), positive pair stored (diagonal tile).
  On whole staging buffers holding the five input tiles and any contents of the two output buffers, the body runs to the end,
  leaves the inputs as they were, and leaves in the accumulator's buffer the pieces its stores wrote, likewise in the positive pair's buffer.
-/
import proofs.«101681_j87290915323999_1_alg».proof.Proof.WordTileRunRN

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runRP (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S256x256 .f32) (h5 : a5.IsWhole) (a6 : Memref sig .tc .vmem S256x256 .f32) (h6 : a6.IsWhole) (a7 : Memref sig .tc .vmem S256x1 .f32) (h7 : a7.IsWhole) (a8 : Memref sig .tc .vmem S256x1 .f32) (h8 : a8.IsWhole) (hc1 : cond1 i) (hc2 : cond2 i)
    (x0 x1 x2 : Vec F S256x1024 .f32) (x3 x4 : Vec F S256x256 .f32) (xo5 xo6 : Vec F S256x1 .f32) :
    Σ' (L5 : List (View.Piece (Elt F) S256x1 .f32)), { L6 : List (View.Piece (Elt F) S256x1 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
            ∗ owns (c : Thread nD τ) a7 fullShare xo5 ∗ owns (c : Thread nD τ) a8 fullShare xo6
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare x4
                ∗ (∃ f, a7.view.loc (c : Thread nD τ) ↦[a7.view.set]{fullShare} a7.view.writes (Elt F) f L5)
                ∗ (∃ f, a8.view.loc (c : Thread nD τ) ↦[a8.view.set]{fullShare} a8.view.writes (Elt F) f L6)) -∗ K ⟨⟩))
          ⊢ wp frame (wpE (defs₀ (F := F)) Variants.none c none) E (cc0__contrastive_kernel i a2 h2 a3 h3 a4 h4 a5 h5 a6 h6 a7 h7 a8 h8) K } := by
  refine ⟨?_, ?_, fun E K => ?run⟩
  case run =>
    simp only [cc0__contrastive_kernel_eq_skeleton]; unfold cc0__contrastive_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5; obtain rfl := h8.eq_unread hf6
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; iexact H5
    iexists _; iexact H6

end Cert.Kernel.Tile

end
-- ==== Proof.WordTileVal.lean ====
/-
  What the tile body leaves in the two output buffers, read as values: in every case the accumulator's buffer ends at the
  tile's negative block sum added to what it held (the zero block, after a reset), and on the diagonal tile the positive
  pair's buffer ends at the tile's positive pairs. Each is the one covering store's payload, its loads reading whole buffers.
-/
import proofs.«101681_j87290915323999_1_alg».proof.Proof.WordTileRunRP

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- The row tile's negative block sum at a grid point, from the five input tiles: the sum over the tile's columns of the noise
    half's and the feature half's weighted, masked exponentials. -/
def negTile (i : grid0.Coords) (x0 x1 x2 : Vec F S256x1024 .f32) (x3 x4 : Vec F S256x256 .f32) : FVec F S256x1 .f32 :=
  k0_pay15 (Scalar.cmpi .eq (BitVec.ofNat 32 (i 0).val) (BitVec.ofNat 32 (i 1).val)) (k0_pay3 x0) (k0_pay4 x1) (k0_pay5 x3) (k0_pay6 x4) (k0_pay8 x0 x2) (k0_pay9 x0 x1) (k0_pay10 x3 x4) (k0_pay11 x0) (k0_pay12 x2)

/-- The row tile's positive pairs, from the feature row tile and the noise column tile: the diagonal of the exponentials. -/
def posTile (x0 x2 : Vec F S256x1024 .f32) : FVec F S256x1 .f32 :=
  k0_pay2 (k0_pay13 (k0_pay8 x0 x2) (k0_pay11 x0) (k0_pay12 x2)) (k0_pay14 (F := F))

/-- Case KN: the accumulator's buffer is covered by what the body stored, -/
theorem cover5_KN (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S256x256 .f32) (h5 : a5.IsWhole) (a6 : Memref sig .tc .vmem S256x256 .f32) (h6 : a6.IsWhole) (a7 : Memref sig .tc .vmem S256x1 .f32) (h7 : a7.IsWhole) (a8 : Memref sig .tc .vmem S256x1 .f32) (h8 : a8.IsWhole) (hc1 : ¬cond1 i) (hc2 : ¬cond2 i) (x0 x1 x2 : Vec F S256x1024 .f32) (x3 x4 : Vec F S256x256 .f32) (xo5 xo6 : Vec F S256x1 .f32) (y : S256x1.Idx) :
    ∃ pc ∈ (runKN (F := F) c i a2 h2 a3 h3 a4 h4 a5 h5 a6 h6 a7 h7 a8 h8 hc1 hc2 x0 x1 x2 x3 x4 xo5 xo6).1, y ∈ pc.1.set :=
  View.cover_of_tiledL (runKN (F := F) c i a2 h2 a3 h3 a4 h4 a5 h5 a6 h6 a7 h7 a8 h8 hc1 hc2 x0 x1 x2 x3 x4 xo5 xo6).1 S256x1.size (by sl_kernel_rfl) y

/-- and holds the tile's negative block sum added to what the buffer held. -/
theorem val5_KN (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S256x256 .f32) (h5 : a5.IsWhole) (a6 : Memref sig .tc .vmem S256x256 .f32) (h6 : a6.IsWhole) (a7 : Memref sig .tc .vmem S256x1 .f32) (h7 : a7.IsWhole) (a8 : Memref sig .tc .vmem S256x1 .f32) (h8 : a8.IsWhole) (hc1 : ¬cond1 i) (hc2 : ¬cond2 i) (x0 x1 x2 : Vec F S256x1024 .f32) (x3 x4 : Vec F S256x256 .f32) (xo5 xo6 : Vec F S256x1 .f32) (f : a7.view.ty.Contents (Elt F)) :
    a7.view.read (Elt F) (a7.view.writes (Elt F) f (runKN (F := F) c i a2 h2 a3 h3 a4 h4 a5 h5 a6 h6 a7 h7 a8 h8 hc1 hc2 x0 x1 x2 x3 x4 xo5 xo6).1) = k0_pay1 (negTile i x0 x1 x2 x3 x4) xo5 := by
  rw [View.read_writes_eq_canon _ _ _ (cover5_KN c i a2 h2 a3 h3 a4 h4 a5 h5 a6 h6 a7 h7 a8 h8 hc1 hc2 x0 x1 x2 x3 x4 xo5 xo6)]
  unfold runKN
  dsimp only
  sl_unfold_words
  rw [View.canon_unit_zero hz]
  unfold negTile
  simp only [View.readAt_eq_ld, h2.read_unread, h3.read_unread, h4.read_unread, h5.read_unread, h6.read_unread, h7.read_unread, View.ld_unit_zero (S := S256x1024) hz, View.ld_unit_zero (S := S256x256) hz, View.ld_unit_zero (S := S256x1) hz]

/-- Case KP: the accumulator's buffer is covered by what the body stored, -/
theorem cover5_KP (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S256x256 .f32) (h5 : a5.IsWhole) (a6 : Memref sig .tc .vmem S256x256 .f32) (h6 : a6.IsWhole) (a7 : Memref sig .tc .vmem S256x1 .f32) (h7 : a7.IsWhole) (a8 : Memref sig .tc .vmem S256x1 .f32) (h8 : a8.IsWhole) (hc1 : ¬cond1 i) (hc2 : cond2 i) (x0 x1 x2 : Vec F S256x1024 .f32) (x3 x4 : Vec F S256x256 .f32) (xo5 xo6 : Vec F S256x1 .f32) (y : S256x1.Idx) :
    ∃ pc ∈ (runKP (F := F) c i a2 h2 a3 h3 a4 h4 a5 h5 a6 h6 a7 h7 a8 h8 hc1 hc2 x0 x1 x2 x3 x4 xo5 xo6).1, y ∈ pc.1.set :=
  View.cover_of_tiledL (runKP (F := F) c i a2 h2 a3 h3 a4 h4 a5 h5 a6 h6 a7 h7 a8 h8 hc1 hc2 x0 x1 x2 x3 x4 xo5 xo6).1 S256x1.size (by sl_kernel_rfl) y

/-- and holds the tile's negative block sum added to what the buffer held. -/
theorem val5_KP (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S256x256 .f32) (h5 : a5.IsWhole) (a6 : Memref sig .tc .vmem S256x256 .f32) (h6 : a6.IsWhole) (a7 : Memref sig .tc .vmem S256x1 .f32) (h7 : a7.IsWhole) (a8 : Memref sig .tc .vmem S256x1 .f32) (h8 : a8.IsWhole) (hc1 : ¬cond1 i) (hc2 : cond2 i) (x0 x1 x2 : Vec F S256x1024 .f32) (x3 x4 : Vec F S256x256 .f32) (xo5 xo6 : Vec F S256x1 .f32) (f : a7.view.ty.Contents (Elt F)) :
    a7.view.read (Elt F) (a7.view.writes (Elt F) f (runKP (F := F) c i a2 h2 a3 h3 a4 h4 a5 h5 a6 h6 a7 h7 a8 h8 hc1 hc2 x0 x1 x2 x3 x4 xo5 xo6).1) = k0_pay1 (negTile i x0 x1 x2 x3 x4) xo5 := by
  rw [View.read_writes_eq_canon _ _ _ (cover5_KP c i a2 h2 a3 h3 a4 h4 a5 h5 a6 h6 a7 h7 a8 h8 hc1 hc2 x0 x1 x2 x3 x4 xo5 xo6)]
  unfold runKP
  dsimp only
  sl_unfold_words
  rw [View.canon_unit_zero hz]
  unfold negTile
  simp only [View.readAt_eq_ld, h2.read_unread, h3.read_unread, h4.read_unread, h5.read_unread, h6.read_unread, h7.read_unread, View.ld_unit_zero (S := S256x1024) hz, View.ld_unit_zero (S := S256x256) hz, View.ld_unit_zero (S := S256x1) hz]

/-- Case KP: the positive pair's buffer is covered by the body's store, -/
theorem cover6_KP (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S256x256 .f32) (h5 : a5.IsWhole) (a6 : Memref sig .tc .vmem S256x256 .f32) (h6 : a6.IsWhole) (a7 : Memref sig .tc .vmem S256x1 .f32) (h7 : a7.IsWhole) (a8 : Memref sig .tc .vmem S256x1 .f32) (h8 : a8.IsWhole) (hc1 : ¬cond1 i) (hc2 : cond2 i) (x0 x1 x2 : Vec F S256x1024 .f32) (x3 x4 : Vec F S256x256 .f32) (xo5 xo6 : Vec F S256x1 .f32) (y : S256x1.Idx) :
    ∃ pc ∈ (runKP (F := F) c i a2 h2 a3 h3 a4 h4 a5 h5 a6 h6 a7 h7 a8 h8 hc1 hc2 x0 x1 x2 x3 x4 xo5 xo6).2.1, y ∈ pc.1.set :=
  View.cover_of_tiledL (runKP (F := F) c i a2 h2 a3 h3 a4 h4 a5 h5 a6 h6 a7 h7 a8 h8 hc1 hc2 x0 x1 x2 x3 x4 xo5 xo6).2.1 S256x1.size (by sl_kernel_rfl) y

/-- and holds the tile's positive pairs. -/
theorem val6_KP (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S256x256 .f32) (h5 : a5.IsWhole) (a6 : Memref sig .tc .vmem S256x256 .f32) (h6 : a6.IsWhole) (a7 : Memref sig .tc .vmem S256x1 .f32) (h7 : a7.IsWhole) (a8 : Memref sig .tc .vmem S256x1 .f32) (h8 : a8.IsWhole) (hc1 : ¬cond1 i) (hc2 : cond2 i) (x0 x1 x2 : Vec F S256x1024 .f32) (x3 x4 : Vec F S256x256 .f32) (xo5 xo6 : Vec F S256x1 .f32) (f : a8.view.ty.Contents (Elt F)) :
    a8.view.read (Elt F) (a8.view.writes (Elt F) f (runKP (F := F) c i a2 h2 a3 h3 a4 h4 a5 h5 a6 h6 a7 h7 a8 h8 hc1 hc2 x0 x1 x2 x3 x4 xo5 xo6).2.1) = posTile x0 x2 := by
  rw [View.read_writes_eq_canon _ _ _ (cover6_KP c i a2 h2 a3 h3 a4 h4 a5 h5 a6 h6 a7 h7 a8 h8 hc1 hc2 x0 x1 x2 x3 x4 xo5 xo6)]
  unfold runKP
  dsimp only
  sl_unfold_words
  rw [View.canon_unit_zero hz]
  unfold posTile
  simp only [View.readAt_eq_ld, h2.read_unread, h3.read_unread, h4.read_unread, h5.read_unread, h6.read_unread, h7.read_unread, h8.read_unread, View.ld_unit_zero (S := S256x1024) hz, View.ld_unit_zero (S := S256x256) hz, View.ld_unit_zero (S := S256x1) hz]

/-- Case RN: the accumulator's buffer is covered by what the body stored, -/
theorem cover5_RN (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S256x256 .f32) (h5 : a5.IsWhole) (a6 : Memref sig .tc .vmem S256x256 .f32) (h6 : a6.IsWhole) (a7 : Memref sig .tc .vmem S256x1 .f32) (h7 : a7.IsWhole) (a8 : Memref sig .tc .vmem S256x1 .f32) (h8 : a8.IsWhole) (hc1 : cond1 i) (hc2 : ¬cond2 i) (x0 x1 x2 : Vec F S256x1024 .f32) (x3 x4 : Vec F S256x256 .f32) (xo5 xo6 : Vec F S256x1 .f32) (y : S256x1.Idx) :
    ∃ pc ∈ (runRN (F := F) c i a2 h2 a3 h3 a4 h4 a5 h5 a6 h6 a7 h7 a8 h8 hc1 hc2 x0 x1 x2 x3 x4 xo5 xo6).1, y ∈ pc.1.set :=
  View.cover_of_tiledL (runRN (F := F) c i a2 h2 a3 h3 a4 h4 a5 h5 a6 h6 a7 h7 a8 h8 hc1 hc2 x0 x1 x2 x3 x4 xo5 xo6).1 S256x1.size (by sl_kernel_rfl) y

/-- and holds the tile's negative block sum added to the zero block. -/
theorem val5_RN (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S256x256 .f32) (h5 : a5.IsWhole) (a6 : Memref sig .tc .vmem S256x256 .f32) (h6 : a6.IsWhole) (a7 : Memref sig .tc .vmem S256x1 .f32) (h7 : a7.IsWhole) (a8 : Memref sig .tc .vmem S256x1 .f32) (h8 : a8.IsWhole) (hc1 : cond1 i) (hc2 : ¬cond2 i) (x0 x1 x2 : Vec F S256x1024 .f32) (x3 x4 : Vec F S256x256 .f32) (xo5 xo6 : Vec F S256x1 .f32) (f : a7.view.ty.Contents (Elt F)) :
    a7.view.read (Elt F) (a7.view.writes (Elt F) f (runRN (F := F) c i a2 h2 a3 h3 a4 h4 a5 h5 a6 h6 a7 h7 a8 h8 hc1 hc2 x0 x1 x2 x3 x4 xo5 xo6).1) = k0_pay1 (negTile i x0 x1 x2 x3 x4) (k0_pay16 (F := F)) := by
  rw [View.read_writes_eq_canon _ _ _ (cover5_RN c i a2 h2 a3 h3 a4 h4 a5 h5 a6 h6 a7 h7 a8 h8 hc1 hc2 x0 x1 x2 x3 x4 xo5 xo6)]
  unfold runRN
  dsimp only
  sl_unfold_words
  rw [View.canon_cons_unit_zero (S := S256x1) hz, View.readCov_unit_zero (S := S256x1) _ hz]
  unfold negTile
  simp only [View.readAt_eq_ld, h2.read_unread, h3.read_unread, h4.read_unread, h5.read_unread, h6.read_unread, h7.read_unread, View.ld_unit_zero (S := S256x1024) hz, View.ld_unit_zero (S := S256x256) hz, View.ld_unit_zero (S := S256x1) hz]

/-- Case RP: the accumulator's buffer is covered by what the body stored, -/
theorem cover5_RP (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S256x256 .f32) (h5 : a5.IsWhole) (a6 : Memref sig .tc .vmem S256x256 .f32) (h6 : a6.IsWhole) (a7 : Memref sig .tc .vmem S256x1 .f32) (h7 : a7.IsWhole) (a8 : Memref sig .tc .vmem S256x1 .f32) (h8 : a8.IsWhole) (hc1 : cond1 i) (hc2 : cond2 i) (x0 x1 x2 : Vec F S256x1024 .f32) (x3 x4 : Vec F S256x256 .f32) (xo5 xo6 : Vec F S256x1 .f32) (y : S256x1.Idx) :
    ∃ pc ∈ (runRP (F := F) c i a2 h2 a3 h3 a4 h4 a5 h5 a6 h6 a7 h7 a8 h8 hc1 hc2 x0 x1 x2 x3 x4 xo5 xo6).1, y ∈ pc.1.set :=
  View.cover_of_tiledL (runRP (F := F) c i a2 h2 a3 h3 a4 h4 a5 h5 a6 h6 a7 h7 a8 h8 hc1 hc2 x0 x1 x2 x3 x4 xo5 xo6).1 S256x1.size (by sl_kernel_rfl) y

/-- and holds the tile's negative block sum added to the zero block. -/
theorem val5_RP (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S256x256 .f32) (h5 : a5.IsWhole) (a6 : Memref sig .tc .vmem S256x256 .f32) (h6 : a6.IsWhole) (a7 : Memref sig .tc .vmem S256x1 .f32) (h7 : a7.IsWhole) (a8 : Memref sig .tc .vmem S256x1 .f32) (h8 : a8.IsWhole) (hc1 : cond1 i) (hc2 : cond2 i) (x0 x1 x2 : Vec F S256x1024 .f32) (x3 x4 : Vec F S256x256 .f32) (xo5 xo6 : Vec F S256x1 .f32) (f : a7.view.ty.Contents (Elt F)) :
    a7.view.read (Elt F) (a7.view.writes (Elt F) f (runRP (F := F) c i a2 h2 a3 h3 a4 h4 a5 h5 a6 h6 a7 h7 a8 h8 hc1 hc2 x0 x1 x2 x3 x4 xo5 xo6).1) = k0_pay1 (negTile i x0 x1 x2 x3 x4) (k0_pay16 (F := F)) := by
  rw [View.read_writes_eq_canon _ _ _ (cover5_RP c i a2 h2 a3 h3 a4 h4 a5 h5 a6 h6 a7 h7 a8 h8 hc1 hc2 x0 x1 x2 x3 x4 xo5 xo6)]
  unfold runRP
  dsimp only
  sl_unfold_words
  rw [View.canon_cons_unit_zero (S := S256x1) hz, View.readCov_unit_zero (S := S256x1) _ hz]
  unfold negTile
  simp only [View.readAt_eq_ld, h2.read_unread, h3.read_unread, h4.read_unread, h5.read_unread, h6.read_unread, h7.read_unread, View.ld_unit_zero (S := S256x1024) hz, View.ld_unit_zero (S := S256x256) hz, View.ld_unit_zero (S := S256x1) hz]

/-- Case RP: the positive pair's buffer is covered by the body's store, -/
theorem cover6_RP (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S256x256 .f32) (h5 : a5.IsWhole) (a6 : Memref sig .tc .vmem S256x256 .f32) (h6 : a6.IsWhole) (a7 : Memref sig .tc .vmem S256x1 .f32) (h7 : a7.IsWhole) (a8 : Memref sig .tc .vmem S256x1 .f32) (h8 : a8.IsWhole) (hc1 : cond1 i) (hc2 : cond2 i) (x0 x1 x2 : Vec F S256x1024 .f32) (x3 x4 : Vec F S256x256 .f32) (xo5 xo6 : Vec F S256x1 .f32) (y : S256x1.Idx) :
    ∃ pc ∈ (runRP (F := F) c i a2 h2 a3 h3 a4 h4 a5 h5 a6 h6 a7 h7 a8 h8 hc1 hc2 x0 x1 x2 x3 x4 xo5 xo6).2.1, y ∈ pc.1.set :=
  View.cover_of_tiledL (runRP (F := F) c i a2 h2 a3 h3 a4 h4 a5 h5 a6 h6 a7 h7 a8 h8 hc1 hc2 x0 x1 x2 x3 x4 xo5 xo6).2.1 S256x1.size (by sl_kernel_rfl) y

/-- and holds the tile's positive pairs. -/
theorem val6_RP (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S256x256 .f32) (h5 : a5.IsWhole) (a6 : Memref sig .tc .vmem S256x256 .f32) (h6 : a6.IsWhole) (a7 : Memref sig .tc .vmem S256x1 .f32) (h7 : a7.IsWhole) (a8 : Memref sig .tc .vmem S256x1 .f32) (h8 : a8.IsWhole) (hc1 : cond1 i) (hc2 : cond2 i) (x0 x1 x2 : Vec F S256x1024 .f32) (x3 x4 : Vec F S256x256 .f32) (xo5 xo6 : Vec F S256x1 .f32) (f : a8.view.ty.Contents (Elt F)) :
    a8.view.read (Elt F) (a8.view.writes (Elt F) f (runRP (F := F) c i a2 h2 a3 h3 a4 h4 a5 h5 a6 h6 a7 h7 a8 h8 hc1 hc2 x0 x1 x2 x3 x4 xo5 xo6).2.1) = posTile x0 x2 := by
  rw [View.read_writes_eq_canon _ _ _ (cover6_RP c i a2 h2 a3 h3 a4 h4 a5 h5 a6 h6 a7 h7 a8 h8 hc1 hc2 x0 x1 x2 x3 x4 xo5 xo6)]
  unfold runRP
  dsimp only
  sl_unfold_words
  rw [View.canon_unit_zero hz]
  unfold posTile
  simp only [View.readAt_eq_ld, h2.read_unread, h3.read_unread, h4.read_unread, h5.read_unread, h6.read_unread, h7.read_unread, h8.read_unread, View.ld_unit_zero (S := S256x1024) hz, View.ld_unit_zero (S := S256x256) hz, View.ld_unit_zero (S := S256x1) hz]

end Cert.Kernel.Tile

end
-- ==== Proof.WordTileDat.lean ====
/-
  The proof data of the contrastive kernel's region. After the body at grid point t = 16 * (row tile) + (column tile):
  each input window's buffer still holds its block; the accumulator's buffer holds the running sum over the column tiles
  0 .. (column tile) of the row tile's negative block sums, starting from the zero block in column tile 0; the positive
  pair's buffer holds, from the diagonal point of the row on, the row tile's positive pairs. The two windows onto the
  feature array, and the two onto the reference array, each hold one half of their array's share.
-/
import proofs.«101681_j87290915323999_1_alg».proof.Proof.WordTileVal

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The five input tiles at a point, in the order the body loads them. -/
abbrev negAt (c : Dev nD) (t : Fin cfg0.N) : FVec F S256x1 .f32 :=
  negTile (grid0.coords t) (iblk m c 0 t) (iblk m c 1 t) (iblk m c 2 t) (iblk m c 3 t) (iblk m c 4 t)

/-- THE ROW ACCUMULATOR after the body at position `n`: the point's negative block sum added to the zero block in column
    tile 0, to what the point before left otherwise. -/
def accAt (c : Dev nD) : (n : ℕ) → n < cfg0.N → Vec F S256x1 .f32
  | 0, hn => k0_pay1 (negAt m c ⟨0, hn⟩) (k0_pay16 (F := F))
  | n + 1, hn => k0_pay1 (negAt m c ⟨n + 1, hn⟩) (if (n + 1) % 16 = 0 then k0_pay16 (F := F) else accAt c n (Nat.lt_of_succ_lt hn))

theorem accAt_reset (c : Dev nD) (t : Fin cfg0.N) (h0 : t.val % 16 = 0) :
    accAt m c t.val t.isLt = k0_pay1 (negAt m c t) (k0_pay16 (F := F)) := by
  obtain ⟨n, hn⟩ := t
  cases n with
  | zero => rfl
  | succ n => exact (congrArg (k0_pay1 _) (if_pos h0))

theorem accAt_carry (c : Dev nD) (t : Fin cfg0.N) (h0 : ¬t.val % 16 = 0) :
    accAt m c t.val t.isLt = k0_pay1 (negAt m c t) (accAt m c (t.val - 1) (Nat.lt_of_le_of_lt (Nat.sub_le _ _) t.isLt)) := by
  obtain ⟨n, hn⟩ := t
  cases n with
  | zero => exact absurd (Nat.zero_mod _) h0
  | succ n => exact (congrArg (k0_pay1 _) (if_neg h0))

/-- The diagonal point of the row of `t`: (row tile, row tile). -/
def diagOf (t : Fin cfg0.N) : Fin cfg0.N := ⟨17 * (t.val / 16), by have h := t.isLt; have hN : cfg0.N = 256 := N_0; omega⟩

/-- The point before, in the same row, has the same diagonal point. -/
theorem diagOf_pred (t : Fin cfg0.N) (h : t.val % 16 ≠ 0) : diagOf ⟨t.val - 1, Nat.lt_of_le_of_lt (Nat.sub_le _ _) t.isLt⟩ = diagOf t :=
  Fin.ext (by unfold diagOf; dsimp only; omega)

/-- THE POSITIVE PAIRS of the row of `t`: what the body stores at the row's diagonal point. -/
def posAt (c : Dev nD) (t : Fin cfg0.N) : Vec F S256x1 .f32 :=
  posTile (iblk m c 0 (diagOf t)) (iblk m c 2 (diagOf t))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => accAt m c t.val t.isLt
    | ⟨6, _⟩ => posAt m c t
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare.left
    | ⟨4, _⟩ => fullShare.right
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = accAt m c t.val t.isLt := by dsimp only [dats]
theorem after6 (c : Dev nD) (t : Fin cfg0.N) : (dats m 0 c).after 6 t = posAt m c t := by dsimp only [dats]

/-- Each input's current staging buffer holds its block at every point, fetched there or not: unfetched, the block index has
    not moved. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-- In a later column tile the accumulator's buffer holds what the point before left: it is written back only after column tile 15. -/
theorem before5_carry (c : Dev nD) (t : Fin cfg0.N) (h0 : ¬t.val % 16 = 0) (d) :
    (dats m 0 c).before 5 t d = accAt m c (t.val - 1) (Nat.lt_of_le_of_lt (Nat.sub_le _ _) t.isLt) := by
  have hN : t.val < 256 := lt_of_lt_of_eq t.isLt (show cfg0.N = 256 from N_0)
  rw [Dat.before_out_kept _ 5 rfl t (by omega) (Bool.eq_false_iff.mpr fun h => by have := (flush0_5 _).mp h; dsimp only at this; omega)
    (fun _ => rfl) (fun _ _ => rfl)]
  dsimp only [dats]

/-- Where the positive pair's window is idle (off the diagonal) and where it is live (on it). -/
theorem idle6 (i : grid0.Coords) (h : ¬cond2 i) : cfg0.idle 6 i = true := by
  show (!(k0_cond2 i == 1#1)) = true
  simp only [Bool.not_eq_eq_eq_not, Bool.not_true, beq_eq_false_iff_ne, ne_eq]; exact h
theorem live6 (i : grid0.Coords) (h : cond2 i) : cfg0.idle 6 i = false := by
  show (!(k0_cond2 i == 1#1)) = false
  simp only [Bool.not_eq_eq_eq_not, Bool.not_false, beq_iff_eq]; exact h

/-- To the right of the diagonal the positive pair's buffer still holds the row's positive pairs: stored on the diagonal, the
    window idle since, the buffer written back only after column tile 15. -/
theorem before6_right (c : Dev nD) : ∀ (k : ℕ) (t : Fin cfg0.N), t.val % 16 = t.val / 16 + 1 + k → ∀ d, (dats m 0 c).before 6 t d = posAt m c t
  | 0, t, ht, d => by
    have hN : t.val < 256 := lt_of_lt_of_eq t.isLt (show cfg0.N = 256 from N_0)
    have hp : (⟨t.val - 1, Nat.lt_of_le_of_lt (Nat.sub_le _ _) t.isLt⟩ : Fin cfg0.N).val / 16 = (⟨t.val - 1, Nat.lt_of_le_of_lt (Nat.sub_le _ _) t.isLt⟩ : Fin cfg0.N).val % 16 := by dsimp only; omega
    rw [Dat.before_of_pos _ 6 t (by omega) ((cfg0.win 6).fetch_out rfl t), if_neg (by rw [Bool.not_eq_true]; exact Bool.eq_false_iff.mpr fun h => by have := (flush0_6 _).mp h; dsimp only at this; omega)]
    unfold Dat.left
    rw [live6 _ ((hcond2 _).mpr hp)]
    dsimp only
    unfold Dat.kept
    rw [show (cfg0.win 6).fill (cfg0.grid.coords _) d ((cfg0.win 6).cut (cfg0.grid.coords _) ((dats m 0 c).after 6 _)) = (dats m 0 c).after 6 _ from Window.fill_cut _ _ _]
    rw [after6]
    unfold posAt
    rw [diagOf_pred t (by omega)]
  | k + 1, t, ht, d => by
    have hN : t.val < 256 := lt_of_lt_of_eq t.isLt (show cfg0.N = 256 from N_0)
    have hp : ¬(⟨t.val - 1, Nat.lt_of_le_of_lt (Nat.sub_le _ _) t.isLt⟩ : Fin cfg0.N).val / 16 = (⟨t.val - 1, Nat.lt_of_le_of_lt (Nat.sub_le _ _) t.isLt⟩ : Fin cfg0.N).val % 16 := by dsimp only; omega
    rw [Dat.before_of_pos _ 6 t (by omega) ((cfg0.win 6).fetch_out rfl t), if_neg (by rw [Bool.not_eq_true]; exact Bool.eq_false_iff.mpr fun h => by have := (flush0_6 _).mp h; dsimp only at this; omega)]
    unfold Dat.left
    rw [idle6 _ (fun h => hp ((hcond2 _).mp h))]
    dsimp only
    rw [before6_right c k ⟨t.val - 1, Nat.lt_of_le_of_lt (Nat.sub_le _ _) t.isLt⟩ (by dsimp only; omega) d]
    unfold posAt
    rw [diagOf_pred t (by omega)]

end Cert.Kernel.Tile

end
-- ==== Proof.WordTileBody.lean ====
/-
  The body obligation of the contrastive kernel's region: at every grid point the tile body, handed the buffers at what
  the proof data say they hold, runs and leaves them at what the proof data say it leaves. Four cases by the two
  conditions (accumulator reset or carried; positive pair stored or not); off the diagonal the positive pair's buffer is
  handed back as found, which in column tile 15 — where it is written back — is the row's positive pairs.
-/
import proofs.«101681_j87290915323999_1_alg».proof.Proof.WordTileDat

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem diagOf_self (t : Fin cfg0.N) (h : t.val / 16 = t.val % 16) : diagOf t = t :=
  Fin.ext (by unfold diagOf; dsimp only; omega)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from rfl, after0,
    show (dats m 0 c).leavesExact 1 t = owns (c : Thread nD τ) (ms1 t) fullShare ((dats m 0 c).after 1 t) from rfl, after1,
    show (dats m 0 c).leavesExact 2 t = owns (c : Thread nD τ) (ms2 t) fullShare ((dats m 0 c).after 2 t) from rfl, after2,
    show (dats m 0 c).leavesExact 3 t = owns (c : Thread nD τ) (ms3 t) fullShare ((dats m 0 c).after 3 t) from rfl, after3,
    show (dats m 0 c).leavesExact 4 t = owns (c : Thread nD τ) (ms4 t) fullShare ((dats m 0 c).after 4 t) from rfl, after4,
    show (dats m 0 c).leavesExact 5 t = owns (c : Thread nD τ) (ms5 t) fullShare ((dats m 0 c).after 5 t) from rfl, after5]
  have hN : t.val < 256 := lt_of_lt_of_eq t.isLt (show cfg0.N = 256 from N_0)
  by_cases h1 : t.val % 16 = 0
  · by_cases h2 : t.val / 16 = t.val % 16
    ·
      rw [show (dats m 0 c).leavesExact 6 t = owns (c : Thread nD τ) (ms6 t) fullShare ((dats m 0 c).after 6 t) from by
        unfold Dat.leavesExact; rw [live6 _ ((hcond2 t).mpr h2)], after6]
      rw [accAt_reset m c t h1]
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((runRP c (grid0.coords t) _ _ _ _ _ _ _ _ _ _ _ _ _ _ ((hcond1 t).mpr h1) ((hcond2 t).mpr h2) (iblk m c 0 t) (iblk m c 1 t) (iblk m c 2 t) (iblk m c 3 t) (iblk m c 4 t) _ _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, ⟨%e5, H5⟩, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact val5_RP c _ _ _ _ _ _ _ _ _ _ _ _ _ _ _ _ _ _ _ _ _ _ _ _ _
      unfold owns; iexists _; isplitr
      swap; · iexact H6
      ipureintro
      rw [val6_RP c _ _ _ _ _ _ _ _ _ _ _ _ _ _ _ _ _ _ _ _ _ _ _ _ _]
      unfold posAt; rw [diagOf_self t h2]

    · have hf : ¬t.val % 16 = 15 := by omega
      rw [Dat.leavesExact_idle (dats m 0 c) 6 t (idle6 _ (fun h => h2 ((hcond2 t).mp h))) (Bool.eq_false_iff.mpr fun h => hf ((flush0_6 t).mp h))]
      rw [accAt_reset m c t h1]
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((runRN c (grid0.coords t) _ _ _ _ _ _ _ _ _ _ _ _ _ _ ((hcond1 t).mpr h1) (fun h => h2 ((hcond2 t).mp h)) (iblk m c 0 t) (iblk m c 1 t) (iblk m c 2 t) (iblk m c 3 t) (iblk m c 4 t) _ _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, ⟨%e5, H5⟩, H6⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact val5_RN c _ _ _ _ _ _ _ _ _ _ _ _ _ _ _ _ _ _ _ _ _ _ _ _ _
      iexists _; iexact H6

  · by_cases h2 : t.val / 16 = t.val % 16
    ·
      rw [show (dats m 0 c).leavesExact 6 t = owns (c : Thread nD τ) (ms6 t) fullShare ((dats m 0 c).after 6 t) from by
        unfold Dat.leavesExact; rw [live6 _ ((hcond2 t).mpr h2)], after6]
      rw [accAt_carry m c t h1]
      simp only [before5_carry m c t h1]
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((runKP c (grid0.coords t) _ _ _ _ _ _ _ _ _ _ _ _ _ _ (fun h => h1 ((hcond1 t).mp h)) ((hcond2 t).mpr h2) (iblk m c 0 t) (iblk m c 1 t) (iblk m c 2 t) (iblk m c 3 t) (iblk m c 4 t) _ _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, ⟨%e5, H5⟩, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact val5_KP c _ _ _ _ _ _ _ _ _ _ _ _ _ _ _ _ _ _ _ _ _ _ _ _ _
      unfold owns; iexists _; isplitr
      swap; · iexact H6
      ipureintro
      rw [val6_KP c _ _ _ _ _ _ _ _ _ _ _ _ _ _ _ _ _ _ _ _ _ _ _ _ _]
      unfold posAt; rw [diagOf_self t h2]

    · by_cases hf : t.val % 16 = 15
      ·
        rw [show (dats m 0 c).leavesExact 6 t = owns (c : Thread nD τ) (ms6 t) fullShare ((dats m 0 c).after 6 t) from by
          unfold Dat.leavesExact; rw [idle6 _ (fun h => h2 ((hcond2 t).mp h)), (flush0_6 t).mpr hf], after6]
        simp only [before6_right m c (14 - t.val / 16) t (by omega)]
        rw [accAt_carry m c t h1]
        simp only [before5_carry m c t h1]
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((runKN c (grid0.coords t) _ _ _ _ _ _ _ _ _ _ _ _ _ _ (fun h => h1 ((hcond1 t).mp h)) (fun h => h2 ((hcond2 t).mp h)) (iblk m c 0 t) (iblk m c 1 t) (iblk m c 2 t) (iblk m c 3 t) (iblk m c 4 t) _ _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        iintro ⟨H0, H1, H2, H3, H4, ⟨%e5, H5⟩, H6⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact val5_KN c _ _ _ _ _ _ _ _ _ _ _ _ _ _ _ _ _ _ _ _ _ _ _ _ _
        iexact H6

      ·
        rw [Dat.leavesExact_idle (dats m 0 c) 6 t (idle6 _ (fun h => h2 ((hcond2 t).mp h))) (Bool.eq_false_iff.mpr fun h => hf ((flush0_6 t).mp h))]
        rw [accAt_carry m c t h1]
        simp only [before5_carry m c t h1]
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((runKN c (grid0.coords t) _ _ _ _ _ _ _ _ _ _ _ _ _ _ (fun h => h1 ((hcond1 t).mp h)) (fun h => h2 ((hcond2 t).mp h)) (iblk m c 0 t) (iblk m c 1 t) (iblk m c 2 t) (iblk m c 3 t) (iblk m c 4 t) _ _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        iintro ⟨H0, H1, H2, H3, H4, ⟨%e5, H5⟩, H6⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact val5_KN c _ _ _ _ _ _ _ _ _ _ _ _ _ _ _ _ _ _ _ _ _ _ _ _ _
        iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Tile

end
-- ==== Proof.KerTailWord.lean ====
/-
  The operations after the tiled region, in the word-level program: they write neither an argument nor one of the
  region's two columns.
-/
import proofs.«101681_j87290915323999_1_alg».proof.Proof.Gen.Kernel.Launch
import Idealize.ShloMosaic.Lib.StableHlo.Run

noncomputable section

namespace Cert.KerTailWord

open Idealize.ShloMosaic Idealize.ShloMosaic.StableHlo Cert.Kernel Cert.Kernel.Gen

variable {F : FTy → Type} [FloatOps F]

/-- The tail writes neither an argument nor one of the region's two columns. -/
theorem tail_keeps (W : Valuation τ sig (Elt F)) (b : Ref sig .tc)
    (hb : b = main_arg0 ∨ b = main_arg1 ∨ b = main_arg2 ∨ b = main_v0_0 ∨ b = main_v0_1) :
    StableHlo.after (hostOps1 (F := F)) W (Proc.devRef .tc b) = W (Proc.devRef .tc b) := by
  rcases hb with rfl | rfl | rfl | rfl | rfl <;> after_results

end Cert.KerTailWord

end
-- ==== Proof.WordTileLaunch.lean ====
/-
  The launch of the contrastive kernel's program: the region, then twelve host operations. The feature array is handed
  to the region through two windows, the reference array likewise: each of those arrays is split between its two windows
  by halves of the full share, and comes back whole only in contents (both halves read the launch contents). The host
  operations after the region touch the region's two result arrays and their own buffers only, so they run beside the
  argument arrays' shares. The run's post names every array the windows stage and the final result buffer.
-/
import proofs.«101681_j87290915323999_1_alg».proof.Proof.WordTileBody
import Idealize.ShloMosaic.Lib.Pipeline.FrameSuffix
import proofs.«101681_j87290915323999_1_alg».proof.Proof.KerTailWord

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrBufs unscopedRest unscopedRestP scopedRest)

/-- @main is the region and then the twelve host operations. -/
theorem hmain (𝒱₀ : Variants) : Pipeline.HMainK (Ix := Unit) (Name := ℕ) (U := UR sig nD τ) (Lvl := ℕ) cfgs 0 defs₀ 𝒱₀ m (main (F := F)) (V m)
    (fun _ => Pipeline.chain ([hostOps1 (F := F)].map StableHlo.seq)) :=
  Pipeline.hmain_around cfgs 0 defs₀ 𝒱₀ m main [] [hostOps1] trivial trivial fun c => (main_chain c).trans rfl

/-- The windows' arrays, window by window: the feature array's two halves, the noise array, the reference array's two
    halves, the two result arrays. -/
theorem arrays_chain (c : Dev nD) (G : (w : Fin cfg0.W) → Buf (Elt F) ((cfg0.win w).arr.view.loc (c.tc : Thread nD τ))) :
    ((dats m 0 c).arrays G : sProp 𝕄)
      = iprop((((c.tc : Thread nD τ).loc main_arg0) ↦{fullShare.left} G 0) ∗ (((c.tc : Thread nD τ).loc main_arg0) ↦{fullShare.right} G 1)
          ∗ (((c.tc : Thread nD τ).loc main_arg1) ↦{fullShare} G 2)
          ∗ (((c.tc : Thread nD τ).loc main_arg2) ↦{fullShare.left} G 3) ∗ (((c.tc : Thread nD τ).loc main_arg2) ↦{fullShare.right} G 4)
          ∗ (((c.tc : Thread nD τ).loc main_v0_0) ↦{fullShare} G 5) ∗ (((c.tc : Thread nD τ).loc main_v0_1) ↦{fullShare} G 6)) := by
  unfold Dat.arrays
  rw [bigSep_W0, (arr_whole0 0).set_eq_univ, (arr_whole0 2).set_eq_univ, (arr_whole0 3).set_eq_univ, (arr_whole0 5).set_eq_univ,
    (arr_whole0 6).set_eq_univ]
  rfl

/-- The buffers behind the windows' arrays, one by one. -/
theorem arrBufs_chain (c : Dev nD) (W : (b : Ref sig .tc) → Buf (Elt F) ((c.tc : Thread nD τ).loc b)) :
    (arrBufs (Ix := Unit) (Name := ℕ) (U := UR sig nD τ) (Lvl := ℕ) spec0 c W : sProp 𝕄)
      = iprop((((c.tc : Thread nD τ).loc main_arg0) ↦{fullShare} W main_arg0) ∗ (((c.tc : Thread nD τ).loc main_arg1) ↦{fullShare} W main_arg1)
          ∗ (((c.tc : Thread nD τ).loc main_arg2) ↦{fullShare} W main_arg2) ∗ (((c.tc : Thread nD τ).loc main_v0_0) ↦{fullShare} W main_v0_0)
          ∗ (((c.tc : Thread nD τ).loc main_v0_1) ↦{fullShare} W main_v0_1)) := by
  unfold arrBufs
  exact bigSep_eq_bigSepL_of_eq [main_arg0, main_arg1, main_arg2, main_v0_0, main_v0_1] (by decide) (by decide) _

/-- ENTRY: the feature and the reference arrays split in halves between their two windows. -/
theorem hsplit (c : Dev nD) : (arrBufs (Ix := Unit) (Name := ℕ) (U := UR sig nD τ) (Lvl := ℕ) spec0 c (V m c) : sProp 𝕄)
    ⊢ (dats m 0 c).arrays ((dats m 0 c).arrAt · 0) := by
  rw [arrays_chain, arrBufs_chain]
  iintro ⟨H0, H1, H2, H3, H4⟩
  ihave H0' := (pointsTo_share (q := fullShare) (q₁ := fullShare.left) (q₂ := fullShare.right) (PosShare.mem_left_op_right fullShare)).1 $$ H0
  icases H0' with ⟨H0a, H0b⟩
  ihave H2' := (pointsTo_share (q := fullShare) (q₁ := fullShare.left) (q₂ := fullShare.right) (PosShare.mem_left_op_right fullShare)).1 $$ H2
  icases H2' with ⟨H2a, H2b⟩
  isplitl [H0a]; · iexact H0a
  isplitl [H0b]; · iexact H0b
  isplitl [H1]; · iexact H1
  isplitl [H2a]; · iexact H2a
  isplitl [H2b]; · iexact H2b
  isplitl [H3]; · iexact H3
  iexact H4

/-! ## The host operations after the region -/

/-- The core's buffers when the region is left: the two result arrays at what the region wrote back, every other buffer as
    launched. -/
def exitVal (c : Dev nD) : Valuation τ sig (Elt F) :=
  Function.update (Function.update (fun b => m (c, b)) (Proc.devRef .tc main_v0_0) ((dats m 0 c).arrAt 5 cfg0.N))
    (Proc.devRef .tc main_v0_1) ((dats m 0 c).arrAt 6 cfg0.N)

theorem exitVal_neg (c : Dev nD) : exitVal m c (Proc.devRef .tc main_v0_0) = (dats m 0 c).arrAt 5 cfg0.N := by
  unfold exitVal
  rw [Function.update_of_ne (by decide), Function.update_self]

theorem exitVal_pos (c : Dev nD) : exitVal m c (Proc.devRef .tc main_v0_1) = (dats m 0 c).arrAt 6 cfg0.N := by
  unfold exitVal
  rw [Function.update_self]

theorem exitVal_other (c : Dev nD) (b : Ref sig .tc) (h0 : b ≠ main_v0_0) (h1 : b ≠ main_v0_1) :
    exitVal m c (Proc.devRef .tc b) = m ((c.tc : Thread nD τ).loc b) := by
  unfold exitVal
  rw [Function.update_of_ne (fun e => h1 (Proc.devRef_injective _ e)), Function.update_of_ne (fun e => h0 (Proc.devRef_injective _ e))]

/-- The buffers after the twelve host operations. -/
def finalVal (c : Dev nD) (b : Ref sig .tc) : Buf (Elt F) ((c.tc : Thread nD τ).loc b) :=
  StableHlo.after (hostOps1 (F := F)) (exitVal m c) (Proc.devRef .tc b)

/-- The buffers the host operations run within: the two result arrays and the twelve buffers of their own. -/
abbrev tailL : List (DevRef τ sig) :=
  [Proc.devRef .tc main_v0_0, Proc.devRef .tc main_v0_1, Proc.devRef .tc main_v1, Proc.devRef .tc main_v2, Proc.devRef .tc main_cst,
    Proc.devRef .tc main_v3, Proc.devRef .tc main_v4, Proc.devRef .tc main_v5, Proc.devRef .tc main_v6, Proc.devRef .tc main_v7,
    Proc.devRef .tc main_cst_0, Proc.devRef .tc main_v8, Proc.devRef .tc main_cst_1, Proc.devRef .tc main_v9]

theorem held_tail (c : Dev nD) (W : Valuation τ sig (Elt F)) :
    (StableHlo.held (c.tc : Thread nD τ) tailL.toFinset W : sProp 𝕄)
      = iprop((((c.tc : Thread nD τ).loc main_v0_0) ↦{fullShare} W (Proc.devRef .tc main_v0_0)) ∗ (((c.tc : Thread nD τ).loc main_v0_1) ↦{fullShare} W (Proc.devRef .tc main_v0_1))
          ∗ (((c.tc : Thread nD τ).loc main_v1) ↦{fullShare} W (Proc.devRef .tc main_v1)) ∗ (((c.tc : Thread nD τ).loc main_v2) ↦{fullShare} W (Proc.devRef .tc main_v2))
          ∗ (((c.tc : Thread nD τ).loc main_cst) ↦{fullShare} W (Proc.devRef .tc main_cst)) ∗ (((c.tc : Thread nD τ).loc main_v3) ↦{fullShare} W (Proc.devRef .tc main_v3))
          ∗ (((c.tc : Thread nD τ).loc main_v4) ↦{fullShare} W (Proc.devRef .tc main_v4)) ∗ (((c.tc : Thread nD τ).loc main_v5) ↦{fullShare} W (Proc.devRef .tc main_v5))
          ∗ (((c.tc : Thread nD τ).loc main_v6) ↦{fullShare} W (Proc.devRef .tc main_v6)) ∗ (((c.tc : Thread nD τ).loc main_v7) ↦{fullShare} W (Proc.devRef .tc main_v7))
          ∗ (((c.tc : Thread nD τ).loc main_cst_0) ↦{fullShare} W (Proc.devRef .tc main_cst_0)) ∗ (((c.tc : Thread nD τ).loc main_v8) ↦{fullShare} W (Proc.devRef .tc main_v8))
          ∗ (((c.tc : Thread nD τ).loc main_cst_1) ↦{fullShare} W (Proc.devRef .tc main_cst_1)) ∗ (((c.tc : Thread nD τ).loc main_v9) ↦{fullShare} W (Proc.devRef .tc main_v9))) := by
  unfold StableHlo.held
  exact bigSep_eq_bigSepL_of_eq tailL rfl (by decide) _

theorem tail_sub : ∀ op ∈ (hostOps1 : List (HloOp τ sig (Elt F))), op.bufs ⊆ tailL.toFinset := by
  intro op hop
  simp only [hostOps1, List.mem_cons, List.not_mem_nil, _root_.or_false] at hop
  rcases hop with rfl | rfl | rfl | rfl | rfl | rfl | rfl | rfl | rfl | rfl | rfl | rfl
  · exact (by decide : ({(Proc.devRef .tc main_v0_0 : DevRef τ sig), Proc.devRef .tc main_v1} : Finset (DevRef τ sig)) ⊆ tailL.toFinset)
  · exact (by decide : ({(Proc.devRef .tc main_v0_1 : DevRef τ sig), Proc.devRef .tc main_v2} : Finset (DevRef τ sig)) ⊆ tailL.toFinset)
  · exact (by decide : ({(Proc.devRef .tc main_cst : DevRef τ sig)} : Finset (DevRef τ sig)) ⊆ tailL.toFinset)
  · exact (by decide : ({(Proc.devRef .tc main_cst : DevRef τ sig), Proc.devRef .tc main_v3} : Finset (DevRef τ sig)) ⊆ tailL.toFinset)
  · exact (by decide : ({(Proc.devRef .tc main_v1 : DevRef τ sig), Proc.devRef .tc main_v3, Proc.devRef .tc main_v4} : Finset (DevRef τ sig)) ⊆ tailL.toFinset)
  · exact (by decide : ({(Proc.devRef .tc main_v2 : DevRef τ sig), Proc.devRef .tc main_v4, Proc.devRef .tc main_v5} : Finset (DevRef τ sig)) ⊆ tailL.toFinset)
  · exact (by decide : ({(Proc.devRef .tc main_v5 : DevRef τ sig), Proc.devRef .tc main_v6} : Finset (DevRef τ sig)) ⊆ tailL.toFinset)
  · exact (by decide : ({(Proc.devRef .tc main_v6 : DevRef τ sig), Proc.devRef .tc main_v7} : Finset (DevRef τ sig)) ⊆ tailL.toFinset)
  · exact (by decide : ({(Proc.devRef .tc main_cst_0 : DevRef τ sig)} : Finset (DevRef τ sig)) ⊆ tailL.toFinset)
  · exact (by decide : ({(Proc.devRef .tc main_v7 : DevRef τ sig), Proc.devRef .tc main_cst_0, Proc.devRef .tc main_v8} : Finset (DevRef τ sig)) ⊆ tailL.toFinset)
  · exact (by decide : ({(Proc.devRef .tc main_cst_1 : DevRef τ sig)} : Finset (DevRef τ sig)) ⊆ tailL.toFinset)
  · exact (by decide : ({(Proc.devRef .tc main_v8 : DevRef τ sig), Proc.devRef .tc main_cst_1, Proc.devRef .tc main_v9} : Finset (DevRef τ sig)) ⊆ tailL.toFinset)

theorem tail_fresh : ∀ op ∈ (hostOps1 : List (HloOp τ sig (Elt F))), op.fresh = ∅ := by
  intro op hop
  simp only [hostOps1, List.mem_cons, List.not_mem_nil, _root_.or_false] at hop
  rcases hop with rfl | rfl | rfl | rfl | rfl | rfl | rfl | rfl | rfl | rfl | rfl | rfl <;> rfl

/-- What the operations leave in the buffers they do not write: the contents at the region's exit. -/
theorem finalVal_neg (c : Dev nD) : finalVal m c main_v0_0 = (dats m 0 c).arrAt 5 cfg0.N := by
  unfold finalVal
  rw [Cert.KerTailWord.tail_keeps (exitVal m c) main_v0_0 (.inr (.inr (.inr (.inl rfl)))), exitVal_neg]

theorem finalVal_pos (c : Dev nD) : finalVal m c main_v0_1 = (dats m 0 c).arrAt 6 cfg0.N := by
  unfold finalVal
  rw [Cert.KerTailWord.tail_keeps (exitVal m c) main_v0_1 (.inr (.inr (.inr (.inr rfl)))), exitVal_pos]

set_option backward.isDefEq.respectTransparency.types false in
/-- THE HOST OPERATIONS AFTER THE REGION: from the region's exit — the arrays at their final contents, the operations' own
    buffers as launched — they run within the two result arrays and their own buffers, beside the argument arrays' shares,
    and hand back the arrays unchanged and their own buffers at the operations' values. -/
theorem htail (c : Dev nD) (Q' : PUnit → sProp 𝕄) :
    iprop((iprop((dats m 0 c).arrays ((dats m 0 c).arrAt · cfg0.N)
            ∗ unscopedRestP (Ix := Unit) (Name := ℕ) (U := UR sig nD τ) (Lvl := ℕ) Pipeline.Prefetch.none spec0 c (finalVal m c)) -∗ Q' ⟨⟩)
        ∗ boundary (c.tc : Thread nD τ) ∗ (dats m 0 c).arrays ((dats m 0 c).arrAt · cfg0.N)
        ∗ unscopedRestP (Ix := Unit) (Name := ℕ) (U := UR sig nD τ) (Lvl := ℕ) Pipeline.Prefetch.none spec0 c (V m c))
      ⊢ wp frame (wpE (defs (F := F)) (Variants.lift Variants.none) (c.tc : Thread nD τ) none) Set.univ
          (Pipeline.chain ([hostOps1 (F := F)].map StableHlo.seq)) Q' := by
  have h := StableHlo.wp_seq (defs := defs (F := F)) (Variants.lift Variants.none) none Set.univ c tailL.toFinset
    (fun _ => Pipeline.chain []) (K := Q') (hostOps1 (F := F)) (tail_sub) (tail_fresh) (exitVal m c)
  rw [held_tail, held_tail, exitVal_neg, exitVal_pos] at h
  simp only [exitVal_other m c main_v1 (by decide) (by decide),
    exitVal_other m c main_v2 (by decide) (by decide),
    exitVal_other m c main_cst (by decide) (by decide),
    exitVal_other m c main_v3 (by decide) (by decide),
    exitVal_other m c main_v4 (by decide) (by decide),
    exitVal_other m c main_v5 (by decide) (by decide),
    exitVal_other m c main_v6 (by decide) (by decide),
    exitVal_other m c main_v7 (by decide) (by decide),
    exitVal_other m c main_cst_0 (by decide) (by decide),
    exitVal_other m c main_v8 (by decide) (by decide),
    exitVal_other m c main_cst_1 (by decide) (by decide),
    exitVal_other m c main_v9 (by decide) (by decide)] at h
  rw [arrays_chain, Pipeline.unscopedRestP_none, Pipeline.unscopedRestP_none, unscopedRest0_eq, unscopedRest0_eq]
  simp only [List.map_cons, List.map_nil, Pipeline.chain_cons]
  iintro ⟨Hk, Hb, ⟨A0, A1, A2, A3, A4, A5, A6⟩, ⟨R0, R1, R2, R3, R4, R5, R6, R7, R8, R9, R10, R11⟩⟩
  iapply h $$ [Hb A5 A6 R0 R1 R2 R3 R4 R5 R6 R7 R8 R9 R10 R11]
  · isplitl [Hb]; · iexact Hb
    isplitl [A5]; · iexact A5
    isplitl [A6]; · iexact A6
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iexact R11
  iintro ⟨Hb, A5, A6, R0, R1, R2, R3, R4, R5, R6, R7, R8, R9, R10, R11⟩
  rw [Pipeline.chain_nil, wp_pure]; imodintro
  iapply Hk
  isplitl [A0 A1 A2 A3 A4 A5 A6]
  · isplitl [A0]; · iexact A0
    isplitl [A1]; · iexact A1
    isplitl [A2]; · iexact A2
    isplitl [A3]; · iexact A3
    isplitl [A4]; · iexact A4
    isplitl [A5]
    · rw [show StableHlo.after (hostOps1 (F := F)) (exitVal m c) (Proc.devRef .tc main_v0_0) = (dats m 0 c).arrAt 5 cfg0.N from finalVal_neg m c]
      iexact A5
    rw [show StableHlo.after (hostOps1 (F := F)) (exitVal m c) (Proc.devRef .tc main_v0_1) = (dats m 0 c).arrAt 6 cfg0.N from finalVal_pos m c]
    iexact A6
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  iexact R11

/-! ## The run -/

theorem hX_run (c : Dev nD) : unscopedRestP (Ix := Unit) (Name := ℕ) (U := UR sig nD τ) (Lvl := ℕ) Pipeline.Prefetch.none spec0 c (V m c)
    ⊢ (iprop(emp ∗ unscopedRestP (Ix := Unit) (Name := ℕ) (U := UR sig nD τ) (Lvl := ℕ) Pipeline.Prefetch.none spec0 c (V m c)) : sProp 𝕄) := by
  iintro H
  isplitr
  · iempintro
  iexact H

theorem hin_run (c : Dev nD) : (iprop(emp ∗ Pipeline.prefHeld (Ix := Unit) (Name := ℕ) (U := UR sig nD τ) (Lvl := ℕ) Pipeline.Prefetch.none c (fun _ => fullShare.right) (Pipeline.Prefetch.Contents.none (Val := Elt F))
      ∗ scopedRest (Ix := Unit) (Name := ℕ) (U := UR sig nD τ) (Lvl := ℕ) (Val := Elt F) spec0 c) : sProp 𝕄)
    ⊢ scopedRest (Ix := Unit) (Name := ℕ) (U := UR sig nD τ) (Lvl := ℕ) (Val := Elt F) spec0 c := by
  iintro ⟨-, -, H⟩
  iexact H

theorem hout_run (c : Dev nD) : (scopedRest (Ix := Unit) (Name := ℕ) (U := UR sig nD τ) (Lvl := ℕ) (Val := Elt F) spec0 c : sProp 𝕄)
    ⊢ iprop(emp ∗ scopedRest (Ix := Unit) (Name := ℕ) (U := UR sig nD τ) (Lvl := ℕ) (Val := Elt F) spec0 c) := by
  iintro H
  isplitr
  · iempintro
  iexact H

theorem hY_run (c : Dev nD) (s' : Phys nD τ sig (Elt F)) :
    (iprop(emp ∗ unscopedRestP (Ix := Unit) (Name := ℕ) (U := UR sig nD τ) (Lvl := ℕ) Pipeline.Prefetch.none spec0 c (finalVal m c) ∗ SI s') : sProp 𝕄)
      ⊢ |={Set.univ}=> iprop(⌜∀ b ∈ Pipeline.restRefs sig spec0, s'.mem.mem ((c.tc : Thread nD τ).loc b) = finalVal m c b⌝ ∗ SI s') := by
  rw [Pipeline.unscopedRestP_none]
  unfold unscopedRest
  iintro ⟨-, HU, HSI⟩
  imodintro
  iapply (pointsTo_read_all (Pipeline.restRefs sig spec0) (fun b => (c.tc : Thread nD τ).loc b) (finalVal m c) s')
  isplitl [HU] <;> iassumption

/-- What the run ends in: every array the windows stage at what the proof data compute, and every buffer of the host
    operations' own at their values. -/
def RunPost (r : PUnit × MemSt nD τ sig (Elt F)) : Prop :=
  ∀ c : Dev nD, (∀ w, r.2.mem (((cfgs 0).spec w).arr.view.loc (c.tc : Thread nD τ)) = (dats m 0 c).arrAt w cfg0.N)
    ∧ ∀ b ∈ Pipeline.restRefs sig spec0, r.2.mem ((c.tc : Thread nD τ).loc b) = finalVal m c b

-- the launch theorem's implicit arguments are found by unifying its conclusion with this one
set_option backward.isDefEq.respectTransparency.types false in
/-- At the compiled mesh, for any values, from any memory with zero counters: every weakly fair execution of @main on the
    TensorCores terminates, in a state satisfying `RunPost`. -/
theorem run_main : θ_run defs (onTc (τ := τ) (main (F := F))) ⟨m, fun _ => 0, ρ⟩ (RunPost m) := by
  classical
  exact Pipeline.θ_run_region_noSem_pf_tail (fun q => (cfgs q).toPCfg (Val := Elt F)) (fun q => (cfgs q).toPCfg_adm) (dats m) () cellOf_inj 0
    winFacts₀0 (Pipeline.PreFacts.none _) emb₁ defs₀ Variants.none m ρ main
    (fun _ => Pipeline.chain ([hostOps1 (F := F)].map StableHlo.seq))
    (fun c => (body_obligation m c).loose) block_pos0 arr_whole0 stage_whole0 (fun _ _ => rfl)
    (u₀ := Rounds.initOf (Pipeline.cells cfgs cellOf_inj) (Pipeline.launchToks cfgs cellOf_inj)) (hu₀ := .rfl)
    (V := V m) (hmain := hmain m Variants.none)
    (hsplit := hsplit m) (hpf := fun _ k => k.elim0)
    (X := fun _ => iprop(emp)) (Y := fun _ => iprop(emp))
    (Z := fun c => unscopedRestP (Ix := Unit) (Name := ℕ) (U := UR sig nD τ) (Lvl := ℕ) Pipeline.Prefetch.none spec0 c (V m c))
    (Z' := fun c => unscopedRestP (Ix := Unit) (Name := ℕ) (U := UR sig nD τ) (Lvl := ℕ) Pipeline.Prefetch.none spec0 c (finalVal m c))
    (hX := hX_run m)
    (hin := fun c => hin_run c)
    (hout := fun c => hout_run c)
    (htail := fun c Q' => htail m c Q')
    (QY := fun c s => ∀ b ∈ Pipeline.restRefs sig spec0, s.mem ((c.tc : Thread nD τ).loc b) = finalVal m c b)
    (hY := fun c s' => hY_run m c s')
    (hQ := fun s h c => ⟨(h c).1, (h c).2.2⟩)

end Cert.Kernel.Tile

end
-- ==== Proof.RefSideIdx.lean ====
/-
  Two host operations read at an index, over any entry type: a scatter that SETS one entry per row of the operand
  (the update body returns the update; every scatter index is a pair (row, column)), and the gather of one entry per
  pair. Both are stated for a matrix with R rows and C columns and an R x 2 array of 32-bit index pairs.

  The scatter is a left fold over the updates in order. When every update carries the same value z, the order does
  not matter: an entry of the result is z if some update's pair lands on it, and the operand's entry otherwise.
  A pair lands on entry (p, q) exactly when its two words, read as signed integers, are p and q (a pair outside
  the matrix lands nowhere). The gather reads the operand at the pair, each word read signed and clamped into
  the matrix.
-/
import Idealize.ShloMosaic.PureOps.ShapeOps
import Idealize.ShloMosaic.Lib.ValueIdx

noncomputable section

namespace Cert.RefSide

open Idealize.ShloMosaic Idealize.ShloMosaic.ValueIdx

section Fold
variable {α β ι : Type}

/-- A left fold of steps, each of which either sets one entry (the one `tgt n` names) to the constant `z`, leaving
    the others, or does nothing: the result at `i` is `z` if some step names `i`, and the start's entry otherwise. -/
theorem foldl_set_const (tgt : β → Option ι) (z : α) (g : (ι → α) → β → (ι → α))
    (hsome : ∀ r n i, tgt n = some i → g r n i = z ∧ ∀ i', i' ≠ i → g r n i' = r i')
    (hnone : ∀ r n, tgt n = none → g r n = r) (l : List β) (r : ι → α) (i : ι) :
    ((∃ n ∈ l, tgt n = some i) → l.foldl g r i = z) ∧ ((∀ n ∈ l, tgt n ≠ some i) → l.foldl g r i = r i) := by
  induction l generalizing r with
  | nil => exact ⟨fun ⟨n, hn, _⟩ => absurd hn (List.not_mem_nil), fun _ => rfl⟩
  | cons n l ih =>
    rw [List.foldl_cons]
    refine ⟨fun ⟨m, hm, hmi⟩ => ?_, fun hall => ?_⟩
    · by_cases hl : ∃ m ∈ l, tgt m = some i
      · exact (ih (g r n)).1 hl
      · have hm' : m = n := by
          rcases List.mem_cons.1 hm with h | h
          · exact h
          · exact absurd ⟨m, h, hmi⟩ hl
        subst hm'
        rw [(ih (g r m)).2 (fun k hk hki => hl ⟨k, hk, hki⟩)]
        exact (hsome r m i hmi).1
    · rw [(ih (g r n)).2 (fun k hk => hall k (List.mem_cons_of_mem _ hk))]
      cases h : tgt n with
      | none => rw [hnone r n h]
      | some i' =>
        have : i ≠ i' := fun e => hall n List.mem_cons_self (by rw [h, e])
        exact (hsome r n i' h).2 i this

end Fold

section Pair
variable {α : Type}

/-- The scatter's dimension numbers: no window axes, both operand axes inserted, the pair's words go to axes 0 and 1,
    the pair runs along axis 1 of the indices. -/
abbrev pairScatter (R C : Nat) (wf : ScatterDims.WF ⟨2, ![R, C]⟩ ⟨2, ![R, 2]⟩ ⟨1, ![R]⟩ [] [0, 1] [0, 1] 1) :
    ScatterDims ⟨2, ![R, C]⟩ ⟨2, ![R, 2]⟩ ⟨1, ![R]⟩ where
  updateWindowDims := []
  insertedWindowDims := [0, 1]
  scatterDimsToOperandDims := [0, 1]
  indexVectorDim := 1
  wf := wf

theorem pairScatter_start0 {R C w : Nat} (wf) (idx : IVec ⟨2, ![R, 2]⟩ w) (t : Fin R) :
    (pairScatter R C wf).start (ix1 t) idx 0 = (idx (ix2 t 0)).toInt := by
  unfold ScatterDims.start
  rw [dif_pos (show (0 : Fin 2) ∈ ([0, 1] : List (Fin 2)) by decide)]
  congr 2
  funext b; refine Fin.ext ?_
  match b with
  | ⟨0, _⟩ => rfl
  | ⟨1, _⟩ => rfl

theorem pairScatter_start1 {R C w : Nat} (wf) (idx : IVec ⟨2, ![R, 2]⟩ w) (t : Fin R) :
    (pairScatter R C wf).start (ix1 t) idx 1 = (idx (ix2 t 1)).toInt := by
  unfold ScatterDims.start
  rw [dif_pos (show (1 : Fin 2) ∈ ([0, 1] : List (Fin 2)) by decide)]
  congr 2
  funext b; refine Fin.ext ?_
  match b with
  | ⟨0, _⟩ => rfl
  | ⟨1, _⟩ => rfl

theorem pairScatter_window {R C : Nat} (wf) (t : Fin R) (a : Fin 2) : (pairScatter R C wf).window (ix1 t) a = 0 := by
  unfold ScatterDims.window
  rw [dif_neg]
  show a ∉ (List.finRange 2).filter (· ∉ ([0, 1] : List (Fin 2)))
  revert a; decide

/-- Update `t` lands on entry (p, q) exactly when its pair of words, read signed, is (p, q). -/
theorem pairScatter_lands {R C w : Nat} (wf) (idx : IVec ⟨2, ![R, 2]⟩ w) (t p : Fin R) (q : Fin C) :
    (pairScatter R C wf).resultIdx? (ix1 t) idx = some (ix2 p q) ↔
      (idx (ix2 t 0)).toInt = p.val ∧ (idx (ix2 t 1)).toInt = q.val := by
  have h0 := pairScatter_start0 (C := C) wf idx t
  have h1 := pairScatter_start1 (C := C) wf idx t
  have w0 := pairScatter_window (C := C) wf t 0
  have w1 := pairScatter_window (C := C) wf t 1
  have hp := p.isLt
  have hq := q.isLt
  unfold ScatterDims.resultIdx?
  split
  · next h =>
    rw [Option.some.injEq]
    have a0 := (h 0).1
    have a1 := (h 1).1
    rw [h0, w0] at a0
    rw [h1, w1] at a1
    constructor
    · intro e
      have e0 : ((pairScatter R C wf).start (ix1 t) idx 0 + ((pairScatter R C wf).window (ix1 t) 0 : Nat)).toNat = p.val :=
        congrArg (fun f => (f 0).val) e
      have e1 : ((pairScatter R C wf).start (ix1 t) idx 1 + ((pairScatter R C wf).window (ix1 t) 1 : Nat)).toNat = q.val :=
        congrArg (fun f => (f 1).val) e
      rw [h0, w0] at e0
      rw [h1, w1] at e1
      constructor <;> omega
    · rintro ⟨e0, e1⟩
      funext a
      match a with
      | ⟨0, _⟩ =>
        refine Fin.ext ?_
        show ((pairScatter R C wf).start (ix1 t) idx 0 + ((pairScatter R C wf).window (ix1 t) 0 : Nat)).toNat = p.val
        rw [h0, w0]; omega
      | ⟨1, _⟩ =>
        refine Fin.ext ?_
        show ((pairScatter R C wf).start (ix1 t) idx 1 + ((pairScatter R C wf).window (ix1 t) 1 : Nat)).toNat = q.val
        rw [h1, w1]; omega
  · next h =>
    constructor
    · intro e; cases e
    · rintro ⟨e0, e1⟩
      refine absurd (fun a => ?_) h
      match a with
      | ⟨0, _⟩ =>
        show 0 ≤ (pairScatter R C wf).start (ix1 t) idx 0 + ((pairScatter R C wf).window (ix1 t) 0 : Nat) ∧
          (pairScatter R C wf).start (ix1 t) idx 0 + ((pairScatter R C wf).window (ix1 t) 0 : Nat) < (R : Int)
        rw [h0, w0]; constructor <;> omega
      | ⟨1, _⟩ =>
        show 0 ≤ (pairScatter R C wf).start (ix1 t) idx 1 + ((pairScatter R C wf).window (ix1 t) 1 : Nat) ∧
          (pairScatter R C wf).start (ix1 t) idx 1 + ((pairScatter R C wf).window (ix1 t) 1 : Nat) < (C : Int)
        rw [h1, w1]; constructor <;> omega

/-- THE SCATTER OF ONE CONSTANT READ AT (p, q): `z` where some row's pair is (p, q), the operand's entry elsewhere. -/
theorem scatter_pair_const {R C w : Nat} (wf) (x : (⟨2, ![R, C]⟩ : Shape).Idx → α) (idx : IVec ⟨2, ![R, 2]⟩ w)
    (upd : (⟨1, ![R]⟩ : Shape).Idx → α) (z : α) (hupd : ∀ j, upd j = z) (p : Fin R) (q : Fin C) :
    ((∃ t : Fin R, (idx (ix2 t 0)).toInt = p.val ∧ (idx (ix2 t 1)).toInt = q.val) →
        Host.scatter (pairScatter R C wf) (fun _ b => b) x idx upd (ix2 p q) = z) ∧
    ((∀ t : Fin R, ¬((idx (ix2 t 0)).toInt = p.val ∧ (idx (ix2 t 1)).toInt = q.val)) →
        Host.scatter (pairScatter R C wf) (fun _ b => b) x idx upd (ix2 p q) = x (ix2 p q)) := by
  unfold Host.scatter
  have F := fun g hs hn => foldl_set_const (α := α)
    (tgt := fun n : Fin (⟨1, ![R]⟩ : Shape).numel => (pairScatter R C wf).resultIdx? ((⟨1, ![R]⟩ : Shape).rowMajor.symm n) idx) z g
    hs hn (List.finRange (⟨1, ![R]⟩ : Shape).numel) x (ix2 p q)
  constructor
  · rintro ⟨t, ht⟩
    refine (F _ ?hs ?hn).1 ⟨(⟨1, ![R]⟩ : Shape).rowMajor (ix1 t), List.mem_finRange _, ?ht⟩
    case hs =>
      intro r n i h
      simp only [h]
      exact ⟨(if_pos trivial).trans (hupd _), fun i' hne => if_neg hne⟩
    case hn => intro r n h; simp only [h]
    case ht =>
      show (pairScatter R C wf).resultIdx? ((⟨1, ![R]⟩ : Shape).rowMajor.symm ((⟨1, ![R]⟩ : Shape).rowMajor (ix1 t))) idx = _
      rw [Equiv.symm_apply_apply]
      exact (pairScatter_lands wf idx t p q).2 ht
  · intro hall
    refine (F _ ?hs ?hn).2 fun n _ hn => ?_
    case hs =>
      intro r n i h
      simp only [h]
      exact ⟨(if_pos trivial).trans (hupd _), fun i' hne => if_neg hne⟩
    case hn => intro r n h; simp only [h]
    have hn' : (pairScatter R C wf).resultIdx? ((⟨1, ![R]⟩ : Shape).rowMajor.symm n) idx = some (ix2 p q) := hn
    rw [eq_ix1 ((⟨1, ![R]⟩ : Shape).rowMajor.symm n)] at hn'
    exact hall _ ((pairScatter_lands wf idx _ p q).1 hn')

/-- The gather's dimension numbers: no offset axes, both operand axes collapsed (slices of one entry), the pair's words
    are the starts on axes 0 and 1, the pair runs along axis 1 of the indices. -/
abbrev pairGather (R C : Nat)
    (wf : GatherDims.WF ⟨2, ![R, C]⟩ ⟨2, ![R, 2]⟩ ⟨1, ![R]⟩ [] [0, 1] [] [0, 1] [] 1 ![1, 1]) :
    GatherDims ⟨2, ![R, C]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- THE GATHER READ AT `t`: the operand at row `t`'s pair, each word read signed and clamped into the matrix. -/
theorem gather_pair_apply {R C w : Nat} (hR : 0 < R) (hC : 0 < C) (wf)
    (x : (⟨2, ![R, C]⟩ : Shape).Idx → α) (idx : IVec ⟨2, ![R, 2]⟩ w) (t : Fin R) :
    Host.gather (pairGather R C wf) x idx (ix1 t) =
      x (ix2 ⟨min (idx (ix2 t 0)).toInt.toNat (R - 1), by omega⟩ ⟨min (idx (ix2 t 1)).toInt.toNat (C - 1), by omega⟩) := by
  unfold Host.gather
  congr 1
  funext a
  refine Fin.ext ?_
  match a with
  | ⟨0, _⟩ =>
    show (pairGather R C wf).start (ix1 t) idx 0 + (pairGather R C wf).batchCoord (ix1 t) 0 + (pairGather R C wf).offCoord (ix1 t) 0 = _
    rw [GatherDims.batchCoord_eq_zero _ _ _ List.not_mem_nil,
      GatherDims.offCoord_eq_zero _ _ _ (fun h => ((GatherDims.mem_sKept _ _).mp h).1
        (show (0 : Fin 2) ∈ ([0, 1] : List (Fin 2)) by decide))]
    simp only [Nat.add_zero]
    unfold GatherDims.start
    rw [dif_pos (show (0 : Fin 2) ∈ ([0, 1] : List (Fin 2)) by decide)]
    have hsi : (pairGather R C wf).siIdx (ix1 t) ⟨List.idxOf (0 : Fin 2) (pairGather R C wf).startIndexMap,
        List.idxOf_lt_length_iff.2 (show (0 : Fin 2) ∈ ([0, 1] : List (Fin 2)) by decide)⟩ = ix2 t 0 := by
      funext b; refine Fin.ext ?_
      match b with
      | ⟨0, _⟩ => rfl
      | ⟨1, _⟩ => rfl
    rw [hsi]
    rfl
  | ⟨1, _⟩ =>
    show (pairGather R C wf).start (ix1 t) idx 1 + (pairGather R C wf).batchCoord (ix1 t) 1 + (pairGather R C wf).offCoord (ix1 t) 1 = _
    rw [GatherDims.batchCoord_eq_zero _ _ _ List.not_mem_nil,
      GatherDims.offCoord_eq_zero _ _ _ (fun h => ((GatherDims.mem_sKept _ _).mp h).1
        (show (1 : Fin 2) ∈ ([0, 1] : List (Fin 2)) by decide))]
    simp only [Nat.add_zero]
    unfold GatherDims.start
    rw [dif_pos (show (1 : Fin 2) ∈ ([0, 1] : List (Fin 2)) by decide)]
    have hsi : (pairGather R C wf).siIdx (ix1 t) ⟨List.idxOf (1 : Fin 2) (pairGather R C wf).startIndexMap,
        List.idxOf_lt_length_iff.2 (show (1 : Fin 2) ∈ ([0, 1] : List (Fin 2)) by decide)⟩ = ix2 t 1 := by
      funext b; refine Fin.ext ?_
      match b with
      | ⟨0, _⟩ => rfl
      | ⟨1, _⟩ => rfl
    rw [hsi]
    rfl

end Pair

section Words

/-- A number below 2^31, as a 32-bit word, reads back as itself … -/
theorem toNat_ofNat32 (n : Nat) (h : n < 2 ^ 31) : (BitVec.ofNat 32 n).toNat = n := by
  rw [BitVec.toNat_ofNat]; exact Nat.mod_eq_of_lt (by omega)

/-- … also when the word is read as a signed integer … -/
theorem toInt_ofNat32 (n : Nat) (h : n < 2 ^ 31) : (BitVec.ofNat 32 n).toInt = (n : Int) := by
  rw [BitVec.toInt_eq_toNat_cond, toNat_ofNat32 n h, if_pos (by omega)]

/-- … and it is not negative: the signed comparison with zero answers "no". -/
theorem slt_zero_ofNat32 (n : Nat) (h : n < 2 ^ 31) : IntOp.cmpi .slt (BitVec.ofNat 32 n) 0#32 = 0#1 := by
  have : (BitVec.ofNat 32 n).slt 0#32 = false := by
    rw [BitVec.slt, toInt_ofNat32 n h]; simp
  show BitVec.ofBool ((BitVec.ofNat 32 n).slt 0#32) = 0#1
  rw [this]; rfl

/-- Adding two numbers as words is the word of their sum. -/
theorem addi_ofNat32 (a b : Nat) : IntOp.addi (BitVec.ofNat 32 a) (BitVec.ofNat 32 b) = BitVec.ofNat 32 (a + b) := by
  show BitVec.ofNat 32 a + BitVec.ofNat 32 b = _
  rw [BitVec.ofNat_add]

end Words

end Cert.RefSide

end
-- ==== Proof.RefSideCos.lean ====
/-
  The reference's cosine blocks, read at one entry.

  The reference stacks the noise rows on top of the feature rows (an array of 8192 rows), and computes in one go the
  4096 x 8192 matrix of cosines of each feature row against each stacked row; it does the same with the
  reference-feature rows stacked on themselves for the weights. Here each of those matrices is read at an entry (i, j)
  and identified with the specification's cosine of row i against row j of the stacked array; the stacked array's rows
  are then named: row j is the first array's row j for j < 4096 and the second array's row j - 4096 otherwise.
-/
import proofs.«101681_j87290915323999_1_alg».proof.Proof.Gen.ReferenceIdeal.Read
import proofs.«101681_j87290915323999_1_alg».proof.Proof.Spec

noncomputable section

namespace Cert.RefSide

open Cert.ReferenceIdeal Cert.ReferenceIdeal.Gen Cert.ReferenceIdeal.Read Idealize.ShloMosaic Idealize.ShloMosaic.ValueIdx Cert.Contrast

/-- Entry (i, j) of the 4096 x 8192 cosine matrix is the cosine of feature row i and row j of the stacked array. -/
theorem cos_block (f nz : (⟨S4096x1024, .f32⟩ : BufTy).Contents (Elt Ideal)) (i : Fin 4096) (j : Fin 8192) :
    val_main_v16 (F := Ideal) f nz (ix2 i j) = cos f (val_main_v0 (F := Ideal) f nz) i j := by
  have el : ∀ k : Fin 1024, lidx_main_v2 (ix2 i j) k = ix2 i k := fun k => funext fun a => by
    match a with | ⟨0, _⟩ => rfl | ⟨1, _⟩ => rfl
  have er : ∀ k : Fin 1024, idx_main_v1 (ridx_main_v2 (ix2 i j) k) = ix2 j k := fun k => funext fun a => by
    match a with | ⟨0, _⟩ => rfl | ⟨1, _⟩ => rfl
  have e4 : ∀ k : Fin 1024, idx_main_v4 (idx_main_v9 (idx_main_v11 (ix2 i j))) k = ix2 i k := fun k => funext fun a => by
    match a with | ⟨0, _⟩ => rfl | ⟨1, _⟩ => rfl
  have e7 : ∀ k : Fin 1024, idx_main_v7 (idx_main_v10 (idx_main_v12 (ix2 i j))) k = ix2 j k := fun k => funext fun a => by
    match a with | ⟨0, _⟩ => rfl | ⟨1, _⟩ => rfl
  simp only [val_main_v16_apply, val_main_v2_apply, val_main_v1_apply, val_main_v15_apply, val_main_v13_apply,
    val_main_v14_apply, val_main_cst_1_apply, val_main_v11_apply, val_main_v9_apply, val_main_v5_apply, val_main_v4_apply,
    val_main_cst_apply, val_main_v3_apply, val_main_v12_apply, val_main_v10_apply, val_main_v8_apply, val_main_v7_apply,
    val_main_cst_0_apply, val_main_v6_apply, el, er, e4, e7,
    Ideal.hostDivf_def, Ideal.maximumf_def, Ideal.mulf_def, Ideal.hostUnary_sqrt_def, Ideal.ofBits_def,
    Ideal.ofBits_zero_f32, zero_add]
  rfl

/-- Entry (i, j) of the reference-feature cosine matrix is the cosine of reference row i and row j of the
    reference rows stacked on themselves. -/
theorem rcos_block (rf : (⟨S4096x256, .f32⟩ : BufTy).Contents (Elt Ideal)) (i : Fin 4096) (j : Fin 8192) :
    val_main_v34 (F := Ideal) rf (ix2 i j) = cos rf (val_main_v18 (F := Ideal) rf) i j := by
  have el : ∀ k : Fin 256, lidx_main_v20 (ix2 i j) k = ix2 i k := fun k => funext fun a => by
    match a with | ⟨0, _⟩ => rfl | ⟨1, _⟩ => rfl
  have er : ∀ k : Fin 256, idx_main_v19 (ridx_main_v20 (ix2 i j) k) = ix2 j k := fun k => funext fun a => by
    match a with | ⟨0, _⟩ => rfl | ⟨1, _⟩ => rfl
  have e4 : ∀ k : Fin 256, idx_main_v22 (idx_main_v27 (idx_main_v29 (ix2 i j))) k = ix2 i k := fun k => funext fun a => by
    match a with | ⟨0, _⟩ => rfl | ⟨1, _⟩ => rfl
  have e7 : ∀ k : Fin 256, idx_main_v25 (idx_main_v28 (idx_main_v30 (ix2 i j))) k = ix2 j k := fun k => funext fun a => by
    match a with | ⟨0, _⟩ => rfl | ⟨1, _⟩ => rfl
  simp only [val_main_v34_apply, val_main_v20_apply, val_main_v19_apply, val_main_v33_apply, val_main_v31_apply,
    val_main_v32_apply, val_main_cst_4_apply, val_main_v29_apply, val_main_v27_apply, val_main_v23_apply, val_main_v22_apply,
    val_main_cst_2_apply, val_main_v21_apply, val_main_v30_apply, val_main_v28_apply, val_main_v26_apply, val_main_v25_apply,
    val_main_cst_3_apply, val_main_v24_apply, el, er, e4, e7,
    Ideal.hostDivf_def, Ideal.maximumf_def, Ideal.mulf_def, Ideal.hostUnary_sqrt_def, Ideal.ofBits_def,
    Ideal.ofBits_zero_f32, zero_add]
  rfl

/-- Entry (i, j) of the weight matrix: half of one minus the cosine of reference row i and stacked reference row j. -/
theorem weight_block (rf : (⟨S4096x256, .f32⟩ : BufTy).Contents (Elt Ideal)) (i : Fin 4096) (j : Fin 8192) :
    val_main_v38 (F := Ideal) rf (ix2 i j) = weight rf (val_main_v18 (F := Ideal) rf) i j := by
  rw [val_main_v38_apply, val_main_v36_apply, rcos_block, val_main_v35_apply, val_main_cst_5_apply, val_main_v37_apply,
    val_main_cst_6_apply]
  rfl

end Cert.RefSide

end
-- ==== Proof.RefSideMask.lean ====
/-
  The reference's mask, read at one entry.

  The mask starts as a 4096 x 8192 matrix of ones; a first scatter writes 0.0 at the entries (t, t), a second at the
  entries (t, t + 4096), t = 0 … 4095. The index pairs are built from the row counter 0 … 4095 by integer
  operations that wrap a negative index around (none is negative here, so they leave the counter as it is).
  Entry (i, j) of the finished mask is therefore 0 when j = i or j = i + 4096 and 1 otherwise: in either half of the
  columns, it is the specification's "off the diagonal" indicator of i and the column's position inside its half.
-/
import proofs.«101681_j87290915323999_1_alg».proof.Proof.Gen.ReferenceIdeal.Read
import proofs.«101681_j87290915323999_1_alg».proof.Proof.Spec
import proofs.«101681_j87290915323999_1_alg».proof.Proof.RefSideIdx
import Idealize.ShloMosaic.Lib.IdealHost

noncomputable section

namespace Cert.RefSide

open Cert.ReferenceIdeal Cert.ReferenceIdeal.Gen Cert.ReferenceIdeal.Read Idealize.ShloMosaic Idealize.ShloMosaic.ValueIdx Cert.Contrast

/-- The row counter's word at `t`. -/
theorem counter_word (t : Fin 4096) : val_main_v39 (F := Ideal) (ix1 t) = BitVec.ofNat 32 t.val := rfl

/-- The first scatter's pair at row `t` is (t, t). -/
theorem pairs1_row (t : Fin 4096) : val_main_v53 (F := Ideal) (ix2 t (0 : Fin 2)) = BitVec.ofNat 32 t.val := by
  unfold val_main_v53
  refine (concatenate_pair_apply_left (t := S4096x2) 1 (val_main_v51 (F := Ideal)) (val_main_v52 (F := Ideal)) _
    (ix2 t (0 : Fin 2)) rfl (ix2 t (0 : Fin 1)) (fun b => by match b with | ⟨0, _⟩ => rfl | ⟨1, _⟩ => rfl)).trans ?_
  rw [val_main_v51_apply, val_main_v45_apply, val_main_v42_apply, val_main_v41_apply, val_main_c_apply]
  show Scalar.select (IntOp.cmpi .slt (BitVec.ofNat 32 t.val) 0#32) _ (BitVec.ofNat 32 t.val) = _
  rw [slt_zero_ofNat32 t.val (by omega), select_zero]

theorem pairs1_col (t : Fin 4096) : val_main_v53 (F := Ideal) (ix2 t (1 : Fin 2)) = BitVec.ofNat 32 t.val := by
  unfold val_main_v53
  refine (concatenate_pair_apply_right (t := S4096x2) 1 (val_main_v51 (F := Ideal)) (val_main_v52 (F := Ideal)) _
    (ix2 t (1 : Fin 2)) rfl rfl (ix2 t (0 : Fin 1))
    (fun b hb => by match b with | ⟨0, _⟩ => rfl | ⟨1, _⟩ => exact absurd rfl hb) rfl).trans ?_
  rw [val_main_v52_apply, val_main_v50_apply, val_main_v47_apply, val_main_v46_apply, val_main_c_9_apply]
  show Scalar.select (IntOp.cmpi .slt (BitVec.ofNat 32 t.val) 0#32) _ (BitVec.ofNat 32 t.val) = _
  rw [slt_zero_ofNat32 t.val (by omega), select_zero]

/-- The second scatter's pair at row `t` is (t, t + 4096). -/
theorem pairs2_row (t : Fin 4096) : val_main_v70 (F := Ideal) (ix2 t (0 : Fin 2)) = BitVec.ofNat 32 t.val := by
  unfold val_main_v70
  refine (concatenate_pair_apply_left (t := S4096x2) 1 (val_main_v68 (F := Ideal)) (val_main_v69 (F := Ideal)) _
    (ix2 t (0 : Fin 2)) rfl (ix2 t (0 : Fin 1)) (fun b => by match b with | ⟨0, _⟩ => rfl | ⟨1, _⟩ => rfl)).trans ?_
  rw [val_main_v68_apply, val_main_v62_apply, val_main_v59_apply, val_main_v58_apply, val_main_c_13_apply]
  show Scalar.select (IntOp.cmpi .slt (BitVec.ofNat 32 t.val) 0#32) _ (BitVec.ofNat 32 t.val) = _
  rw [slt_zero_ofNat32 t.val (by omega), select_zero]

theorem pairs2_col (t : Fin 4096) : val_main_v70 (F := Ideal) (ix2 t (1 : Fin 2)) = BitVec.ofNat 32 (t.val + 4096) := by
  unfold val_main_v70
  refine (concatenate_pair_apply_right (t := S4096x2) 1 (val_main_v68 (F := Ideal)) (val_main_v69 (F := Ideal)) _
    (ix2 t (1 : Fin 2)) rfl rfl (ix2 t (0 : Fin 1))
    (fun b hb => by match b with | ⟨0, _⟩ => rfl | ⟨1, _⟩ => exact absurd rfl hb) rfl).trans ?_
  rw [val_main_v69_apply, val_main_v67_apply, val_main_v64_apply, val_main_v63_apply, val_main_c_15_apply,
    val_main_v57_apply, val_main_v56_apply, val_main_c_12_apply]
  show Scalar.select (IntOp.cmpi .slt (IntOp.addi (BitVec.ofNat 32 t.val) (BitVec.ofNat 32 4096)) 0#32) _
    (IntOp.addi (BitVec.ofNat 32 t.val) (BitVec.ofNat 32 4096)) = _
  rw [addi_ofNat32, slt_zero_ofNat32 (t.val + 4096) (by omega), select_zero]

/-- The gather's pair at row `t` is (t, t). -/
theorem pairs3_row (t : Fin 4096) : val_main_v85 (F := Ideal) (ix2 t (0 : Fin 2)) = BitVec.ofNat 32 t.val := by
  unfold val_main_v85
  refine (concatenate_pair_apply_left (t := S4096x2) 1 (val_main_v83 (F := Ideal)) (val_main_v84 (F := Ideal)) _
    (ix2 t (0 : Fin 2)) rfl (ix2 t (0 : Fin 1)) (fun b => by match b with | ⟨0, _⟩ => rfl | ⟨1, _⟩ => rfl)).trans ?_
  rw [val_main_v83_apply, val_main_v77_apply, val_main_v74_apply, val_main_v73_apply, val_main_c_18_apply]
  show Scalar.select (IntOp.cmpi .slt (BitVec.ofNat 32 t.val) 0#32) _ (BitVec.ofNat 32 t.val) = _
  rw [slt_zero_ofNat32 t.val (by omega), select_zero]

theorem pairs3_col (t : Fin 4096) : val_main_v85 (F := Ideal) (ix2 t (1 : Fin 2)) = BitVec.ofNat 32 t.val := by
  unfold val_main_v85
  refine (concatenate_pair_apply_right (t := S4096x2) 1 (val_main_v83 (F := Ideal)) (val_main_v84 (F := Ideal)) _
    (ix2 t (1 : Fin 2)) rfl rfl (ix2 t (0 : Fin 1))
    (fun b hb => by match b with | ⟨0, _⟩ => rfl | ⟨1, _⟩ => exact absurd rfl hb) rfl).trans ?_
  rw [val_main_v84_apply, val_main_v82_apply, val_main_v79_apply, val_main_v78_apply, val_main_c_20_apply]
  show Scalar.select (IntOp.cmpi .slt (BitVec.ofNat 32 t.val) 0#32) _ (BitVec.ofNat 32 t.val) = _
  rw [slt_zero_ofNat32 t.val (by omega), select_zero]

/-- After the first scatter: 0 on the entries (i, i), 1 elsewhere. -/
theorem mask1_apply (i : Fin 4096) (j : Fin 8192) :
    val_main_v55 (F := Ideal) (ix2 i j) = if j.val = i.val then (0 : EReal) else 1 := by
  have S := scatter_pair_const (R := 4096) (C := 8192) (w := 32) (α := EReal)
    scatter_S4096x8192_S4096x2_S4096_n_01_01_1.wf (val_main_v40 (F := Ideal)) (val_main_v53 (F := Ideal))
    (val_main_v54 (F := Ideal)) 0
    (fun y => by rw [val_main_v54_apply, val_main_cst_11_apply]; exact Ideal.ofBits_zero_f32) i j
  have hi := i.isLt
  have hj := j.isLt
  by_cases h : j.val = i.val
  · rw [if_pos h]
    refine S.1 ⟨i, ?_, ?_⟩
    · rw [pairs1_row, toInt_ofNat32 _ (by omega)]
    · rw [pairs1_col, toInt_ofNat32 _ (by omega), h]
  · rw [if_neg h]
    refine (S.2 fun t ht => ?_).trans ?_
    · have ht' := t.isLt
      rw [pairs1_row, pairs1_col, toInt_ofNat32 _ (by omega)] at ht
      omega
    · rw [val_main_v40_apply, val_main_cst_7_apply]; exact Ideal.ofBits_one_f32

/-- The finished mask: 0 on the entries (i, i) and (i, i + 4096), 1 elsewhere. -/
theorem mask_apply (i : Fin 4096) (j : Fin 8192) :
    val_main_v72 (F := Ideal) (ix2 i j) = if j.val = i.val ∨ j.val = i.val + 4096 then (0 : EReal) else 1 := by
  have S := scatter_pair_const (R := 4096) (C := 8192) (w := 32) (α := EReal)
    scatter_S4096x8192_S4096x2_S4096_n_01_01_1.wf (val_main_v55 (F := Ideal)) (val_main_v70 (F := Ideal))
    (val_main_v71 (F := Ideal)) 0
    (fun y => by rw [val_main_v71_apply, val_main_cst_17_apply]; exact Ideal.ofBits_zero_f32) i j
  have hi := i.isLt
  have hj := j.isLt
  by_cases h : j.val = i.val + 4096
  · rw [if_pos (Or.inr h)]
    refine S.1 ⟨i, ?_, ?_⟩
    · rw [pairs2_row, toInt_ofNat32 _ (by omega)]
    · rw [pairs2_col, toInt_ofNat32 _ (by omega), h]
  · refine (S.2 fun t ht => ?_).trans ?_
    · have ht' := t.isLt
      rw [pairs2_row, pairs2_col, toInt_ofNat32 _ (by omega), toInt_ofNat32 _ (by omega)] at ht
      push_cast at ht
      omega
    · rw [mask1_apply]
      by_cases h' : j.val = i.val
      · rw [if_pos h', if_pos (Or.inl h')]
      · rw [if_neg h', if_neg (fun o => o.elim h' h)]

/-- In the first half of the columns the mask is the specification's indicator … -/
theorem mask_lo (i : Fin 4096) (j : Fin 4096) :
    val_main_v72 (F := Ideal) (ix2 i (⟨j.val, by omega⟩ : Fin 8192)) = offDiag i j := by
  have hi := i.isLt
  have hj := j.isLt
  rw [mask_apply]
  unfold offDiag
  by_cases h : i = j
  · rw [if_pos h, if_pos (Or.inl (by rw [h]))]
  · rw [if_neg h, if_neg]
    rintro (e | e)
    · exact h (Fin.ext e.symm)
    · simp only at e; omega

/-- … and in the second half too, of the column's position inside its half. -/
theorem mask_hi (i : Fin 4096) (j : Fin 4096) :
    val_main_v72 (F := Ideal) (ix2 i (⟨j.val + 4096, by omega⟩ : Fin 8192)) = offDiag i j := by
  have hi := i.isLt
  have hj := j.isLt
  rw [mask_apply]
  unfold offDiag
  by_cases h : i = j
  · rw [if_pos h, if_pos (Or.inr (by rw [h]))]
  · rw [if_neg h, if_neg]
    rintro (e | e)
    · simp only at e; omega
    · exact h (Fin.ext (by simp only at e; omega))

end Cert.RefSide

end
-- ==== Proof.RefSideSum.lean ====
/-
  The reference's two per-row quantities are the specification's.

  Row i of the masked, weighted matrix of exponentials is summed over its 8192 columns. The first 4096 columns are
  the noise rows and the last 4096 the feature rows (the stacked array), and the reference rows are stacked on
  themselves, so the sum splits into the specification's noise half and feature half, summand by summand. The
  positive pair is the gather of the matrix of exponentials at the pairs (i, i): column i lies in the noise half.
-/
import proofs.«101681_j87290915323999_1_alg».proof.Proof.Gen.ReferenceIdeal.Read
import proofs.«101681_j87290915323999_1_alg».proof.Proof.Spec
import proofs.«101681_j87290915323999_1_alg».proof.Proof.RefSideIdx
import proofs.«101681_j87290915323999_1_alg».proof.Proof.RefSideCos
import proofs.«101681_j87290915323999_1_alg».proof.Proof.RefSideMask

noncomputable section

namespace Cert.RefSide

open Cert.ReferenceIdeal Cert.ReferenceIdeal.Gen Cert.ReferenceIdeal.Read Idealize.ShloMosaic Idealize.ShloMosaic.ValueIdx Cert.Contrast

/-- Row j of the stacked array [noise; features], j in the first half, is noise row j … -/
theorem stack_lo (f nz : (⟨S4096x1024, .f32⟩ : BufTy).Contents (Elt Ideal)) (j : Fin 4096) (k : Fin 1024) :
    val_main_v0 (F := Ideal) f nz (ix2 (⟨j.val, by omega⟩ : Fin 8192) k) = nz (ix2 j k) := by
  unfold val_main_v0
  exact concatenate_pair_apply_left (t := S8192x1024) 0 nz f _ (ix2 (⟨j.val, by omega⟩ : Fin 8192) k) rfl (ix2 j k)
    (fun b => by match b with | ⟨0, _⟩ => rfl | ⟨1, _⟩ => rfl)

/-- … and row j + 4096 is feature row j. -/
theorem stack_hi (f nz : (⟨S4096x1024, .f32⟩ : BufTy).Contents (Elt Ideal)) (j : Fin 4096) (k : Fin 1024) :
    val_main_v0 (F := Ideal) f nz (ix2 (⟨j.val + 4096, by omega⟩ : Fin 8192) k) = f (ix2 j k) := by
  unfold val_main_v0
  exact concatenate_pair_apply_right (t := S8192x1024) 0 nz f _ (ix2 (⟨j.val + 4096, by omega⟩ : Fin 8192) k) rfl rfl (ix2 j k)
    (fun b hb => by match b with | ⟨0, _⟩ => exact absurd rfl hb | ⟨1, _⟩ => rfl) rfl

/-- The reference rows stacked on themselves: rows j and j + 4096 are both reference row j. -/
theorem rstack_lo (rf : (⟨S4096x256, .f32⟩ : BufTy).Contents (Elt Ideal)) (j : Fin 4096) (k : Fin 256) :
    val_main_v18 (F := Ideal) rf (ix2 (⟨j.val, by omega⟩ : Fin 8192) k) = rf (ix2 j k) := by
  unfold val_main_v18
  exact concatenate_pair_apply_left (t := S8192x256) 0 rf rf _ (ix2 (⟨j.val, by omega⟩ : Fin 8192) k) rfl (ix2 j k)
    (fun b => by match b with | ⟨0, _⟩ => rfl | ⟨1, _⟩ => rfl)

theorem rstack_hi (rf : (⟨S4096x256, .f32⟩ : BufTy).Contents (Elt Ideal)) (j : Fin 4096) (k : Fin 256) :
    val_main_v18 (F := Ideal) rf (ix2 (⟨j.val + 4096, by omega⟩ : Fin 8192) k) = rf (ix2 j k) := by
  unfold val_main_v18
  exact concatenate_pair_apply_right (t := S8192x256) 0 rf rf _ (ix2 (⟨j.val + 4096, by omega⟩ : Fin 8192) k) rfl rfl (ix2 j k)
    (fun b hb => by match b with | ⟨0, _⟩ => exact absurd rfl hb | ⟨1, _⟩ => rfl) rfl

/-- Entry (i, j) of the summed matrix, before the columns are told apart: the specification's summand against the
    stacked arrays, with the mask's entry. -/
theorem summand_block (f nz : (⟨S4096x1024, .f32⟩ : BufTy).Contents (Elt Ideal))
    (rf : (⟨S4096x256, .f32⟩ : BufTy).Contents (Elt Ideal)) (i : Fin 4096) (j : Fin 8192) :
    val_main_v88 (F := Ideal) f nz rf (ix2 i j) =
      term f (val_main_v0 (F := Ideal) f nz) rf (val_main_v18 (F := Ideal) rf) (val_main_v72 (F := Ideal) (ix2 i j)) i j := by
  rw [val_main_v88_apply, val_main_v87_apply, val_main_v17_apply, cos_block, weight_block]
  rfl

/-- A summand in the noise half … -/
theorem summand_lo (f nz : (⟨S4096x1024, .f32⟩ : BufTy).Contents (Elt Ideal))
    (rf : (⟨S4096x256, .f32⟩ : BufTy).Contents (Elt Ideal)) (i j : Fin 4096) :
    val_main_v88 (F := Ideal) f nz rf (ix2 i (⟨j.val, by omega⟩ : Fin 8192)) = term f nz rf rf (offDiag i j) i j := by
  rw [summand_block]
  exact term_congr (fun _ => rfl) (fun k => stack_lo f nz j k) (fun _ => rfl) (fun k => rstack_lo rf j k) (mask_lo i j)

/-- … and in the feature half. -/
theorem summand_hi (f nz : (⟨S4096x1024, .f32⟩ : BufTy).Contents (Elt Ideal))
    (rf : (⟨S4096x256, .f32⟩ : BufTy).Contents (Elt Ideal)) (i j : Fin 4096) :
    val_main_v88 (F := Ideal) f nz rf (ix2 i (⟨j.val + 4096, by omega⟩ : Fin 8192)) = term f f rf rf (offDiag i j) i j := by
  rw [summand_block]
  exact term_congr (fun _ => rfl) (fun k => stack_hi f nz j k) (fun _ => rfl) (fun k => rstack_hi rf j k) (mask_hi i j)

/-- THE NEGATIVE SUM: the reference's row sum (before its epsilon is added) is the specification's. -/
theorem ref_negative (f nz : (⟨S4096x1024, .f32⟩ : BufTy).Contents (Elt Ideal))
    (rf : (⟨S4096x256, .f32⟩ : BufTy).Contents (Elt Ideal)) (i : Fin 4096) :
    val_main_v89 (F := Ideal) f nz rf (ix1 i) = negative f nz rf i := by
  have e : ∀ k : Fin 8192, idx_main_v89 (ix1 i) k = ix2 i k := fun k => funext fun a => by
    match a with | ⟨0, _⟩ => rfl | ⟨1, _⟩ => rfl
  rw [val_main_v89_apply, val_main_cst_22_apply]
  simp only [e, Ideal.ofBits_def, Ideal.ofBits_zero_f32, zero_add]
  have split := Fin.sum_univ_add (a := 4096) (b := 4096)
    (fun k : Fin (4096 + 4096) => val_main_v88 (F := Ideal) f nz rf (ix2 i (k : Fin 8192)))
  refine split.trans ?_
  unfold negative
  refine congrArg₂ (· + ·) ?_ ?_
  · exact Finset.sum_congr rfl fun j _ => summand_lo f nz rf i j
  · refine Finset.sum_congr rfl fun j _ => ?_
    have ej : (Fin.natAdd 4096 j : Fin (4096 + 4096)) = (⟨j.val + 4096, by omega⟩ : Fin 8192) :=
      Fin.ext (Nat.add_comm 4096 j.val)
    exact (congrArg (fun k : Fin 8192 => val_main_v88 (F := Ideal) f nz rf (ix2 i k)) ej).trans (summand_hi f nz rf i j)

/-- THE POSITIVE PAIR: the gathered entry (i, i) of the matrix of exponentials is the specification's. -/
theorem ref_positive (f nz : (⟨S4096x1024, .f32⟩ : BufTy).Contents (Elt Ideal)) (i : Fin 4096) :
    val_main_v86 (F := Ideal) f nz (ix1 i) = positive f nz i := by
  have hi := i.isLt
  have hlt : i.val < 8192 := by omega
  have E : ∀ (a : Fin 4096) (b : Fin 8192), a.val = i.val → b.val = i.val →
      val_main_v17 (F := Ideal) f nz (ix2 a b) = positive f nz i := by
    intro a b ha hb
    obtain rfl : a = i := Fin.ext ha
    obtain rfl : b = (⟨a.val, hlt⟩ : Fin 8192) := Fin.ext hb
    rw [val_main_v17_apply, cos_block]
    show Ideal.exp (cos f (val_main_v0 (F := Ideal) f nz) a (⟨a.val, hlt⟩ : Fin 8192)) = Ideal.exp (cos f nz a a)
    rw [cos_congr (fun _ => rfl) (fun k => stack_lo f nz a k)]
  unfold val_main_v86
  refine (gather_pair_apply (R := 4096) (C := 8192) (by omega) (by omega)
    gather_S4096x8192_S4096x2_S4096_n_01_n_n_01_1_11.wf (val_main_v17 (F := Ideal) f nz) (val_main_v85 (F := Ideal)) i).trans ?_
  refine E _ _ ?_ ?_
  · show min (val_main_v85 (F := Ideal) (ix2 i (0 : Fin 2))).toInt.toNat (4096 - 1) = i.val
    rw [pairs3_row, toInt_ofNat32 _ (by omega), Int.toNat_natCast]; omega
  · show min (val_main_v85 (F := Ideal) (ix2 i (1 : Fin 2))).toInt.toNat (8192 - 1) = i.val
    rw [pairs3_col, toInt_ofNat32 _ (by omega), Int.toNat_natCast]; omega

end Cert.RefSide

end
-- ==== Proof.RefSideLoss.lean ====
/-
  The reference's last steps, over the two per-row quantities.

  After the row sums and the positive pairs, the reference adds eps to each negative sum, divides the positive pair
  by it, takes the logarithm, negates, sums the 4096 rows from zero and divides by 4096. A sum over the indices of
  a vector of length 4096 is the sum over its one coordinate; everything else is entry by entry.
-/
import proofs.«101681_j87290915323999_1_alg».proof.Proof.RefSideSum
import proofs.«101681_j87290915323999_1_alg».proof.Proof.Loss

noncomputable section

namespace Cert.RefSide

open Cert.ReferenceIdeal Cert.ReferenceIdeal.Gen Cert.ReferenceIdeal.Read Idealize.ShloMosaic Idealize.ShloMosaic.ValueIdx Cert.Contrast

/-- An index of a vector of length 4096 is its one coordinate. -/
def rowEquiv : S4096.Idx ≃ Fin 4096 where
  toFun j := j 0
  invFun t := ix1 t
  left_inv j := (eq_ix1 j).symm
  right_inv _ := rfl

/-- Row i's contribution: minus the logarithm of the positive pair over the negative sum plus eps. -/
theorem row_loss (f nz : (⟨S4096x1024, .f32⟩ : BufTy).Contents (Elt Ideal))
    (rf : (⟨S4096x256, .f32⟩ : BufTy).Contents (Elt Ideal)) (i : Fin 4096) :
    val_main_v94 (F := Ideal) f nz rf (ix1 i) =
      -(Ideal.log (Ideal.div (positive f nz i) (negative f nz rf i + eps))) := by
  rw [val_main_v94_apply, val_main_v93_apply, val_main_v92_apply, val_main_v91_apply, val_main_v90_apply,
    val_main_cst_23_apply, ref_negative, ref_positive]
  rfl

/-- THE LOSS: the reference's result is the specification's loss of the two per-row quantities. -/
theorem ref_loss (f nz : (⟨S4096x1024, .f32⟩ : BufTy).Contents (Elt Ideal))
    (rf : (⟨S4096x256, .f32⟩ : BufTy).Contents (Elt Ideal)) :
    val_main_v96 (F := Ideal) f nz rf = fun _ => loss (negative f nz rf) (positive f nz) := by
  funext j
  have hsum : (∑ y : S4096.Idx, val_main_v94 (F := Ideal) f nz rf y) =
      ∑ i : Fin 4096, -(Ideal.log (Ideal.div (positive f nz i) (negative f nz rf i + eps))) := by
    refine (Equiv.sum_comp rowEquiv.symm (fun y => val_main_v94 (F := Ideal) f nz rf y)).symm.trans ?_
    exact Finset.sum_congr rfl fun i _ => row_loss f nz rf i
  rw [val_main_v96_apply, val_main_v95_apply, val_main_cst_24_apply, val_main_cst_25_apply, hsum]
  rfl

end Cert.RefSide

end
-- ==== Proof.lean ====
/-
  A weighted contrastive loss: for features f, noise n (rows of length 1024) and references r (rows of length 256),
      cos x y i j  = <x_i, y_j> / max (|x_i| |y_j|) eps,      weight i j = (1 - cos r r i j) / 2,
      negative i   = sum_j exp (cos f n i j) weight i j [i ≠ j] + sum_j exp (cos f f i j) weight i j [i ≠ j],
      positive i   = exp (cos f n i i),        loss = mean_i  -log (positive i / (negative i + eps)).
  The kernel walks a 16 x 16 grid of (row tile, column tile) of 256 rows each: at a grid point it forms the three tiles of
  inner products and the norms, sums the tile's weighted, masked exponentials along the tile's columns, and adds the two
  column sums into a per-row accumulator that it resets in column tile 0 and writes back after column tile 15; on the
  diagonal tile it also stores the tile's diagonal of exp (cos f n), the positive pairs. The host then takes the logarithm
  and the mean. The reference stacks [n; f] and [r; r], forms the whole 4096 x 8192 matrices, masks the two diagonals by a
  scatter, reads the positive pairs by a gather and sums each row at once.
  On the extended reals both are the same function of the arguments: the kernel's running sum over sixteen column tiles of
  two tile-row sums is the reference's one sum over 8192 columns (addition is commutative and associative there, and the
  mask's 0 and 1 act as they should on every extended real), the tile's inner products and norms are the arrays' at the
  tile's rows, and the two programs end in the same operations on the per-row quantities. No finiteness is used.
  The frames: the region's body runs at every grid point in each of the four cases of its two conditions, the two arrays
  the region reads through two windows each are shared between those windows by halves, and the host operations after the
  region run beside them.
-/
import proofs.«101681_j87290915323999_1_alg».proof.Defs
import proofs.«101681_j87290915323999_1_alg».proof.Proof.Gen.Kernel
import proofs.«101681_j87290915323999_1_alg».proof.Proof.Gen.Kernel.Skeleton
import proofs.«101681_j87290915323999_1_alg».proof.Proof.Gen.Kernel.Launch
import proofs.«101681_j87290915323999_1_alg».proof.Proof.Gen.Kernel.Points
import proofs.«101681_j87290915323999_1_alg».proof.Proof.Gen.KernelIdeal
import proofs.«101681_j87290915323999_1_alg».proof.Proof.Gen.KernelIdeal.Skeleton
import proofs.«101681_j87290915323999_1_alg».proof.Proof.Gen.KernelIdeal.Launch
import proofs.«101681_j87290915323999_1_alg».proof.Proof.Gen.KernelIdeal.Points
import proofs.«101681_j87290915323999_1_alg».proof.Proof.Gen.ReferenceIdeal
import proofs.«101681_j87290915323999_1_alg».proof.Proof.Gen.ReferenceIdeal.Run
import proofs.«101681_j87290915323999_1_alg».proof.Proof.Gen.ReferenceIdeal.Read
import proofs.«101681_j87290915323999_1_alg».proof.Proof.Gen.Pre_finite_inputs
import proofs.«101681_j87290915323999_1_alg».proof.Proof.TileLaunch
import proofs.«101681_j87290915323999_1_alg».proof.Proof.TileFinal
import proofs.«101681_j87290915323999_1_alg».proof.Proof.TileIdeal
import proofs.«101681_j87290915323999_1_alg».proof.Proof.KerTail
import proofs.«101681_j87290915323999_1_alg».proof.Proof.WordTileLaunch
import proofs.«101681_j87290915323999_1_alg».proof.Proof.RefSideLoss
import Idealize.ShloMosaic.Adequacy
import Idealize.ShloMosaic.Init

noncomputable section

namespace Cert.Proof

open Idealize.ShloMosaic Idealize.ShloMosaic.TcCoe Idealize.SL.Sem
open Idealize.ShloMosaic.Pipeline (Dat)

/-- The word-level kernel runs and leaves its three arguments as they were: each is an input array of the region (the
    feature array through window 0, the noise array through window 2, the reference array through window 3), and an input
    array is never written. -/
theorem frame_k : Cert.frame_Kernel := fun m ρ _ =>
  (θ_run Cert.Kernel.defs _ _).mono (fun r h c =>
      ⟨((h c).1 0).trans ((Cert.Kernel.Tile.dats m 0 c).arrAt_in 0 rfl _),
       ((h c).1 2).trans ((Cert.Kernel.Tile.dats m 0 c).arrAt_in 2 rfl _),
       ((h c).1 3).trans ((Cert.Kernel.Tile.dats m 0 c).arrAt_in 3 rfl _)⟩)
    (Cert.Kernel.Tile.run_main (F := Bits) m ρ)

/-- The same of its idealization. -/
theorem frame_ki : Cert.frame_KernelIdeal := fun m ρ _ =>
  (θ_run Cert.KernelIdeal.defs _ _).mono (fun r h c =>
      ⟨((h c).1 0).trans ((Cert.KernelIdeal.Tile.dats m 0 c).arrAt_in 0 rfl _),
       ((h c).1 2).trans ((Cert.KernelIdeal.Tile.dats m 0 c).arrAt_in 2 rfl _),
       ((h c).1 3).trans ((Cert.KernelIdeal.Tile.dats m 0 c).arrAt_in 3 rfl _)⟩)
    (Cert.KernelIdeal.Tile.run_main (F := Ideal) m ρ)

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The kernel's result at the extended reals: the loss of the per-row negative sums and positive pairs of its arguments. The
    host operations after the region compute the loss of the two result arrays' columns; the arrays hold, row by row, the
    accumulated negative sums and the positive pairs, which are the specification's. -/
theorem kernel_result (m : (ℓ : Loc Cert.KernelIdeal.nD Cert.KernelIdeal.τ Cert.KernelIdeal.sig) → Buf (Elt Ideal) ℓ) (c : Dev Cert.KernelIdeal.nD) :
    Cert.KernelIdeal.Tile.finalVal m c Cert.KernelIdeal.main_v9
      = fun _ => Cert.Contrast.loss
          (Cert.Contrast.negative (Cert.KernelIdeal.TileIdeal.fOf m c) (Cert.KernelIdeal.TileIdeal.nzOf m c) (Cert.KernelIdeal.TileIdeal.rfOf m c))
          (Cert.Contrast.positive (Cert.KernelIdeal.TileIdeal.fOf m c) (Cert.KernelIdeal.TileIdeal.nzOf m c)) := by
  unfold Cert.KernelIdeal.Tile.finalVal
  rw [Cert.KerTail.tail_result, Cert.KernelIdeal.Tile.exitVal_neg, Cert.KernelIdeal.Tile.exitVal_pos,
    Cert.KernelIdeal.Tile.final5, Cert.KernelIdeal.Tile.final6]
  funext _
  exact congrArg₂ Cert.Contrast.loss (funext fun i => Cert.KernelIdeal.TileIdeal.neg_value m c i)
    (funext fun i => Cert.KernelIdeal.TileIdeal.pos_value m c i)

/-- At the extended reals the kernel's result buffer ends at the loss of its arguments' per-row quantities (the region's run,
    read) and the reference's at the same loss of arguments that agree (its generated run, read operation by operation). -/
theorem algebraic : Cert.algebraic_KernelIdeal_ReferenceIdeal := by
  intro m ρ m' ρ' _ hagree
  refine ⟨fun c => fun _ => Cert.Contrast.loss
      (Cert.Contrast.negative (Cert.KernelIdeal.TileIdeal.fOf m c) (Cert.KernelIdeal.TileIdeal.nzOf m c) (Cert.KernelIdeal.TileIdeal.rfOf m c))
      (Cert.Contrast.positive (Cert.KernelIdeal.TileIdeal.fOf m c) (Cert.KernelIdeal.TileIdeal.nzOf m c)), ?_, ?_⟩
  · refine (θ_run Cert.KernelIdeal.defs _ _).mono (fun r h c => ⟨?_, ?_, ?_, ?_⟩) (Cert.KernelIdeal.Tile.run_main (F := Ideal) m ρ)
    · exact ((h c).2 Cert.KernelIdeal.main_v9 (Pipeline.mem_restRefs_of _ rfl (by decide))).trans (kernel_result m c)
    · exact ((h c).1 0).trans ((Cert.KernelIdeal.Tile.dats m 0 c).arrAt_in 0 rfl _)
    · exact ((h c).1 2).trans ((Cert.KernelIdeal.Tile.dats m 0 c).arrAt_in 2 rfl _)
    · exact ((h c).1 3).trans ((Cert.KernelIdeal.Tile.dats m 0 c).arrAt_in 3 rfl _)
  · refine (θ_run Cert.ReferenceIdeal.defs _ _).mono (fun _ h c => ⟨?_, (h c).2⟩) (Cert.ReferenceIdeal.Value.run (F := Ideal) m' ρ')
    rw [(h c).1, Cert.ReferenceIdeal.Read.val_main_v96_eq, Cert.RefSide.ref_loss, (hagree c).1, (hagree c).2.1, (hagree c).2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
